-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v46_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v46_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S128x256 : Shape := ⟨2, ![128, 256]⟩
abbrev S256 : Shape := ⟨1, ![256]⟩
abbrev S256x16 : Shape := ⟨2, ![256, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S2x6400000 : Shape := ⟨2, ![2, 6400000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg7 : FVec F S16x16 .f32) (main_arg8 : FVec F S16 .f32) (main_arg9 : FVec F S16x2 .f32) (main_arg10 : FVec F S2 .f32) (main_v33 : IVec S_ 1) : IVec S_ 1 :=
  let main_v34 : FVec F S16x16 .f32 := Host.absf main_arg7
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x2 .f32 := Host.absf main_arg9
  let main_cst_16 : FVec F S_ .f32 := constant S_ .f32 0x7F800000#32
  let main_v45 : FVec F S16x2 .f32 := broadcastInDim S16x2 ![] bcast_S_S16x2 main_cst_16
  let main_v46 : IVec S16x2 1 := cmpf .olt main_v44 main_v45
  let main_c_17 : IVec S_ 1 := constantI S_ 1 1#1
  let main_v47 : IVec S_ 1 := (fun x v => Host.reduce IntOp.andi x v reducesTo_S16x2_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg4 : FVec F S16 .f32) (main_arg5 : FVec F S16x16 .f32) (main_arg6 : FVec F S16 .f32) (main_arg7 : FVec F S16x16 .f32) (main_arg8 : FVec F S16 .f32) (main_arg9 : FVec F S16x2 .f32) (main_arg10 : FVec F S2 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg5
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S200000x128 .f32) (main_arg1 : FVec F S128x256 .f32) (main_arg2 : FVec F S256 .f32) (main_arg3 : FVec F S256x16 .f32) (main_arg4 : FVec F S16 .f32) (main_arg5 : FVec F S16x16 .f32) (main_arg6 : FVec F S16 .f32) (main_arg7 : FVec F S16x16 .f32) (main_arg8 : FVec F S16 .f32) (main_arg9 : FVec F S16x2 .f32) (main_arg10 : FVec F S2 .f32) (main_arg11 : IVec S2x6400000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_arg5 main_arg6 main_arg7 main_arg8 main_arg9 main_arg10 main_v13 main_v16
-- ==== Kernel.lean ====
abbrev S200000x128 : Shape := ⟨2, ![200000, 128]⟩
abbrev S128x256 : Shape := ⟨2, ![128, 256]⟩
abbrev S256 : Shape := ⟨1, ![256]⟩
abbrev S256x16 : Shape := ⟨2, ![256, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S2x6400000 : Shape := ⟨2, ![2, 6400000]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x1 : Shape := ⟨2, ![200000, 1]⟩
abbrev S1x256 : Shape := ⟨2, ![1, 256]⟩
abbrev S1x16 : Shape := ⟨2, ![1, 16]⟩
abbrev S200000x16 : Shape := ⟨2, ![200000, 16]⟩
abbrev S4000x128 : Shape := ⟨2, ![4000, 128]⟩
abbrev S4000x1 : Shape := ⟨2, ![4000, 1]⟩
abbrev S4000x16 : Shape := ⟨2, ![4000, 16]⟩
abbrev S4000x256 : Shape := ⟨2, ![4000, 256]⟩
abbrev S6600000x16 : Shape := ⟨2, ![6600000, 16]⟩
abbrev S1x1 : Shape := ⟨2, ![1, 1]⟩
abbrev S4000 : Shape := ⟨1, ![4000]⟩

abbrev nBuf : Space → Nat
  | .hbm => 75
  | .vmem => 30
  | .smem => 0
  | _ => 0

abbrev bufTy : (tb : Table) → Fin (tcTables nBuf tb) → BufTy
  | .hbm, ⟨0, _⟩ => ⟨S200000x128, .f32⟩
  | .hbm, ⟨1, _⟩ => ⟨S128x256, .f32⟩
  | .hbm, ⟨2, _⟩ => ⟨S256, .f32⟩
  | .hbm, ⟨3, _⟩ => ⟨S256x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16x2, .f32⟩
  | .hbm, ⟨10, _⟩ => ⟨S2, .f32⟩
  | .hbm, ⟨11, _⟩ => ⟨S2x6400000, .i32⟩
  | .hbm, ⟨12, _⟩ => ⟨S200000, .i32⟩
  | .hbm, ⟨13, _⟩ => ⟨S1x6400000, .i32⟩
  | .hbm, ⟨14, _⟩ => ⟨S6400000, .i32⟩
  | .hbm, ⟨15, _⟩ => ⟨S6600000, .i32⟩
  | .hbm, ⟨16, _⟩ => ⟨S1x6400000, .i32⟩
  | .hbm, ⟨17, _⟩ => ⟨S6400000, .i32⟩
  | .hbm, ⟨18, _⟩ => ⟨S6600000, .i32⟩
  | .hbm, ⟨19, _⟩ => ⟨S_, .f32⟩
  | .hbm, ⟨20, _⟩ => ⟨S6600000, .f32⟩
  | .hbm, ⟨21, _⟩ => ⟨S_, .f32⟩
  | .hbm, ⟨22, _⟩ => ⟨S200000, .f32⟩
  | .hbm, ⟨23, _⟩ => ⟨S6600000x1, .i32⟩
  | .hbm, ⟨24, _⟩ => ⟨S200000, .f32⟩
  | .hbm, ⟨25, _⟩ => ⟨S_, .f32⟩
  | .hbm, ⟨26, _⟩ => ⟨S200000, .f32⟩
  | .hbm, ⟨27, _⟩ => ⟨S200000, .i1⟩
  | .hbm, ⟨28, _⟩ => ⟨S200000, .f32⟩
  | .hbm, ⟨29, _⟩ => ⟨S_, .f32⟩
  | .hbm, ⟨30, _⟩ => ⟨S_, .f32⟩
  | .hbm, ⟨31, _⟩ => ⟨S200000, .f32⟩
  | .hbm, ⟨32, _⟩ => ⟨S200000, .f32⟩
  | .hbm, ⟨33, _⟩ => ⟨S200000x1, .f32⟩
  | .hbm, ⟨34, _⟩ => ⟨S1x256, .f32⟩
  | .hbm, ⟨35, _⟩ => ⟨S1x16, .f32⟩
  | .hbm, ⟨36, _⟩ => ⟨S200000x16, .f32⟩
  | .hbm, ⟨37, _⟩ => ⟨S_, .i32⟩
  | .hbm, ⟨38, _⟩ => ⟨S6600000, .i32⟩
  | .hbm, ⟨39, _⟩ => ⟨S6600000, .i1⟩
  | .hbm, ⟨40, _⟩ => ⟨S_, .i32⟩
  | .hbm, ⟨41, _⟩ => ⟨S6600000, .i32⟩
  | .hbm, ⟨42, _⟩ => ⟨S6600000, .i32⟩
  | .hbm, ⟨43, _⟩ => ⟨S6600000, .i32⟩
  | .hbm, ⟨44, _⟩ => ⟨S6600000x1, .i32⟩
  | .hbm, ⟨45, _⟩ => ⟨S6600000x16, .f32⟩
  | .hbm, ⟨46, _⟩ => ⟨S_, .f32⟩
  | .hbm, ⟨47, _⟩ => ⟨S200000x16, .f32⟩
  | .hbm, ⟨48, _⟩ => ⟨S6600000x1, .i32⟩
  | .hbm, ⟨49, _⟩ => ⟨S200000x16, .f32⟩
  | .hbm, ⟨50, _⟩ => ⟨S1x16, .f32⟩
  | .hbm, ⟨51, _⟩ => ⟨S200000x16, .f32⟩
  | .hbm, ⟨52, _⟩ => ⟨S_, .i32⟩
  | .hbm, ⟨53, _⟩ => ⟨S6600000, .i32⟩
  | .hbm, ⟨54, _⟩ => ⟨S6600000, .i1⟩
  | .hbm, ⟨55, _⟩ => ⟨S_, .i32⟩
  | .hbm, ⟨56, _⟩ => ⟨S6600000, .i32⟩
  | .hbm, ⟨57, _⟩ => ⟨S6600000, .i32⟩
  | .hbm, ⟨58, _⟩ => ⟨S6600000, .i32⟩
  | .hbm, ⟨59, _⟩ => ⟨S6600000x1, .i32⟩
  | .hbm, ⟨60, _⟩ => ⟨S6600000x16, .f32⟩
  | .hbm, ⟨61, _⟩ => ⟨S_, .f32⟩
  | .hbm, ⟨62, _⟩ => ⟨S200000x16, .f32⟩
  | .hbm, ⟨63, _⟩ => ⟨S6600000x1, .i32⟩
  | .hbm, ⟨64, _⟩ => ⟨S200000x16, .f32⟩
  | .hbm, ⟨65, _⟩ => ⟨S_, .f32⟩
  | .hbm, ⟨66, _⟩ => ⟨S16, .f32⟩
  | .hbm, ⟨67, _⟩ => ⟨S_, .f32⟩
  | .hbm, ⟨68, _⟩ => ⟨S_, .f32⟩
  | .hbm, ⟨69, _⟩ => ⟨S1x16, .f32⟩
  | .hbm, ⟨70, _⟩ => ⟨S1x16, .f32⟩
  | .hbm, ⟨71, _⟩ => ⟨S1x1, .f32⟩
  | .hbm, ⟨72, _⟩ => ⟨S200000x16, .f32⟩
  | .hbm, ⟨73, _⟩ => ⟨S200000x1, .f32⟩
  | .hbm, ⟨74, _⟩ => ⟨S200000, .f32⟩
  | .local _ .vmem, ⟨0, _⟩ => ⟨S4000x128, .f32⟩
  | .local _ .vmem, ⟨1, _⟩ => ⟨S4000x128, .f32⟩
  | .local _ .vmem, ⟨2, _⟩ => ⟨S128x256, .f32⟩
  | .local _ .vmem, ⟨3, _⟩ => ⟨S1x256, .f32⟩
  | .local _ .vmem, ⟨4, _⟩ => ⟨S256x16, .f32⟩
  | .local _ .vmem, ⟨5, _⟩ => ⟨S1x16, .f32⟩
  | .local _ .vmem, ⟨6, _⟩ => ⟨S16x16, .f32⟩
  | .local _ .vmem, ⟨7, _⟩ => ⟨S4000x1, .f32⟩
  | .local _ .vmem, ⟨8, _⟩ => ⟨S4000x1, .f32⟩
  | .local _ .vmem, ⟨9, _⟩ => ⟨S4000x16, .f32⟩
  | .local _ .vmem, ⟨10, _⟩ => ⟨S4000x16, .f32⟩
  | .local _ .vmem, ⟨11, _⟩ => ⟨S4000x16, .f32⟩
  | .local _ .vmem, ⟨12, _⟩ => ⟨S4000x16, .f32⟩
  | .local _ .vmem, ⟨13, _⟩ => ⟨S1x16, .f32⟩
  | .local _ .vmem, ⟨14, _⟩ => ⟨S4000x1, .f32⟩
  | .local _ .vmem, ⟨15, _⟩ => ⟨S4000x1, .f32⟩
  | .local _ .vmem, ⟨16, _⟩ => ⟨S16x16, .f32⟩
  | .local _ .vmem, ⟨17, _⟩ => ⟨S4000x16, .f32⟩
  | .local _ .vmem, ⟨18, _⟩ => ⟨S4000x16, .f32⟩
  | .local _ .vmem, ⟨19, _⟩ => ⟨S4000x16, .f32⟩
  | .local _ .vmem, ⟨20, _⟩ => ⟨S4000x16, .f32⟩
  | .local _ .vmem, ⟨21, _⟩ => ⟨S1x16, .f32⟩
  | .local _ .vmem, ⟨22, _⟩ => ⟨S4000x1, .f32⟩
  | .local _ .vmem, ⟨23, _⟩ => ⟨S4000x1, .f32⟩
  | .local _ .vmem, ⟨24, _⟩ => ⟨S1x16, .f32⟩
  | .local _ .vmem, ⟨25, _⟩ => ⟨S1x1, .f32⟩
  | .local _ .vmem, ⟨26, _⟩ => ⟨S4000x16, .f32⟩
  | .local _ .vmem, ⟨27, _⟩ => ⟨S4000x16, .f32⟩
  | .local _ .vmem, ⟨28, _⟩ => ⟨S4000x1, .f32⟩
  | .local _ .vmem, ⟨29, _⟩ => ⟨S4000x1, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46_0 : Ref sig .tc := ⟨.hbm, 72, rfl⟩
abbrev main_v46_1 : Ref sig .tc := ⟨.hbm, 73, rfl⟩
abbrev main_v47 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  shapeCasts_S200000_S200000x1 : S200000.ShapeCasts S200000x1
  shapeCasts_S256_S1x256 : S256.ShapeCasts S1x256
  shapeCasts_S16_S1x16 : S16.ShapeCasts S1x16
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x16_S16x16_0_0 : ∀ a, (![0, 0] : Fin 2 → Nat) a + S16x16.size a ≤ S16x16.size a
  h_S16x16 : 0 < S16x16.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x16 : S4000x1.Broadcasts S4000x16
  inb_S4000x16_S4000x16_0_0 : ∀ a, (![0, 0] : Fin 2 → Nat) a + S4000x16.size a ≤ S4000x16.size a
  h_S4000x16 : 0 < S4000x16.numel
  bcast_S_S200000x16 : S_.BroadcastsInDim S200000x16 (![] : Fin 0 → Fin S200000x16.rank)
  shapeCasts_S4000x16_S4000x16 : S4000x16.ShapeCasts S4000x16
  reducesTo_S16x2_S16_d1 : S16x2.ReducesTo [1] S16
  h_S_ : 0 < S_.numel
  reducesTo_S2_S_d0 : S2.ReducesTo [0] S_
  shapeCasts_S_S1x1 : S_.ShapeCasts S1x1
  reduces_S4000x16_S4000 : S4000x16.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  shapeCasts_S200000x1_S200000 : S200000x1.ShapeCasts S200000
  scatter_S200000_S6600000x1_S6600000_n_0_0_1_wf : ScatterDims.WF S200000 S6600000x1 S6600000 [] [0] [0] 1
  dot_S4000x128_S128x256_S4000x256_1_0_0_1_n_n_wf : DotDims.WF S4000x128 S128x256 S4000x256 [1] [0] [0] [1] [] []
  dot_S4000x256_S256x16_S4000x16_1_0_0_1_n_n_wf : DotDims.WF S4000x256 S256x16 S4000x16 [1] [0] [0] [1] [] []
  dot_S4000x16_S16x16_S4000x16_1_0_0_1_n_n_wf : DotDims.WF S4000x16 S16x16 S4000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S256x16.size a
  hwx0_3 : ∀ i : grid0.Coords, EltTy.bits .f32 = 32 ∨ (Rect.block (s := S256x16) S256x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x16.size a ≤ S16x16.size a
  hwx0_5 : ∀ i : grid0.Coords, EltTy.bits .f32 = 32 ∨ (Rect.block (s := S16x16) S16x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x1.size a ≤ S200000x1.size a
  hwx0_6 : ∀ i : grid0.Coords, EltTy.bits .f32 = 32 ∨ (Rect.block (s := S200000x1) S4000x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x16.size a ≤ S200000x16.size a
  hwx0_7 : ∀ i : grid0.Coords, EltTy.bits .f32 = 32 ∨ (Rect.block (s := S200000x16) S4000x16.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S200000x16.size a
  hwx1_0 : ∀ i : grid1.Coords, EltTy.bits .f32 = 32 ∨ (Rect.block (s := S200000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S200000x1.size a
  hwx1_2 : ∀ i : grid1.Coords, EltTy.bits .f32 = 32 ∨ (Rect.block (s := S200000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x16.size a ≤ S200000x16.size a
  hwx1_4 : ∀ i : grid1.Coords, EltTy.bits .f32 = 32 ∨ (Rect.block (s := S200000x16) S4000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x16.size a ≤ S200000x16.size a
  hwx2_0 : ∀ i : grid2.Coords, EltTy.bits .f32 = 32 ∨ (Rect.block (s := S200000x16) S4000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S200000x1.size a
  hwx2_2 : ∀ i : grid2.Coords, EltTy.bits .f32 = 32 ∨ (Rect.block (s := S200000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x16.size a ≤ S200000x16.size a
  hwx2_5 : ∀ i : grid2.Coords, EltTy.bits .f32 = 32 ∨ (Rect.block (s := S200000x16) S4000x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x1.size a ≤ S200000x1.size a
  hwx2_6 : ∀ i : grid2.Coords, EltTy.bits .f32 = 32 ∨ (Rect.block (s := S200000x1) S4000x1.size (cc2_transform_6 i) (hinb2_6 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x16_S4000x16_1_0_0_1_n_n : DotDims S4000x256 S256x16 S4000x16 where
  lhsContracting := [1]
  rhsContracting := [0]
  lhsNonContracting := [0]
  rhsNonContracting := [1]
  lhsBatch := []
  rhsBatch := []
  wf := dot_S4000x256_S256x16_S4000x16_1_0_0_1_n_n_wf
def dot_S4000x16_S16x16_S4000x16_1_0_0_1_n_n : DotDims S4000x16 S16x16 S4000x16 where
  lhsContracting := [1]
  rhsContracting := [0]
  lhsNonContracting := [0]
  rhsNonContracting := [1]
  lhsBatch := []
  rhsBatch := []
  wf := dot_S4000x16_S16x16_S4000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S4000x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18) S4000x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v28) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S4000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S4000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46_0) S4000x16.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v46_1) S4000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S200000x128 : Shape := ⟨2, ![200000, 128]⟩
abbrev S128x256 : Shape := ⟨2, ![128, 256]⟩
abbrev S256 : Shape := ⟨1, ![256]⟩
abbrev S256x16 : Shape := ⟨2, ![256, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S2x6400000 : Shape := ⟨2, ![2, 6400000]⟩
abbrev S200000x256 : Shape := ⟨2, ![200000, 256]⟩
abbrev S1x256 : Shape := ⟨2, ![1, 256]⟩
abbrev S_ : Shape := ⟨0, ![]⟩
abbrev S200000x16 : Shape := ⟨2, ![200000, 16]⟩
abbrev S1x16 : Shape := ⟨2, ![1, 16]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S6600000x1 : Shape := ⟨2, ![6600000, 1]⟩
abbrev S6600000x16 : Shape := ⟨2, ![6600000, 16]⟩
abbrev S200000x2 : Shape := ⟨2, ![200000, 2]⟩
abbrev S1x2 : Shape := ⟨2, ![1, 2]⟩

abbrev nBuf : Space → Nat
  | .hbm => 134
  | .vmem => 0
  | .smem => 0
  | _ => 0

abbrev hbmTy0_0 (i : Nat) : BufTy := match i % 128 with
  | 0 => ⟨S200000x128, .f32⟩
  | 1 => ⟨S128x256, .f32⟩
  | 2 => ⟨S256, .f32⟩
  | 3 => ⟨S256x16, .f32⟩
  | 4 => ⟨S16, .f32⟩
  | 5 => ⟨S16x16, .f32⟩
  | 6 => ⟨S16, .f32⟩
  | 7 => ⟨S16x16, .f32⟩
  | 8 => ⟨S16, .f32⟩
  | 9 => ⟨S16x2, .f32⟩
  | 10 => ⟨S2, .f32⟩
  | 11 => ⟨S2x6400000, .i32⟩
  | 12 => ⟨S200000x256, .f32⟩
  | 13 => ⟨S1x256, .f32⟩
  | 14 => ⟨S200000x256, .f32⟩
  | 15 => ⟨S200000x256, .f32⟩
  | 16 => ⟨S_, .f32⟩
  | 17 => ⟨S200000x256, .f32⟩
  | 18 => ⟨S200000x256, .i1⟩
  | 19 => ⟨S_, .f32⟩
  | 20 => ⟨S200000x256, .f32⟩
  | 21 => ⟨S200000x256, .f32⟩
  | 22 => ⟨S200000x256, .f32⟩
  | 23 => ⟨S200000x16, .f32⟩
  | 24 => ⟨S1x16, .f32⟩
  | 25 => ⟨S200000x16, .f32⟩
  | 26 => ⟨S200000x16, .f32⟩
  | 27 => ⟨S_, .f32⟩
  | 28 => ⟨S200000x16, .f32⟩
  | 29 => ⟨S200000x16, .i1⟩
  | 30 => ⟨S_, .f32⟩
  | 31 => ⟨S200000x16, .f32⟩
  | 32 => ⟨S200000x16, .f32⟩
  | 33 => ⟨S200000x16, .f32⟩
  | 34 => ⟨S200000, .i32⟩
  | 35 => ⟨S1x6400000, .i32⟩
  | 36 => ⟨S6400000, .i32⟩
  | 37 => ⟨S6600000, .i32⟩
  | 38 => ⟨S1x6400000, .i32⟩
  | 39 => ⟨S6400000, .i32⟩
  | 40 => ⟨S6600000, .i32⟩
  | 41 => ⟨S_, .f32⟩
  | 42 => ⟨S6600000, .f32⟩
  | 43 => ⟨S_, .f32⟩
  | 44 => ⟨S200000, .f32⟩
  | 45 => ⟨S6600000x1, .i32⟩
  | 46 => ⟨S200000, .f32⟩
  | 47 => ⟨S_, .f32⟩
  | 48 => ⟨S200000, .f32⟩
  | 49 => ⟨S200000, .i1⟩
  | 50 => ⟨S200000, .f32⟩
  | 51 => ⟨S_, .f32⟩
  | 52 => ⟨S_, .f32⟩
  | 53 => ⟨S200000, .f32⟩
  | 54 => ⟨S200000, .f32⟩
  | 55 => ⟨S_, .i32⟩
  | 56 => ⟨S6600000, .i32⟩
  | 57 => ⟨S6600000, .i1⟩
  | 58 => ⟨S_, .i32⟩
  | 59 => ⟨S6600000, .i32⟩
  | 60 => ⟨S6600000, .i32⟩
  | 61 => ⟨S6600000, .i32⟩
  | 62 => ⟨S6600000x1, .i32⟩
  | 63 => ⟨S6600000, .f32⟩
  | 64 => ⟨S_, .i32⟩
  | 65 => ⟨S6600000, .i32⟩
  | 66 => ⟨S6600000, .i1⟩
  | 67 => ⟨S_, .i32⟩
  | 68 => ⟨S6600000, .i32⟩
  | 69 => ⟨S6600000, .i32⟩
  | 70 => ⟨S6600000, .i32⟩
  | 71 => ⟨S6600000x1, .i32⟩
  | 72 => ⟨S6600000, .f32⟩
  | 73 => ⟨S6600000, .f32⟩
  | 74 => ⟨S200000x16, .f32⟩
  | 75 => ⟨S_, .i32⟩
  | 76 => ⟨S6600000, .i32⟩
  | 77 => ⟨S6600000, .i1⟩
  | 78 => ⟨S_, .i32⟩
  | 79 => ⟨S6600000, .i32⟩
  | 80 => ⟨S6600000, .i32⟩
  | 81 => ⟨S6600000, .i32⟩
  | 82 => ⟨S6600000x1, .i32⟩
  | 83 => ⟨S6600000x16, .f32⟩
  | 84 => ⟨S6600000x1, .f32⟩
  | 85 => ⟨S6600000x16, .f32⟩
  | 86 => ⟨S6600000x16, .f32⟩
  | 87 => ⟨S_, .f32⟩
  | 88 => ⟨S200000x16, .f32⟩
  | 89 => ⟨S6600000x1, .i32⟩
  | 90 => ⟨S200000x16, .f32⟩
  | 91 => ⟨S1x16, .f32⟩
  | 92 => ⟨S200000x16, .f32⟩
  | 93 => ⟨S200000x16, .f32⟩
  | 94 => ⟨S_, .f32⟩
  | 95 => ⟨S200000x16, .f32⟩
  | 96 => ⟨S200000x16, .i1⟩
  | 97 => ⟨S_, .f32⟩
  | 98 => ⟨S200000x16, .f32⟩
  | 99 => ⟨S200000x16, .f32⟩
  | 100 => ⟨S200000x16, .f32⟩
  | 101 => ⟨S200000x16, .f32⟩
  | 102 => ⟨S_, .i32⟩
  | 103 => ⟨S6600000, .i32⟩
  | 104 => ⟨S6600000, .i1⟩
  | 105 => ⟨S_, .i32⟩
  | 106 => ⟨S6600000, .i32⟩
  | 107 => ⟨S6600000, .i32⟩
  | 108 => ⟨S6600000, .i32⟩
  | 109 => ⟨S6600000x1, .i32⟩
  | 110 => ⟨S6600000x16, .f32⟩
  | 111 => ⟨S6600000x1, .f32⟩
  | 112 => ⟨S6600000x16, .f32⟩
  | 113 => ⟨S6600000x16, .f32⟩
  | 114 => ⟨S_, .f32⟩
  | 115 => ⟨S200000x16, .f32⟩
  | 116 => ⟨S6600000x1, .i32⟩
  | 117 => ⟨S200000x16, .f32⟩
  | 118 => ⟨S1x16, .f32⟩
  | 119 => ⟨S200000x16, .f32⟩
  | 120 => ⟨S200000x16, .f32⟩
  | 121 => ⟨S_, .f32⟩
  | 122 => ⟨S200000x16, .f32⟩
  | 123 => ⟨S200000x16, .i1⟩
  | 124 => ⟨S_, .f32⟩
  | 125 => ⟨S200000x16, .f32⟩
  | 126 => ⟨S200000x16, .f32⟩
  | 127 => ⟨S200000x16, .f32⟩
  | _ => ⟨S200000x128, .f32⟩

abbrev hbmTy0_1 (i : Nat) : BufTy := match i % 128 with
  | 0 => ⟨S200000x2, .f32⟩
  | 1 => ⟨S1x2, .f32⟩
  | 2 => ⟨S200000x2, .f32⟩
  | 3 => ⟨S200000x2, .f32⟩
  | 4 => ⟨S_, .f32⟩
  | 5 => ⟨S200000, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_call2_v0 : Ref sig .tc := ⟨.hbm, 52, rfl⟩
abbrev main_call2_v1 : Ref sig .tc := ⟨.hbm, 53, rfl⟩
abbrev main_v32 : Ref sig .tc := ⟨.hbm, 54, rfl⟩
abbrev main_c : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_10 : Ref sig .tc := ⟨.hbm, 75, rfl⟩
abbrev main_v49 : Ref sig .tc := ⟨.hbm, 76, rfl⟩
abbrev main_v50 : Ref sig .tc := ⟨.hbm, 77, rfl⟩
abbrev main_c_11 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_13 : Ref sig .tc := ⟨.hbm, 94, rfl⟩
abbrev main_v65 : Ref sig .tc := ⟨.hbm, 95, rfl⟩
abbrev main_v66 : Ref sig .tc := ⟨.hbm, 96, rfl⟩
abbrev main_cst_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_17 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_18 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_20 : Ref sig .tc := ⟨.hbm, 132, rfl⟩
abbrev main_v96 : Ref sig .tc := ⟨.hbm, 133, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S_S200000x16 : S_.BroadcastsInDim S200000x16 (![] : Fin 0 → Fin S200000x16.rank)
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  reducesTo_S200000x2_S200000_d1 : S200000x2.ReducesTo [1] S200000
  h_S_ : 0 < S_.numel
  dot_S200000x128_S128x256_S200000x256_1_0_0_1_n_n_wf : DotDims.WF S200000x128 S128x256 S200000x256 [1] [0] [0] [1] [] []
  dot_S200000x256_S256x16_S200000x16_1_0_0_1_n_n_wf : DotDims.WF S200000x256 S256x16 S200000x16 [1] [0] [0] [1] [] []
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S200000x16_S16x16_S200000x16_1_0_0_1_n_n_wf : DotDims.WF S200000x16 S16x16 S200000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x2_S200000x2_1_0_0_1_n_n_wf : DotDims.WF S200000x16 S16x2 S200000x2 [1] [0] [0] [1] [] []

variable [Facts₀]

def dot_S200000x128_S128x256_S200000x256_1_0_0_1_n_n : DotDims S200000x128 S128x256 S200000x256 where
  lhsContracting := [1]
  rhsContracting := [0]
  lhsNonContracting := [0]
  rhsNonContracting := [1]
  lhsBatch := []
  rhsBatch := []
  wf := dot_S200000x128_S128x256_S200000x256_1_0_0_1_n_n_wf
def dot_S200000x256_S256x16_S200000x16_1_0_0_1_n_n : DotDims S200000x256 S256x16 S200000x16 where
  lhsContracting := [1]
  rhsContracting := [0]
  lhsNonContracting := [0]
  rhsNonContracting := [1]
  lhsBatch := []
  rhsBatch := []
  wf := dot_S200000x256_S256x16_S200000x16_1_0_0_1_n_n_wf
def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S200000x16_S16x16_S200000x16_1_0_0_1_n_n : DotDims S200000x16 S16x16 S200000x16 where
  lhsContracting := [1]
  rhsContracting := [0]
  lhsNonContracting := [0]
  rhsNonContracting := [1]
  lhsBatch := []
  rhsBatch := []
  wf := dot_S200000x16_S16x16_S200000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x2_S200000x2_1_0_0_1_n_n : DotDims S200000x16 S16x2 S200000x2 where
  lhsContracting := [1]
  rhsContracting := [0]
  lhsNonContracting := [0]
  rhsNonContracting := [1]
  lhsBatch := []
  rhsBatch := []
  wf := dot_S200000x16_S16x2_S200000x2_1_0_0_1_n_n_wf

class Facts : Prop extends Facts₀ where

variable [Facts]
-- ==== Proof.KRun.lean ====
/-
  The kernel program's run with its results named.

  The program is three pipelined regions among stretches of host operations. Its frame run carries, as its last thread
  state, every unscoped buffer at the contents the last boundary holds (the fold of the host stretches and of each
  region's write-backs from the launch memory); read against the final state this gives the two result buffers at that
  fold's values, beside the arguments as launched.
-/
import proofs.«100905_j38654705664132_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run with its two results named: every weakly fair execution terminates, nothing faulting, with the
    two result buffers at what the last boundary holds there and the arguments as launched. -/
theorem run_named : θ_run defs (onTc (τ := τ) (main (F := F))) ⟨m, fun _ => 0, ρ⟩ (fun r => ∀ c : Dev nD,
      r.2.mem ((c.tc : Thread nD τ).loc main_v47) = W9 m ρ c (Proc.devRef .tc main_v47)
      ∧ r.2.mem ((c.tc : Thread nD τ).loc main_v46_0) = W9 m ρ c (Proc.devRef .tc main_v46_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v47 (by decide)), h c _ (mem_uc main_v46_0 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.KernelIdeal.Hand

end
-- ==== Proof.Spec.lean ====
/-
  The mathematics of the node network, stated once over the extended reals with no program in sight.

  A node's features go through two dense layers with a leaky activation, then through two rounds of message passing
  over the edge list with self loops: each round multiplies by a 16×16 matrix, sums over the edges arriving at a node
  the source's row weighted by 1/√(deg src) · 1/√(deg dst), adds a bias and applies the activation. The result is the
  last round's rows and, per node, the sum over the two output columns of a final 16×2 projection plus its bias.

  `act` is the activation as both programs spell it (a comparison with zero choosing between `z` and the slope
  times `z`); `dense` one row of a dense layer; `IsR` says an extended real is a real number.
-/
import Idealize.ShloMosaic.PureOps.Ideal
import Idealize.ShloMosaic.PureOps.Ideal.Laws

noncomputable section

namespace Cert.Gnn

open Idealize.ShloMosaic

/-- The literals the two programs share: zero, one and the activation's slope (the f32 nearest 1/100). -/
abbrev c0 : EReal := Ideal.ofBits .f32 0x00000000#32
abbrev c1 : EReal := Ideal.ofBits .f32 0x3F800000#32
abbrev cS : EReal := Ideal.ofBits .f32 0x3C23D70A#32

/-- The activation: `z` where `0 ≤ z`, the slope times `z` elsewhere. -/
def act (z : EReal) : EReal := Scalar.select (Ideal.cmp .oge z c0) z (cS * z)

/-- One entry of a dense layer's row: the row against column `c` of the weights, plus the bias. -/
def dense {K M : Nat} (x : Fin K → EReal) (W : Fin K → Fin M → EReal) (b : Fin M → EReal) (c : Fin M) : EReal :=
  (∑ k : Fin K, x k * W k c) + b c

/-- A row against column `c` of a matrix, no bias. -/
def rowMul {K M : Nat} (x : Fin K → EReal) (W : Fin K → Fin M → EReal) (c : Fin M) : EReal :=
  ∑ k : Fin K, x k * W k c

/-- The inverse square root of a degree, zero where the degree is not positive. -/
def invSqrtDeg (d : EReal) : EReal := Scalar.select (Ideal.cmp .ogt d c0) (Ideal.rsqrt d) c0

/-- An extended real that is a real number. -/
def IsR (a : EReal) : Prop := ∃ r : ℝ, a = (r : EReal)

end Cert.Gnn

end
-- ==== Proof.Rows.lean ====
/-
  What one node's row goes through, as functions of the row.

  `mlpRow`: the two dense layers with their activations, then the first graph layer's matrix. `convRow`: a graph
  layer's epilogue — the aggregated row scaled by the node's inverse square-root degree, plus the bias, through the
  activation — followed by the next matrix. `outRow`: the same epilogue with no matrix after it (the last layer).
  `projRow`: a row against a vector of folded projection weights, plus the folded bias.
-/
import proofs.«100905_j38654705664132_2_alg».proof.Proof.Spec

noncomputable section

namespace Cert.Gnn

/-- A feature row through both dense layers (each followed by the activation) and then through the matrix `cw`. -/
def mlpRow (x : Fin 128 → EReal) (W1 : Fin 128 → Fin 256 → EReal) (b1 : Fin 256 → EReal)
    (W2 : Fin 256 → Fin 16 → EReal) (b2 : Fin 16 → EReal) (cw : Fin 16 → Fin 16 → EReal) (j : Fin 16) : EReal :=
  rowMul (fun k => act (dense (fun k2 => act (dense x W1 b1 k2)) W2 b2 k)) cw j

/-- Entry `k` of a graph layer's output row: the aggregate scaled by `dv`, plus the bias, through the activation. -/
def outRow (agg : Fin 16 → EReal) (dv : EReal) (cb : Fin 16 → EReal) (k : Fin 16) : EReal :=
  act (agg k * dv + cb k)

/-- A graph layer's output row through the next layer's matrix. -/
def convRow (agg : Fin 16 → EReal) (dv : EReal) (cb : Fin 16 → EReal) (cw : Fin 16 → Fin 16 → EReal) (j : Fin 16) : EReal :=
  rowMul (outRow agg dv cb) cw j

/-- A row against folded projection weights, plus the folded bias. -/
def projRow (h : Fin 16 → EReal) (pw : Fin 16 → EReal) (pb : EReal) : EReal :=
  (∑ k : Fin 16, h k * pw k) + pb

end Cert.Gnn

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibLayout.lean ====
/-
  Unit axes added by a shape cast and filled by a broadcast, read at coordinates.

  A row statistic (a maximum or a sum along the last axis of an `[a, b]` array) comes back as an `[a]` vector; to
  combine it with the array again it is cast to a column `[a, 1]` and broadcast to `[a, b]`: entry (p, c) of the
  result is entry p of the vector. The same happens one rank up when every row of one `[a, c]` array is paired with
  every row of another `[b, c]` array: the first is cast to `[a, 1, c]` and broadcast along the new middle axis, the
  second, as `[1, b, c]`, along a new leading axis; entry (p, q, l) of the two results is entry (p, l) of the first and
  entry (q, l) of the second. Each lemma states one such step for arbitrary extents; a cast keeps the row-major
  position, a broadcast reads coordinate 0 on an axis of extent one and the same coordinate elsewhere.
-/
import Idealize.ShloMosaic.Lib.ValueLayout
import Idealize.ShloMosaic.Lib.Pipeline.Value
import Idealize.ShloMosaic.Lib.ValueIdx

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, c]` array cast to `[a, 1, c]` reads, at `(i, u, l)`, the operand at `(i, l)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (l : Fin c) : shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- An `[a, 1, c]` array broadcast to `[a, b, c]` reads, at `(p, q, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(p, q, l)`, the operand at `(0, q, l)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (l : Fin c) :
    broadcastTo ⟨3, ![a, b, c]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if b = 1 then 0 else q.val
    split
    · have := q.isLt; omega
    · rfl
  | ⟨2, _⟩ =>
    show l.val = if c = 1 then 0 else l.val
    split
    · have := l.isLt; omega
    · rfl

end Cert.LibLayout

end
-- ==== Proof.LibLayers.lean ====
/-
  A dense layer and the leaky activation on a block of rows, read at an entry, for any extents.

  On a block `X` of `M` rows the kernel's matrix unit forms `X · W` into a zero accumulator (its operands narrowed to
  bf16 first, which is the identity on the extended reals), adds the bias row spread down the rows and applies the
  activation entry by entry. Entry `(p, c)` of each step depends on row `p` of `X` only: it is `Cert.Gnn.dense`
  (resp. `rowMul`) of that row, and the activation of an array at an entry is `Cert.Gnn.act` of the entry.
-/
import proofs.«100905_j38654705664132_2_alg».proof.Proof.Spec
import proofs.«100905_j38654705664132_2_alg».proof.Proof.LibPlainDot
import proofs.«100905_j38654705664132_2_alg».proof.Proof.LibLayout
import Idealize.ShloMosaic.Lib.ValueLayout
import Idealize.ShloMosaic.Lib.Pipeline.Value
import Idealize.ShloMosaic.Lib.ValueIdx

noncomputable section

namespace Cert.LibLayers

open Idealize.ShloMosaic Idealize.ShloMosaic.ValueIdx Cert.Gnn

/-- Narrowing to bf16 is the identity on the extended reals. -/
theorem truncf_bf16_id {s : Shape} (v : FVec Ideal s .f32) (h : FTy.bf16.bits < FTy.f32.bits) :
    truncf .bf16 v h = v := rfl

/-- The activation of an array (a comparison with the zero splat choosing between the array and the slope splat times
    it), at an entry, is the activation of the entry. -/
theorem leaky_apply {s : Shape} (z : FVec Ideal s .f32) (i : s.Idx) :
    select (cmpf .oge z (broadcast s (Scalar.ofBits (F := Ideal) .f32 0x00000000#32))) z
      (mulf (broadcast s (Scalar.ofBits (F := Ideal) .f32 0x3C23D70A#32)) z) i = act (z i) := rfl

/-- The host's spelling of the same activation: the two splats are broadcasts of rank-0 constants. -/
theorem leaky_host_apply {s : Shape} (z zero slope : FVec Ideal s .f32) (hz : ∀ i, zero i = c0) (hs : ∀ i, slope i = cS)
    (i : s.Idx) : Scalar.select (FloatOps.cmpf .oge (z i) (zero i)) (z i) (FloatOps.mulf (slope i) (z i)) = act (z i) := by
  rw [hz, hs]; rfl

/-- A product of a block with a matrix into a zero accumulator, at entry `(p, c)`: row `p` against column `c`. -/
theorem matmul_rows_apply {M K N : ℕ} (X : FVec Ideal ⟨2, ![M, K]⟩ .f32) (W : FVec Ideal ⟨2, ![K, N]⟩ .f32)
    (h1 h2 : FTy.bf16.bits < FTy.f32.bits) (p : Fin M) (c : Fin N) :
    matmul (DotDims.plain M K N) none (truncf .bf16 X h1) (truncf .bf16 W h2)
        (constant (F := Ideal) ⟨2, ![M, N]⟩ .f32 0x00000000#32) (ix2 p c)
      = rowMul (fun k => X (ix2 p k)) (fun a b => W (ix2 a b)) c :=
  Cert.Sage.matmul_plain_zero_apply none (truncf .bf16 X h1) (truncf .bf16 W h2) p c

/-- A bias row `[1, N]` cast to its own shape and spread down `M` rows, at `(p, c)`: the row's entry `c`. -/
theorem bias_row_apply {M N : ℕ} (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (c : Fin N) :
    broadcastTo ⟨2, ![M, N]⟩ (shapeCast ⟨2, ![1, N]⟩ b hc) hb (ix2 p c) = b (ix2 (0 : Fin 1) c) := by
  rw [shapeCast_self, broadcastTo_1b_ab_apply]

/-- A column `[M, 1]` cast to its own shape and spread along `N` columns, at `(p, c)`: the column's entry `p`. -/
theorem col_apply {M N : ℕ} (d : FVec Ideal ⟨2, ![M, 1]⟩ .f32) (hc : (⟨2, ![M, 1]⟩ : Shape).ShapeCasts ⟨2, ![M, 1]⟩)
    (hb : (⟨2, ![M, 1]⟩ : Shape).Broadcasts ⟨2, ![M, N]⟩) (p : Fin M) (c : Fin N) :
    broadcastTo ⟨2, ![M, N]⟩ (shapeCast ⟨2, ![M, 1]⟩ d hc) hb (ix2 p c) = d (ix2 p (0 : Fin 1)) := by
  rw [shapeCast_self, Cert.LibLayout.broadcastTo_a1_ab_apply]

/-- A dense layer on a block, at entry `(p, c)`: `dense` of row `p`. -/
theorem dense_rows_apply {M K N : ℕ} (X : FVec Ideal ⟨2, ![M, K]⟩ .f32) (W : FVec Ideal ⟨2, ![K, N]⟩ .f32)
    (b : FVec Ideal ⟨2, ![1, N]⟩ .f32) (h1 h2 : FTy.bf16.bits < FTy.f32.bits)
    (hc : (⟨2, ![1, N]⟩ : Shape).ShapeCasts ⟨2, ![1, N]⟩) (hb : (⟨2, ![1, N]⟩ : Shape).Broadcasts ⟨2, ![M, N]⟩)
    (p : Fin M) (c : Fin N) :
    addf (matmul (DotDims.plain M K N) none (truncf .bf16 X h1) (truncf .bf16 W h2)
        (constant (F := Ideal) ⟨2, ![M, N]⟩ .f32 0x00000000#32))
        (broadcastTo ⟨2, ![M, N]⟩ (shapeCast ⟨2, ![1, N]⟩ b hc) hb) (ix2 p c)
      = dense (fun k => X (ix2 p k)) (fun a b' => W (ix2 a b')) (fun c' => b (ix2 (0 : Fin 1) c')) c := by
  rw [addf_apply, matmul_rows_apply, bias_row_apply]; rfl

end Cert.LibLayers

end
-- ==== Proof.Body.lean ====
/-
  The three kernels' bodies, read at an entry of the block they store.

  Each body loads its blocks whole, computes, and stores one block (the last body two). Entry `(p, j)` of what the
  first body stores is `mlpRow` of row `p` of its feature block, at `j`, times row `p`'s inverse square-root degree;
  of the second, `convRow` of row `p` of the aggregate, times the same factor; the third stores `outRow` of its
  aggregate's row and, in a column, that row against the folded projection weights plus the folded bias.
-/
import proofs.«100905_j38654705664132_2_alg».proof.Proof.Gen.KernelIdeal.Skeleton
import proofs.«100905_j38654705664132_2_alg».proof.Proof.Rows
import proofs.«100905_j38654705664132_2_alg».proof.Proof.LibLayers
import Idealize.ShloMosaic.PureOps.Ideal.Laws

noncomputable section

namespace Cert.KernelIdeal.Hand

open Idealize.ShloMosaic Idealize.ShloMosaic.ValueIdx Cert.KernelIdeal Cert.KernelIdeal.Gen Cert.Gnn Cert.LibLayers

/-- The zero offsets of a whole-block access. -/
theorem hz2 : (![0, 0] : Fin 2 → Nat) = fun _ => 0 := funext fun a => by fin_cases a <;> rfl

/-- The three products' dimension numbers are those of a plain matrix product. -/
theorem dot1_eq : dot_S4000x128_S128x256_S4000x256_1_0_0_1_n_n = DotDims.plain 4000 128 256 := rfl
theorem dot2_eq : dot_S4000x256_S256x16_S4000x16_1_0_0_1_n_n = DotDims.plain 4000 256 16 := rfl
theorem dot3_eq : dot_S4000x16_S16x16_S4000x16_1_0_0_1_n_n = DotDims.plain 4000 16 16 := rfl

/-- The first body's stored block at `(p, j)`. -/
theorem pay0_apply (x0 : FVec Ideal S4000x128 .f32) (x1 : FVec Ideal S128x256 .f32) (x2 : FVec Ideal S1x256 .f32)
    (x3 : FVec Ideal S256x16 .f32) (x4 : FVec Ideal S1x16 .f32) (x5 : FVec Ideal S16x16 .f32) (x6 : FVec Ideal S4000x1 .f32)
    (p : Fin 4000) (j : Fin 16) :
    k0_pay1 (F := Ideal) x0 x1 x2 x3 x4 x5 x6 (ix2 p j)
      = mlpRow (fun k => x0 (ix2 p k)) (fun a b => x1 (ix2 a b)) (fun b => x2 (ix2 (0 : Fin 1) b))
          (fun a b => x3 (ix2 a b)) (fun b => x4 (ix2 (0 : Fin 1) b)) (fun a b => x5 (ix2 a b)) j
        * x6 (ix2 p (0 : Fin 1)) := by
  unfold k0_pay1 mlpRow
  simp only [dot1_eq, dot2_eq, dot3_eq, mulf_apply, col_apply, matmul_rows_apply, leaky_apply, dense_rows_apply]

/-- The second body's stored block at `(p, j)`. -/
theorem pay1_apply (v0 : FVec Ideal S4000x16 .f32) (v2 : FVec Ideal S4000x1 .f32) (v6 : FVec Ideal S1x16 .f32)
    (v15 : FVec Ideal S16x16 .f32) (v19 : FVec Ideal S4000x1 .f32) (p : Fin 4000) (j : Fin 16) :
    k1_pay1 (F := Ideal) v0 v2 v6 v15 v19 (ix2 p j)
      = convRow (fun k => v0 (ix2 p k)) (v2 (ix2 p (0 : Fin 1))) (fun k => v6 (ix2 (0 : Fin 1) k))
          (fun a b => v15 (ix2 a b)) j * v19 (ix2 p (0 : Fin 1)) := by
  unfold k1_pay1 convRow outRow
  simp only [dot3_eq, mulf_apply, addf_apply, col_apply, bias_row_apply, matmul_rows_apply, leaky_apply, shapeCast_self,
    Cert.LibLayout.broadcastTo_a1_ab_apply, broadcastTo_1b_ab_apply]

/-- The third body's first stored block at `(p, j)`. -/
theorem pay2_1_apply (v0 : FVec Ideal S4000x16 .f32) (v2 : FVec Ideal S4000x1 .f32) (v6 : FVec Ideal S1x16 .f32)
    (p : Fin 4000) (j : Fin 16) :
    k2_pay1 (F := Ideal) v0 v2 v6 (ix2 p j)
      = outRow (fun k => v0 (ix2 p k)) (v2 (ix2 p (0 : Fin 1))) (fun k => v6 (ix2 (0 : Fin 1) k)) j := by
  unfold k2_pay1 outRow
  simp only [mulf_apply, addf_apply, col_apply, bias_row_apply, leaky_apply, shapeCast_self,
    Cert.LibLayout.broadcastTo_a1_ab_apply, broadcastTo_1b_ab_apply]

/-- The index over row `p` with column `k` put back. -/
theorem lift_row (p : Fin 4000) (k : Fin 16) :
    (reduces_S4000x16_S4000 : S4000x16.Reduces [(1 : Fin 2)] S4000).lift (ix1 p) k = ix2 p k := by
  funext c
  refine Fin.ext ?_
  match c with
  | ⟨0, _⟩ => rfl
  | ⟨1, _⟩ => rfl

/-- The third body's second stored block (a column) at `(p, 0)`. -/
theorem pay2_2_apply (v0 : FVec Ideal S4000x16 .f32) (v2 : FVec Ideal S4000x1 .f32) (v6 : FVec Ideal S1x16 .f32)
    (v16 : FVec Ideal S1x16 .f32) (v22 : FVec Ideal S1x1 .f32) (p : Fin 4000) (u : Fin 1) :
    k2_pay2 (F := Ideal) v0 v2 v6 v16 v22 (ix2 p u)
      = projRow (outRow (fun k => v0 (ix2 p k)) (v2 (ix2 p (0 : Fin 1))) (fun k => v6 (ix2 (0 : Fin 1) k)))
          (fun k => v16 (ix2 (0 : Fin 1) k)) (v22 (ix2 (0 : Fin 1) (0 : Fin 1))) := by
  obtain rfl : u = 0 := Subsingleton.elim _ _
  unfold k2_pay2 projRow
  rw [addf_apply]
  refine congrArg₂ (· + ·) ?_ (bias_row_apply _ _ _ p (0 : Fin 1))
  rw [Cert.LibLayout.shapeCast_a_a1_apply]
  refine (Ideal.multiReduction_add_single _ 0x00000000#32 reduces_S4000x16_S4000 (.inl rfl) rfl (ix1 p)).trans ?_
  show (∑ k : Fin 16, mulf (k2_pay1 (F := Ideal) v0 v2 v6)
      (broadcastTo S4000x16 (shapeCast S1x16 v16 shapeCasts_S1x16_S1x16) broadcasts_S1x16_S4000x16)
      ((reduces_S4000x16_S4000 : S4000x16.Reduces [(1 : Fin 2)] S4000).lift (ix1 p) k))
    = ∑ k : Fin 16, outRow (fun k => v0 (ix2 p k)) (v2 (ix2 p (0 : Fin 1))) (fun k => v6 (ix2 (0 : Fin 1) k)) k * v16 (ix2 (0 : Fin 1) k)
  refine Finset.sum_congr rfl fun k _ => ?_
  rw [lift_row, mulf_apply, bias_row_apply, pay2_1_apply]

end Cert.KernelIdeal.Hand

end
-- ==== Proof.LibGatherRows.lean ====
/-
  Whole rows of a table gathered at a column of row numbers, read at an index, for any extents.

  What `table[rows]` lowers to for a table `[N, C]` and row numbers `[R]` held as an `[R, 1]` array: a gather with one
  offset axis (the columns), the row axis collapsed, slices of one row. Result entry `(r, k)` is the table at column `k`
  of the row whose number is `rows (r, 0)`, read as a signed integer and clamped into `0 … N − 1`; the column passes
  through.
-/
import Idealize.ShloMosaic.Lib.ValueIdx

noncomputable section

namespace Cert.LibGatherRows

open Idealize.ShloMosaic Idealize.ShloMosaic.ValueIdx

variable {α : Type}

/-- The dimension numbers of that gather; their conditions are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather read at `(r, k)`: column `k` of the row numbered `rows (r, 0)`, read signed and clamped into the table. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k)
      = x (ix2 ⟨min (idx (ix2 r (0 : Fin 1))).toInt.toNat (N - 1), by omega⟩ k) := by
  unfold Host.gather
  refine congrArg x (funext fun a => Fin.ext ?_)
  match a with
  | ⟨0, _⟩ =>
    show (rowDims N R C wf).start (ix2 r k) idx 0 + (rowDims N R C wf).batchCoord (ix2 r k) 0
      + (rowDims N R C wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r k) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r k) idx 1 + (rowDims N R C wf).batchCoord (ix2 r k) 1
      + (rowDims N R C wf).offCoord (ix2 r k) 1 = k.val
    rw [GatherDims.batchCoord_eq_zero _ _ _ List.not_mem_nil]
    unfold GatherDims.start
    rw [dif_neg (show ¬ (1 : Fin 2) ∈ (rowDims N R C wf).startIndexMap from
      fun h => Nat.one_ne_zero (congrArg Fin.val (List.mem_singleton.mp h)))]
    simp only [Nat.add_zero, Nat.zero_add]
    rfl

end Cert.LibGatherRows

end
-- ==== Proof.LibScatterRows.lean ====
/-
  Where a row of updates lands when whole rows are scattered into a table at a column of row numbers, for any extents.

  What a sum of update rows `[R, C]` into the rows of a table `[N, C]` at row numbers `[R]`, held as an `[R, 1]` array,
  lowers to: a scatter with one window axis (the columns), the row axis inserted and named by the map from scatter
  dimensions to the table's axes. Update entry `(e, k)` lands at the table index whose row is the number `rows (e, 0)`
  read as a signed integer — NOT clamped: an update whose row number is outside `0 … N − 1` lands nowhere — and whose
  column is `k`. So an update that lands in row `d` has row number exactly `d`.

  Also: the same for single entries scattered into a vector, and the wrap of a non-negative 32-bit row number
  (`v < 0 ? v + n : v`) leaving it as it is.
-/
import Idealize.ShloMosaic.Lib.ValueIdx
import Idealize.ShloMosaic.Lib.Affine

noncomputable section

namespace Cert.LibScatterRows

open Idealize.ShloMosaic Idealize.ShloMosaic.ValueIdx

/-- The dimension numbers of the row scatter: the updates' axis 1 is the window axis, the table's axis 0 is inserted
    and is the one axis the scatter indices name, the index vector on axis 1 of the row numbers. Their conditions are
    decided on a program's literal shapes. -/
abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Rows
variable {N R C w : Nat} (wf : ScatterDims.WF ⟨2, ![N, C]⟩ ⟨2, ![R, 1]⟩ ⟨2, ![R, C]⟩ [1] [0] [0] 1)
  (idx : IVec ⟨2, ![R, 1]⟩ w) (e : Fin R) (k : Fin C)

/-- On the row axis the window of update `(e, k)` starts at the row number `rows (e, 0)`, read signed. -/
theorem start_row : (rowScatter N R C wf).start (ix2 e k) idx 0 = (idx (ix2 e (0 : Fin 1))).toInt := by
  unfold ScatterDims.start
  rw [dif_pos (show (0 : Fin 2) ∈ (rowScatter N R C wf).scatterDimsToOperandDims from List.mem_singleton.mpr rfl)]
  have hsi : (rowScatter N R C wf).siIdx (ix2 e k) ⟨List.idxOf (0 : Fin 2) (rowScatter N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The row axis is inserted: the window coordinate on it is `0`. -/
theorem window_row : (rowScatter N R C wf).window (ix2 e k) 0 = 0 := by
  unfold ScatterDims.window
  rw [dif_neg (show ¬ (0 : Fin 2) ∈ (rowScatter N R C wf).sKept from by
    simp [ScatterDims.sKept, Shape.kept, List.mem_filter])]

/-- The scatter indices do not name the column axis: the window starts at column `0`. -/
theorem start_col : (rowScatter N R C wf).start (ix2 e k) idx 1 = 0 := by
  unfold ScatterDims.start
  rw [dif_neg (show ¬ (1 : Fin 2) ∈ (rowScatter N R C wf).scatterDimsToOperandDims from
    fun h => Nat.one_ne_zero (congrArg Fin.val (List.mem_singleton.mp h)))]

/-- On the column axis the window coordinate of update `(e, k)` is `k`. -/
theorem window_col : (rowScatter N R C wf).window (ix2 e k) 1 = k.val := by
  unfold ScatterDims.window
  rw [dif_pos (show (1 : Fin 2) ∈ (rowScatter N R C wf).sKept from by
    simp [ScatterDims.sKept, Shape.kept, List.mem_filter])]
  rfl

/-- An update `(e, k)` that lands at table index `i`: the row number `rows (e, 0)`, read signed, is exactly `i`'s
    row, and `i`'s column is `k`. -/
theorem row_of_resultIdx (i : (⟨2, ![N, C]⟩ : Shape).Idx)
    (h : (rowScatter N R C wf).resultIdx? (ix2 e k) idx = some i) :
    (idx (ix2 e (0 : Fin 1))).toInt = ((i 0).val : Int) ∧ (i 1).val = k.val := by
  unfold ScatterDims.resultIdx? at h
  split at h
  · rename_i hb
    have hi := Option.some.inj h
    subst hi
    have h0 := (hb 0).1
    have h1 := (hb 1).1
    refine ⟨?_, ?_⟩
    · show _ = (((rowScatter N R C wf).start (ix2 e k) idx 0 + ((rowScatter N R C wf).window (ix2 e k) 0 : Nat) : Int).toNat : Int)
      rw [start_row, window_row] at h0 ⊢
      omega
    · show ((rowScatter N R C wf).start (ix2 e k) idx 1 + ((rowScatter N R C wf).window (ix2 e k) 1 : Nat) : Int).toNat = k.val
      rw [start_col, window_col]
      omega
  · cases h

end Rows

/-! ## Single entries scattered into a vector -/

/-- The dimension numbers of the entry scatter into a vector `[N]` at positions `[R, 1]` with updates `[R]`: no window
    axis, the vector's only axis inserted and named by the scatter indices, the index vector on axis 1 of the
    positions. -/
abbrev vecScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec
variable {N R w : Nat} (wf : ScatterDims.WF ⟨1, ![N]⟩ ⟨2, ![R, 1]⟩ ⟨1, ![R]⟩ [] [0] [0] 1)
  (idx : IVec ⟨2, ![R, 1]⟩ w) (e : Fin R)

/-- The window of update `e` starts at the position `rows (e, 0)`, read signed. -/
theorem start_vec : (vecScatter N R wf).start (ix1 e) idx 0 = (idx (ix2 e (0 : Fin 1))).toInt := by
  unfold ScatterDims.start
  rw [dif_pos (show (0 : Fin 1) ∈ (vecScatter N R wf).scatterDimsToOperandDims from List.mem_singleton.mpr rfl)]
  have hsi : (vecScatter N R wf).siIdx (ix1 e) ⟨List.idxOf (0 : Fin 1) (vecScatter N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The vector's axis is inserted: the window coordinate on it is `0`. -/
theorem window_vec : (vecScatter N R wf).window (ix1 e) 0 = 0 := by
  unfold ScatterDims.window
  rw [dif_neg (show ¬ (0 : Fin 1) ∈ (vecScatter N R wf).sKept from by
    simp [ScatterDims.sKept, Shape.kept, List.mem_filter])]

/-- An update `e` that lands at vector index `i`: the position `rows (e, 0)`, read signed, is exactly `i`. -/
theorem pos_of_resultIdx (i : (⟨1, ![N]⟩ : Shape).Idx)
    (h : (vecScatter N R wf).resultIdx? (ix1 e) idx = some i) :
    (idx (ix2 e (0 : Fin 1))).toInt = ((i 0).val : Int) := by
  unfold ScatterDims.resultIdx? at h
  split at h
  · rename_i hb
    have hi := Option.some.inj h
    subst hi
    have h0 := (hb 0).1
    show _ = (((vecScatter N R wf).start (ix1 e) idx 0 + ((vecScatter N R wf).window (ix1 e) 0 : Nat) : Int).toNat : Int)
    rw [start_vec, window_vec] at h0 ⊢
    omega
  · cases h

end Vec

/-! ## The wrap of a row number -/

/-- A 32-bit row number that is not negative is left as it is by the wrap `v < 0 ? v + n : v`. -/
theorem wrap_of_nonneg (v n : BitVec 32) (h : 0 ≤ v.toInt) :
    Scalar.select (IntOp.cmpi .slt v 0#32) (IntOp.addi v n) v = v := by
  have hz : (0#32 : BitVec 32).toInt = 0 := by decide
  have hc : ¬ IntOp.cmpi .slt v 0#32 = 1#1 := by
    rw [IntOp.cmpi_slt, hz]
    omega
  unfold Scalar.select
  exact if_neg hc

end Cert.LibScatterRows

end
-- ==== Proof.Whole.lean ====
/-
  The network's stages as whole arrays, on both sides of the comparison.

  Kernel side: `G0`, `G1`, `G2a`, `G2b` are what the three regions leave in their result arrays, as functions of the
  arrays they read (row `r` of each depends on row `r` of the row-blocked inputs only), and `agg` is the host's gather of a
  table's rows at the edge sources summed into the edge destinations. Reference side: `R48` is the dense layers and the
  first matrix, `msg` the same gather and sum with each gathered row weighted by the edge's norm, `R69` a bias and the
  activation, `R70` the next matrix, `R96` the projection summed over its two columns.
-/
import proofs.«100905_j38654705664132_2_alg».proof.Proof.Rows
import proofs.«100905_j38654705664132_2_alg».proof.Proof.LibGatherRows
import proofs.«100905_j38654705664132_2_alg».proof.Proof.LibScatterRows
import Idealize.ShloMosaic.Lib.ValueIdx

noncomputable section

namespace Cert.Gnn

open Idealize.ShloMosaic Idealize.ShloMosaic.ValueIdx Cert.LibGatherRows Cert.LibScatterRows

/-- Row `r`, column `j` of the first region's result: the row through the dense layers and the first graph matrix, times
    the node's degree factor. -/
def G0 (A0 : (⟨2, ![200000, 128]⟩ : Shape).Idx → EReal) (A1 : (⟨2, ![128, 256]⟩ : Shape).Idx → EReal)
    (A2 : (⟨2, ![1, 256]⟩ : Shape).Idx → EReal) (A3 : (⟨2, ![256, 16]⟩ : Shape).Idx → EReal)
    (A4 : (⟨2, ![1, 16]⟩ : Shape).Idx → EReal) (A5 : (⟨2, ![16, 16]⟩ : Shape).Idx → EReal)
    (A6 : (⟨2, ![200000, 1]⟩ : Shape).Idx → EReal) : (⟨2, ![200000, 16]⟩ : Shape).Idx → EReal :=
  fun i => mlpRow (fun k => A0 (ix2 (i 0) k)) (fun a b => A1 (ix2 a b)) (fun b => A2 (ix2 (0 : Fin 1) b))
      (fun a b => A3 (ix2 a b)) (fun b => A4 (ix2 (0 : Fin 1) b)) (fun a b => A5 (ix2 a b)) (i 1)
    * A6 (ix2 (i 0) (0 : Fin 1))

/-- Row `r`, column `j` of the second region's result. -/
def G1 (A0 : (⟨2, ![200000, 16]⟩ : Shape).Idx → EReal) (A1 : (⟨2, ![1, 16]⟩ : Shape).Idx → EReal)
    (A2 : (⟨2, ![200000, 1]⟩ : Shape).Idx → EReal) (A3 : (⟨2, ![16, 16]⟩ : Shape).Idx → EReal) :
    (⟨2, ![200000, 16]⟩ : Shape).Idx → EReal :=
  fun i => convRow (fun k => A0 (ix2 (i 0) k)) (A2 (ix2 (i 0) (0 : Fin 1))) (fun k => A1 (ix2 (0 : Fin 1) k))
      (fun a b => A3 (ix2 a b)) (i 1)
    * A2 (ix2 (i 0) (0 : Fin 1))

/-- Row `r`, column `j` of the last layer's output. -/
def G2a (A0 : (⟨2, ![200000, 16]⟩ : Shape).Idx → EReal) (A1 : (⟨2, ![1, 16]⟩ : Shape).Idx → EReal)
    (A2 : (⟨2, ![200000, 1]⟩ : Shape).Idx → EReal) : (⟨2, ![200000, 16]⟩ : Shape).Idx → EReal :=
  fun i => outRow (fun k => A0 (ix2 (i 0) k)) (A2 (ix2 (i 0) (0 : Fin 1))) (fun k => A1 (ix2 (0 : Fin 1) k)) (i 1)

/-- Entry `r` of the projected column. -/
def G2b (A0 : (⟨2, ![200000, 16]⟩ : Shape).Idx → EReal) (A1 : (⟨2, ![1, 16]⟩ : Shape).Idx → EReal)
    (A2 : (⟨2, ![200000, 1]⟩ : Shape).Idx → EReal) (A3 : (⟨2, ![1, 16]⟩ : Shape).Idx → EReal)
    (A4 : (⟨2, ![1, 1]⟩ : Shape).Idx → EReal) : (⟨2, ![200000, 1]⟩ : Shape).Idx → EReal :=
  fun i => projRow (outRow (fun k => A0 (ix2 (i 0) k)) (A2 (ix2 (i 0) (0 : Fin 1))) (fun k => A1 (ix2 (0 : Fin 1) k)))
    (fun k => A3 (ix2 (0 : Fin 1) k)) (A4 (ix2 (0 : Fin 1) (0 : Fin 1)))

section Graph

variable (wfG : GatherDims.WF ⟨2, ![200000, 16]⟩ ⟨2, ![6600000, 1]⟩ ⟨2, ![6600000, 16]⟩ [1] [0] [] [0] [] 1 ![1, 16])
  (wfS : ScatterDims.WF ⟨2, ![200000, 16]⟩ ⟨2, ![6600000, 1]⟩ ⟨2, ![6600000, 16]⟩ [1] [0] [0] 1)
  (Z : (⟨2, ![200000, 16]⟩ : Shape).Idx → EReal) (iD iS : IVec ⟨2, ![6600000, 1]⟩ 32)

/-- A table's rows gathered at the edge sources and summed into the edge destinations. -/
def agg (T : (⟨2, ![200000, 16]⟩ : Shape).Idx → EReal) : (⟨2, ![200000, 16]⟩ : Shape).Idx → EReal :=
  Host.scatterAdd (F := Ideal) (φ := .f32) (rowScatter 200000 6600000 16 wfS) Z iD
    (Host.gather (rowDims 200000 6600000 16 wfG) T iS)

/-- The same with each gathered row weighted by the edge's norm. -/
def msg (nrm : (⟨2, ![6600000, 16]⟩ : Shape).Idx → EReal) (T : (⟨2, ![200000, 16]⟩ : Shape).Idx → EReal) :
    (⟨2, ![200000, 16]⟩ : Shape).Idx → EReal :=
  Host.scatterAdd (F := Ideal) (φ := .f32) (rowScatter 200000 6600000 16 wfS) Z iD
    (fun J => Host.gather (rowDims 200000 6600000 16 wfG) T iS J * nrm J)

end Graph

/-- The reference's dense layers and first graph matrix, at `(r, j)`. -/
def R48 (a0 : (⟨2, ![200000, 128]⟩ : Shape).Idx → EReal) (a1 : (⟨2, ![128, 256]⟩ : Shape).Idx → EReal)
    (a2 : (⟨1, ![256]⟩ : Shape).Idx → EReal) (a3 : (⟨2, ![256, 16]⟩ : Shape).Idx → EReal)
    (a4 : (⟨1, ![16]⟩ : Shape).Idx → EReal) (a5 : (⟨2, ![16, 16]⟩ : Shape).Idx → EReal) :
    (⟨2, ![200000, 16]⟩ : Shape).Idx → EReal :=
  fun i => mlpRow (fun k => a0 (ix2 (i 0) k)) (fun a b => a1 (ix2 a b)) (fun b => a2 (ix1 b))
      (fun a b => a3 (ix2 a b)) (fun b => a4 (ix1 b)) (fun a b => a5 (ix2 a b)) (i 1)

/-- A bias added along the rows, then the activation. -/
def R69 (M : (⟨2, ![200000, 16]⟩ : Shape).Idx → EReal) (cb : (⟨1, ![16]⟩ : Shape).Idx → EReal) :
    (⟨2, ![200000, 16]⟩ : Shape).Idx → EReal :=
  fun i => act (M i + cb (ix1 (i 1)))

/-- Every row through a 16×16 matrix. -/
def R70 (H : (⟨2, ![200000, 16]⟩ : Shape).Idx → EReal) (cw : (⟨2, ![16, 16]⟩ : Shape).Idx → EReal) :
    (⟨2, ![200000, 16]⟩ : Shape).Idx → EReal :=
  fun i => rowMul (fun k => H (ix2 (i 0) k)) (fun a b => cw (ix2 a b)) (i 1)

/-- The projection to two columns plus its bias, summed over the columns. -/
def R96 (H : (⟨2, ![200000, 16]⟩ : Shape).Idx → EReal) (pw : (⟨2, ![16, 2]⟩ : Shape).Idx → EReal)
    (pb : (⟨1, ![2]⟩ : Shape).Idx → EReal) : (⟨1, ![200000]⟩ : Shape).Idx → EReal :=
  fun i => c0 + ∑ o : Fin 2, ((∑ k : Fin 16, H (ix2 (i 0) k) * pw (ix2 k o)) + pb (ix1 o))

end Cert.Gnn

end
-- ==== Proof.Blocks0.lean ====
/-
  The first region's result array, as one function of the arrays the region finds.

  The grid has 50 points; point `t` works on rows `4000 t … 4000 t + 3999`: its feature block and its column of inverse
  square-root degrees are those rows of their arrays, the weights and bias rows are fetched whole, and the block it
  writes back is those rows of the result. So row `r` of the result is `mlpRow` of row `r` of the features times
  the degree factor of node `r` — whatever the arrays are when the region is entered.
-/
import proofs.«100905_j38654705664132_2_alg».proof.Proof.Gen.KernelIdeal.Frame
import proofs.«100905_j38654705664132_2_alg».proof.Proof.Body
import proofs.«100905_j38654705664132_2_alg».proof.Proof.Whole
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Gnn

variable (V : (c : Dev nD) → (b : Ref sig .tc) → Buf (Elt Ideal) ((c : Thread nD τ).loc b))

/-- One point's stored block against the whole-array function, given where its blocks sit in their arrays. -/
theorem point0 (x0 : FVec Ideal S4000x128 .f32) (x1 : FVec Ideal S128x256 .f32) (x2 : FVec Ideal S1x256 .f32)
    (x3 : FVec Ideal S256x16 .f32) (x4 : FVec Ideal S1x16 .f32) (x5 : FVec Ideal S16x16 .f32) (x6 : FVec Ideal S4000x1 .f32)
    (A0 : S200000x128.Idx → EReal) (A6 : S200000x1.Idx → EReal) (p : Fin 4000) (j : Fin 16) (r : Fin 200000)
    (h0 : ∀ k : Fin 128, x0 (ix2 p k) = A0 (ix2 r k)) (h6 : x6 (ix2 p (0 : Fin 1)) = A6 (ix2 r (0 : Fin 1))) :
    k0_pay1 (F := Ideal) x0 x1 x2 x3 x4 x5 x6 (ix2 p j) = G0 A0 x1 x2 x3 x4 x5 A6 (ix2 r j) := by
  rw [pay0_apply, h6]
  simp only [h0]
  rfl

/-- The printed index maps over the grid: the row-blocked windows move with the point, the others stay at block 0. -/
theorem idx_facts0 : ∀ t : Fin cfg0.N, win0_0.index t (0 : Fin 2) = win0_7.index t (0 : Fin 2)
    ∧ win0_0.index t (1 : Fin 2) = 0
    ∧ win0_6.index t (0 : Fin 2) = win0_7.index t (0 : Fin 2)
    ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_7.index t (0 : Fin 2) ≤ 49 ∧ win0_7.index t (1 : Fin 2) = 0 :=
  (by decide +kernel : ∀ t : Fin grid0.N, _)

/-- Every row block is some point's. -/
theorem idx_onto0 : ∀ q : Fin 50, ∃ t : Fin cfg0.N, win0_7.index t = ![q.val, 0] :=
  (by decide +kernel : ∀ q : Fin 50, ∃ t : Fin grid0.N, win0_7.index t = ![q.val, 0])

/-- What point `t` writes back is block `t` of `G0` of the arrays as the region finds them. -/
theorem flushed0_eq (c : Dev nD) (t : Fin cfg0.N) :
    (dat0 V c).flushed 7 t = ((cfg0.win 7).blk t).view.read (Elt Ideal)
      (G0 (V c main_arg0) (V c main_arg1) (V c main_v16) (V c main_arg3) (V c main_v17) (V c main_arg5) (V c main_v15)) := by
  show (cfg0.win 7).cut (grid0.coords t) ((dat0 V c).after 7 t) = _
  rw [after0_7]
  unfold out0_7
  rw [View.canon_unit_zero hz2]
  simp only [View.ld_unit_zero (S := S4000x128) hz2, View.ld_unit_zero (S := S128x256) hz2, View.ld_unit_zero (S := S1x256) hz2,
    View.ld_unit_zero (S := S256x16) hz2, View.ld_unit_zero (S := S1x16) hz2, View.ld_unit_zero (S := S16x16) hz2,
    View.ld_unit_zero (S := S4000x1) hz2]
  obtain ⟨e0, e1, e2, e3, e4, e5, e6, e7, e8, e9, e10, e11, e12, e13, e14, e15⟩ := idx_facts0 t
  have w1 : iblk0 V c 1 t = V c main_arg1 := by
    funext y
    show V c main_arg1 (((cfg0.win 1).blk t).view.emb y) = V c main_arg1 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 256 + 1 * (y 1).val = (y 1).val; omega
  have w2 : iblk0 V c 2 t = V c main_v16 := by
    funext y
    show V c main_v16 (((cfg0.win 2).blk t).view.emb y) = V c main_v16 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 256 + 1 * (y 1).val = (y 1).val; omega
  have w3 : iblk0 V c 3 t = V c main_arg3 := by
    funext y
    show V c main_arg3 (((cfg0.win 3).blk t).view.emb y) = V c main_arg3 y
    refine congrArg _ (funext fun a => Fin.ext ?_)
    match a with
    | ⟨0, _⟩ => show win0_3.index t (0 : Fin 2) * 256 + 1 * (y 0).val = (y 0).val; omega
    | ⟨1, _⟩ => show win0_3.index t (1 : Fin 2) * 16 + 1 * (y 1).val = (y 1).val; omega
  have w4 : iblk0 V c 4 t = V c main_v17 := by
    funext y
    show V c main_v17 (((cfg0.win 4).blk t).view.emb y) = V c main_v17 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 16 + 1 * (y 1).val = (y 1).val; omega
  have w5 : iblk0 V c 5 t = V c main_arg5 := by
    funext y
    show V c main_arg5 (((cfg0.win 5).blk t).view.emb y) = V c main_arg5 y
    refine congrArg _ (funext fun a => Fin.ext ?_)
    match a with
    | ⟨0, _⟩ => show win0_5.index t (0 : Fin 2) * 16 + 1 * (y 0).val = (y 0).val; omega
    | ⟨1, _⟩ => show win0_5.index t (1 : Fin 2) * 16 + 1 * (y 1).val = (y 1).val; omega
  rw [w1, w2, w3, w4, w5]
  funext y
  obtain ⟨p, j, rfl⟩ : ∃ (p : Fin 4000) (j : Fin 16), y = ix2 p j := ⟨y 0, y 1, eq_ix2 y⟩
  have hr : win0_7.index t (0 : Fin 2) * 4000 + p.val < 200000 := by have := p.isLt; omega
  have hemb : ((cfg0.win 7).blk t).view.emb (ix2 p j) = ix2 (⟨win0_7.index t (0 : Fin 2) * 4000 + p.val, hr⟩ : Fin 200000) j := by
    funext a
    refine Fin.ext ?_
    match a with
    | ⟨0, _⟩ => show win0_7.index t (0 : Fin 2) * 4000 + 1 * p.val = win0_7.index t (0 : Fin 2) * 4000 + p.val; omega
    | ⟨1, _⟩ => show win0_7.index t (1 : Fin 2) * 16 + 1 * j.val = j.val; omega
  show k0_pay1 (F := Ideal) (iblk0 V c 0 t) (V c main_arg1) (V c main_v16) (V c main_arg3) (V c main_v17) (V c main_arg5) (iblk0 V c 6 t) (ix2 p j)
    = G0 (V c main_arg0) (V c main_arg1) (V c main_v16) (V c main_arg3) (V c main_v17) (V c main_arg5) (V c main_v15) (((cfg0.win 7).blk t).view.emb (ix2 p j))
  rw [hemb]
  refine point0 _ _ _ _ _ _ _ _ _ p j _ (fun k => ?_) ?_
  · show V c main_arg0 (((cfg0.win 0).blk t).view.emb (ix2 p k)) = V c main_arg0 (ix2 _ k)
    refine congrArg _ (funext fun a => Fin.ext ?_)
    match a with
    | ⟨0, _⟩ => show win0_0.index t (0 : Fin 2) * 4000 + 1 * p.val = win0_7.index t (0 : Fin 2) * 4000 + p.val; omega
    | ⟨1, _⟩ => show win0_0.index t (1 : Fin 2) * 128 + 1 * k.val = k.val; omega
  · show V c main_v15 (((cfg0.win 6).blk t).view.emb (ix2 p (0 : Fin 1))) = V c main_v15 (ix2 _ (0 : Fin 1))
    refine congrArg _ (funext fun a => Fin.ext ?_)
    match a with
    | ⟨0, _⟩ => show win0_6.index t (0 : Fin 2) * 4000 + 1 * p.val = win0_7.index t (0 : Fin 2) * 4000 + p.val; omega
    | ⟨1, _⟩ => show win0_6.index t (1 : Fin 2) * 1 + 1 * 0 = 0; omega

/-- An index of the result is in point `t`'s block iff each coordinate is in the block's range. -/
theorem mem_blk0 (t : Fin cfg0.N) (i : S200000x16.Idx) :
    i ∈ ((cfg0.win 7).blk t).view.set ↔ ∀ a : Fin 2, win0_7.index t a * S4000x16.size a ≤ (i a).val ∧ (i a).val < win0_7.index t a * S4000x16.size a + S4000x16.size a := by
  show i ∈ ((View.whole main_v18).slice (win0_7.rect t)).set ↔ _
  rw [View.set_slice_whole, Rect.mem_set_unit]
  exact Iff.rfl

/-- Every index of the result is in some point's block: the one of its row's block number. -/
theorem cover0 (i : S200000x16.Idx) : ∃ t : Fin cfg0.N, (cfg0.win 7).flush t = true ∧ i ∈ ((cfg0.win 7).blk t).view.set := by
  have hi0 : (i 0).val < 200000 := (i 0).isLt
  have hi1 : (i 1).val < 16 := (i 1).isLt
  obtain ⟨t, ht⟩ := idx_onto0 ⟨(i 0).val / 4000, by omega⟩
  have q0 : win0_7.index t (0 : Fin 2) = (i 0).val / 4000 := congrFun ht 0
  have q1 : win0_7.index t (1 : Fin 2) = 0 := congrFun ht 1
  refine ⟨t, flush0_7 t, ?_⟩
  rw [mem_blk0]
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 16 ≤ (i 1).val ∧ (i 1).val < win0_7.index t (1 : Fin 2) * 16 + 16; omega

/-- The result array after the region: `G0` of the arrays as the region finds them. -/
theorem final0 (c : Dev nD) : (dat0 V c).arrAt 7 cfg0.N
    = G0 (V c main_arg0) (V c main_arg1) (V c main_v16) (V c main_arg3) (V c main_v17) (V c main_arg5) (V c main_v15) :=
  (dat0 V c).arrAt_eq_of_cover 7 _ (fun t _ => flushed0_eq V c t) cover0

end Cert.KernelIdeal.Hand

end
-- ==== Proof.Blocks1.lean ====
/-
  The second region's result array, as one function of the arrays the region finds.

  Point `t` of the 50-point grid works on rows `4000 t … 4000 t + 3999` of the aggregate and of the column of degree
  factors; the bias row and the matrix are fetched whole. Row `r` of the result is `convRow` of row `r` of the
  aggregate, times node `r`'s degree factor.
-/
import proofs.«100905_j38654705664132_2_alg».proof.Proof.Gen.KernelIdeal.Frame
import proofs.«100905_j38654705664132_2_alg».proof.Proof.Body
import proofs.«100905_j38654705664132_2_alg».proof.Proof.Whole
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Gnn

variable (V : (c : Dev nD) → (b : Ref sig .tc) → Buf (Elt Ideal) ((c : Thread nD τ).loc b))

/-- One point's stored block against the whole-array function, given where its blocks sit in their arrays. -/
theorem point1 (x0 : FVec Ideal S4000x16 .f32) (x1 : FVec Ideal S1x16 .f32) (x2 : FVec Ideal S4000x1 .f32)
    (x3 : FVec Ideal S16x16 .f32) (A0 : S200000x16.Idx → EReal) (A2 : S200000x1.Idx → EReal)
    (p : Fin 4000) (j : Fin 16) (r : Fin 200000)
    (h0 : ∀ k : Fin 16, x0 (ix2 p k) = A0 (ix2 r k)) (h2 : x2 (ix2 p (0 : Fin 1)) = A2 (ix2 r (0 : Fin 1))) :
    k1_pay1 (F := Ideal) x0 x2 x1 x3 x2 (ix2 p j) = G1 A0 x1 A2 x3 (ix2 r j) := by
  rw [pay1_apply, h2]
  simp only [h0]
  rfl

/-- The printed index maps over the grid. -/
theorem idx_facts1 : ∀ t : Fin cfg1.N, win1_0.index t (0 : Fin 2) = win1_4.index t (0 : Fin 2)
    ∧ win1_0.index t (1 : Fin 2) = 0
    ∧ win1_2.index t (0 : Fin 2) = win1_4.index t (0 : Fin 2)
    ∧ win1_2.index t (1 : Fin 2) = 0
    ∧ win1_1.index t (0 : Fin 2) = 0 ∧ win1_1.index t (1 : Fin 2) = 0
    ∧ win1_3.index t (0 : Fin 2) = 0 ∧ win1_3.index t (1 : Fin 2) = 0
    ∧ win1_4.index t (0 : Fin 2) ≤ 49 ∧ win1_4.index t (1 : Fin 2) = 0 :=
  (by decide +kernel : ∀ t : Fin grid1.N, _)

theorem idx_onto1 : ∀ q : Fin 50, ∃ t : Fin cfg1.N, win1_4.index t = ![q.val, 0] :=
  (by decide +kernel : ∀ q : Fin 50, ∃ t : Fin grid1.N, win1_4.index t = ![q.val, 0])

/-- What point `t` writes back is block `t` of `G1` of the arrays as the region finds them. -/
theorem flushed1_eq (c : Dev nD) (t : Fin cfg1.N) :
    (dat1 V c).flushed 4 t = ((cfg1.win 4).blk t).view.read (Elt Ideal)
      (G1 (V c main_v28) (V c main_v29) (V c main_v15) (V c main_arg7)) := by
  show (cfg1.win 4).cut (grid1.coords t) ((dat1 V c).after 4 t) = _
  rw [after1_4]
  unfold out1_4
  rw [View.canon_unit_zero hz2]
  simp only [View.ld_unit_zero (S := S4000x16) hz2, View.ld_unit_zero (S := S1x16) hz2, View.ld_unit_zero (S := S4000x1) hz2,
    View.ld_unit_zero (S := S16x16) hz2]
  obtain ⟨e0, e1, e2, e3, e4, e5, e6, e7, e8, e9⟩ := idx_facts1 t
  have w1 : iblk1 V c 1 t = V c main_v29 := by
    funext y
    show V c main_v29 (((cfg1.win 1).blk t).view.emb y) = V c main_v29 y
    refine congrArg _ (funext fun a => Fin.ext ?_)
    match a with
    | ⟨0, _⟩ => show win1_1.index t (0 : Fin 2) * 1 + 1 * (y 0).val = (y 0).val; omega
    | ⟨1, _⟩ => show win1_1.index t (1 : Fin 2) * 16 + 1 * (y 1).val = (y 1).val; omega
  have w3 : iblk1 V c 3 t = V c main_arg7 := by
    funext y
    show V c main_arg7 (((cfg1.win 3).blk t).view.emb y) = V c main_arg7 y
    refine congrArg _ (funext fun a => Fin.ext ?_)
    match a with
    | ⟨0, _⟩ => show win1_3.index t (0 : Fin 2) * 16 + 1 * (y 0).val = (y 0).val; omega
    | ⟨1, _⟩ => show win1_3.index t (1 : Fin 2) * 16 + 1 * (y 1).val = (y 1).val; omega
  rw [w1, w3]
  funext y
  obtain ⟨p, j, rfl⟩ : ∃ (p : Fin 4000) (j : Fin 16), y = ix2 p j := ⟨y 0, y 1, eq_ix2 y⟩
  have hr : win1_4.index t (0 : Fin 2) * 4000 + p.val < 200000 := by have := p.isLt; omega
  have hemb : ((cfg1.win 4).blk t).view.emb (ix2 p j) = ix2 (⟨win1_4.index t (0 : Fin 2) * 4000 + p.val, hr⟩ : Fin 200000) j := by
    funext a
    refine Fin.ext ?_
    match a with
    | ⟨0, _⟩ => show win1_4.index t (0 : Fin 2) * 4000 + 1 * p.val = win1_4.index t (0 : Fin 2) * 4000 + p.val; omega
    | ⟨1, _⟩ => show win1_4.index t (1 : Fin 2) * 16 + 1 * j.val = j.val; omega
  show k1_pay1 (F := Ideal) (iblk1 V c 0 t) (iblk1 V c 2 t) (V c main_v29) (V c main_arg7) (iblk1 V c 2 t) (ix2 p j)
    = G1 (V c main_v28) (V c main_v29) (V c main_v15) (V c main_arg7) (((cfg1.win 4).blk t).view.emb (ix2 p j))
  rw [hemb]
  refine point1 _ _ _ _ _ _ p j _ (fun k => ?_) ?_
  · show V c main_v28 (((cfg1.win 0).blk t).view.emb (ix2 p k)) = V c main_v28 (ix2 _ k)
    refine congrArg _ (funext fun a => Fin.ext ?_)
    match a with
    | ⟨0, _⟩ => show win1_0.index t (0 : Fin 2) * 4000 + 1 * p.val = win1_4.index t (0 : Fin 2) * 4000 + p.val; omega
    | ⟨1, _⟩ => show win1_0.index t (1 : Fin 2) * 16 + 1 * k.val = k.val; omega
  · show V c main_v15 (((cfg1.win 2).blk t).view.emb (ix2 p (0 : Fin 1))) = V c main_v15 (ix2 _ (0 : Fin 1))
    refine congrArg _ (funext fun a => Fin.ext ?_)
    match a with
    | ⟨0, _⟩ => show win1_2.index t (0 : Fin 2) * 4000 + 1 * p.val = win1_4.index t (0 : Fin 2) * 4000 + p.val; omega
    | ⟨1, _⟩ => show win1_2.index t (1 : Fin 2) * 1 + 1 * 0 = 0; omega

theorem mem_blk1 (t : Fin cfg1.N) (i : S200000x16.Idx) :
    i ∈ ((cfg1.win 4).blk t).view.set ↔ ∀ a : Fin 2, win1_4.index t a * S4000x16.size a ≤ (i a).val ∧ (i a).val < win1_4.index t a * S4000x16.size a + S4000x16.size a := by
  show i ∈ ((View.whole main_v30).slice (win1_4.rect t)).set ↔ _
  rw [View.set_slice_whole, Rect.mem_set_unit]
  exact Iff.rfl

theorem cover1 (i : S200000x16.Idx) : ∃ t : Fin cfg1.N, (cfg1.win 4).flush t = true ∧ i ∈ ((cfg1.win 4).blk t).view.set := by
  have hi0 : (i 0).val < 200000 := (i 0).isLt
  have hi1 : (i 1).val < 16 := (i 1).isLt
  obtain ⟨t, ht⟩ := idx_onto1 ⟨(i 0).val / 4000, by omega⟩
  have q0 : win1_4.index t (0 : Fin 2) = (i 0).val / 4000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 16 ≤ (i 1).val ∧ (i 1).val < win1_4.index t (1 : Fin 2) * 16 + 16; omega

/-- The result array after the region: `G1` of the arrays as the region finds them. -/
theorem final1 (c : Dev nD) : (dat1 V c).arrAt 4 cfg1.N = G1 (V c main_v28) (V c main_v29) (V c main_v15) (V c main_arg7) :=
  (dat1 V c).arrAt_eq_of_cover 4 _ (fun t _ => flushed1_eq V c t) cover1

end Cert.KernelIdeal.Hand

end
-- ==== Proof.Blocks2.lean ====
/-
  The last region's two result arrays, as functions of the arrays the region finds.

  Point `t` of the 50-point grid works on rows `4000 t … 4000 t + 3999` of the aggregate and of the column of degree
  factors; the bias row, the folded projection weights and the folded projection bias are fetched whole. Row `r` of the
  first result is `outRow` of row `r` of the aggregate; entry `r` of the second (a column) is that row against the
  folded weights plus the folded bias.
-/
import proofs.«100905_j38654705664132_2_alg».proof.Proof.Gen.KernelIdeal.Frame
import proofs.«100905_j38654705664132_2_alg».proof.Proof.Body
import proofs.«100905_j38654705664132_2_alg».proof.Proof.Whole
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Gnn

variable (V : (c : Dev nD) → (b : Ref sig .tc) → Buf (Elt Ideal) ((c : Thread nD τ).loc b))

theorem point2a (x0 : FVec Ideal S4000x16 .f32) (x1 : FVec Ideal S1x16 .f32) (x2 : FVec Ideal S4000x1 .f32)
    (A0 : S200000x16.Idx → EReal) (A2 : S200000x1.Idx → EReal) (p : Fin 4000) (j : Fin 16) (r : Fin 200000)
    (h0 : ∀ k : Fin 16, x0 (ix2 p k) = A0 (ix2 r k)) (h2 : x2 (ix2 p (0 : Fin 1)) = A2 (ix2 r (0 : Fin 1))) :
    k2_pay1 (F := Ideal) x0 x2 x1 (ix2 p j) = G2a A0 x1 A2 (ix2 r j) := by
  rw [pay2_1_apply, h2]
  simp only [h0]
  rfl

theorem point2b (x0 : FVec Ideal S4000x16 .f32) (x1 : FVec Ideal S1x16 .f32) (x2 : FVec Ideal S4000x1 .f32)
    (x3 : FVec Ideal S1x16 .f32) (x4 : FVec Ideal S1x1 .f32)
    (A0 : S200000x16.Idx → EReal) (A2 : S200000x1.Idx → EReal) (p : Fin 4000) (u : Fin 1) (r : Fin 200000)
    (h0 : ∀ k : Fin 16, x0 (ix2 p k) = A0 (ix2 r k)) (h2 : x2 (ix2 p (0 : Fin 1)) = A2 (ix2 r (0 : Fin 1))) :
    k2_pay2 (F := Ideal) x0 x2 x1 x3 x4 (ix2 p u) = G2b A0 x1 A2 x3 x4 (ix2 r u) := by
  rw [pay2_2_apply, h2]
  simp only [h0]
  rfl

/-- The printed index maps over the grid. -/
theorem idx_facts2 : ∀ t : Fin cfg2.N, win2_0.index t (0 : Fin 2) = win2_5.index t (0 : Fin 2)
    ∧ win2_0.index t (1 : Fin 2) = 0
    ∧ win2_2.index t (0 : Fin 2) = win2_5.index t (0 : Fin 2)
    ∧ win2_2.index t (1 : Fin 2) = 0
    ∧ win2_1.index t (0 : Fin 2) = 0 ∧ win2_1.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 49 ∧ win2_5.index t (1 : Fin 2) = 0
    ∧ win2_6.index t (0 : Fin 2) = win2_5.index t (0 : Fin 2) ∧ win2_6.index t (1 : Fin 2) = 0 :=
  (by decide +kernel : ∀ t : Fin grid2.N, _)

theorem idx_onto2 : ∀ q : Fin 50, ∃ t : Fin cfg2.N, win2_5.index t = ![q.val, 0] ∧ win2_6.index t = ![q.val, 0] :=
  (by decide +kernel : ∀ q : Fin 50, ∃ t : Fin grid2.N, win2_5.index t = ![q.val, 0] ∧ win2_6.index t = ![q.val, 0])

/-- The whole-fetched windows' blocks are their arrays. -/
theorem whole2 (c : Dev nD) (t : Fin cfg2.N) : iblk2 V c 1 t = V c main_v43 ∧ iblk2 V c 3 t = V c main_v44 ∧ iblk2 V c 4 t = V c main_v45 := by
  obtain ⟨e0, e1, e2, e3, e4, e5, e6, e7, e8, e9, e10, e11, e12, e13⟩ := idx_facts2 t
  refine ⟨?_, ?_, ?_⟩
  · funext y
    show V c main_v43 (((cfg2.win 1).blk t).view.emb y) = V c main_v43 y
    refine congrArg _ (funext fun a => Fin.ext ?_)
    match a with
    | ⟨0, _⟩ => show win2_1.index t (0 : Fin 2) * 1 + 1 * (y 0).val = (y 0).val; omega
    | ⟨1, _⟩ => show win2_1.index t (1 : Fin 2) * 16 + 1 * (y 1).val = (y 1).val; omega
  · funext y
    show V c main_v44 (((cfg2.win 3).blk t).view.emb y) = V c main_v44 y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 16 + 1 * (y 1).val = (y 1).val; omega
  · funext y
    show V c main_v45 (((cfg2.win 4).blk t).view.emb y) = V c main_v45 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 1 + 1 * (y 1).val = (y 1).val; omega

/-- A row-blocked input's entry in point `t`'s block is the array's entry in row `4000 t + p`. -/
theorem rows2 (c : Dev nD) (t : Fin cfg2.N) (p : Fin 4000) (hr : win2_5.index t (0 : Fin 2) * 4000 + p.val < 200000) :
    (∀ k : Fin 16, iblk2 V c 0 t (ix2 p k) = V c main_v40 (ix2 (⟨win2_5.index t (0 : Fin 2) * 4000 + p.val, hr⟩ : Fin 200000) k))
    ∧ iblk2 V c 2 t (ix2 p (0 : Fin 1)) = V c main_v15 (ix2 (⟨win2_5.index t (0 : Fin 2) * 4000 + p.val, hr⟩ : Fin 200000) (0 : Fin 1)) := by
  obtain ⟨e0, e1, e2, e3, e4, e5, e6, e7, e8, e9, e10, e11, e12, e13⟩ := idx_facts2 t
  refine ⟨fun k => ?_, ?_⟩
  · show V c main_v40 (((cfg2.win 0).blk t).view.emb (ix2 p k)) = V c main_v40 (ix2 _ k)
    refine congrArg _ (funext fun a => Fin.ext ?_)
    match a with
    | ⟨0, _⟩ => show win2_0.index t (0 : Fin 2) * 4000 + 1 * p.val = win2_5.index t (0 : Fin 2) * 4000 + p.val; omega
    | ⟨1, _⟩ => show win2_0.index t (1 : Fin 2) * 16 + 1 * k.val = k.val; omega
  · show V c main_v15 (((cfg2.win 2).blk t).view.emb (ix2 p (0 : Fin 1))) = V c main_v15 (ix2 _ (0 : Fin 1))
    refine congrArg _ (funext fun a => Fin.ext ?_)
    match a with
    | ⟨0, _⟩ => show win2_2.index t (0 : Fin 2) * 4000 + 1 * p.val = win2_5.index t (0 : Fin 2) * 4000 + p.val; omega
    | ⟨1, _⟩ => show win2_2.index t (1 : Fin 2) * 1 + 1 * 0 = 0; omega

/-- What point `t` writes back into the first result is block `t` of `G2a`. -/
theorem flushed2a_eq (c : Dev nD) (t : Fin cfg2.N) :
    (dat2 V c).flushed 5 t = ((cfg2.win 5).blk t).view.read (Elt Ideal) (G2a (V c main_v40) (V c main_v43) (V c main_v15)) := by
  show (cfg2.win 5).cut (grid2.coords t) ((dat2 V c).after 5 t) = _
  rw [after2_5]
  unfold out2_5
  rw [View.canon_unit_zero hz2]
  simp only [View.ld_unit_zero (S := S4000x16) hz2, View.ld_unit_zero (S := S1x16) hz2, View.ld_unit_zero (S := S4000x1) hz2]
  obtain ⟨e0, e1, e2, e3, e4, e5, e6, e7, e8, e9, e10, e11, e12, e13⟩ := idx_facts2 t
  rw [(whole2 V c t).1]
  funext y
  obtain ⟨p, j, rfl⟩ : ∃ (p : Fin 4000) (j : Fin 16), y = ix2 p j := ⟨y 0, y 1, eq_ix2 y⟩
  have hr : win2_5.index t (0 : Fin 2) * 4000 + p.val < 200000 := by have := p.isLt; omega
  have hemb : ((cfg2.win 5).blk t).view.emb (ix2 p j) = ix2 (⟨win2_5.index t (0 : Fin 2) * 4000 + p.val, hr⟩ : Fin 200000) j := by
    funext a
    refine Fin.ext ?_
    match a with
    | ⟨0, _⟩ => show win2_5.index t (0 : Fin 2) * 4000 + 1 * p.val = win2_5.index t (0 : Fin 2) * 4000 + p.val; omega
    | ⟨1, _⟩ => show win2_5.index t (1 : Fin 2) * 16 + 1 * j.val = j.val; omega
  show k2_pay1 (F := Ideal) (iblk2 V c 0 t) (iblk2 V c 2 t) (V c main_v43) (ix2 p j)
    = G2a (V c main_v40) (V c main_v43) (V c main_v15) (((cfg2.win 5).blk t).view.emb (ix2 p j))
  rw [hemb]
  exact point2a _ _ _ _ _ p j _ (rows2 V c t p hr).1 (rows2 V c t p hr).2

/-- What point `t` writes back into the second result is block `t` of `G2b`. -/
theorem flushed2b_eq (c : Dev nD) (t : Fin cfg2.N) :
    (dat2 V c).flushed 6 t = ((cfg2.win 6).blk t).view.read (Elt Ideal)
      (G2b (V c main_v40) (V c main_v43) (V c main_v15) (V c main_v44) (V c main_v45)) := by
  show (cfg2.win 6).cut (grid2.coords t) ((dat2 V c).after 6 t) = _
  rw [after2_6]
  unfold out2_6
  rw [View.canon_unit_zero hz2]
  simp only [View.ld_unit_zero (S := S4000x16) hz2, View.ld_unit_zero (S := S1x16) hz2, View.ld_unit_zero (S := S4000x1) hz2,
    View.ld_unit_zero (S := S1x1) hz2]
  obtain ⟨e0, e1, e2, e3, e4, e5, e6, e7, e8, e9, e10, e11, e12, e13⟩ := idx_facts2 t
  rw [(whole2 V c t).1, (whole2 V c t).2.1, (whole2 V c t).2.2]
  funext y
  obtain ⟨p, u, rfl⟩ : ∃ (p : Fin 4000) (u : Fin 1), y = ix2 p u := ⟨y 0, y 1, eq_ix2 y⟩
  have hr : win2_5.index t (0 : Fin 2) * 4000 + p.val < 200000 := by have := p.isLt; omega
  have hemb : ((cfg2.win 6).blk t).view.emb (ix2 p u) = ix2 (⟨win2_5.index t (0 : Fin 2) * 4000 + p.val, hr⟩ : Fin 200000) u := by
    funext a
    refine Fin.ext ?_
    match a with
    | ⟨0, _⟩ => show win2_6.index t (0 : Fin 2) * 4000 + 1 * p.val = win2_5.index t (0 : Fin 2) * 4000 + p.val; omega
    | ⟨1, _⟩ => show win2_6.index t (1 : Fin 2) * 1 + 1 * u.val = u.val; omega
  show k2_pay2 (F := Ideal) (iblk2 V c 0 t) (iblk2 V c 2 t) (V c main_v43) (V c main_v44) (V c main_v45) (ix2 p u)
    = G2b (V c main_v40) (V c main_v43) (V c main_v15) (V c main_v44) (V c main_v45) (((cfg2.win 6).blk t).view.emb (ix2 p u))
  rw [hemb]
  exact point2b _ _ _ _ _ _ _ p u _ (rows2 V c t p hr).1 (rows2 V c t p hr).2

theorem mem_blk2a (t : Fin cfg2.N) (i : S200000x16.Idx) :
    i ∈ ((cfg2.win 5).blk t).view.set ↔ ∀ a : Fin 2, win2_5.index t a * S4000x16.size a ≤ (i a).val ∧ (i a).val < win2_5.index t a * S4000x16.size a + S4000x16.size a := by
  show i ∈ ((View.whole main_v46_0).slice (win2_5.rect t)).set ↔ _
  rw [View.set_slice_whole, Rect.mem_set_unit]
  exact Iff.rfl

theorem mem_blk2b (t : Fin cfg2.N) (i : S200000x1.Idx) :
    i ∈ ((cfg2.win 6).blk t).view.set ↔ ∀ a : Fin 2, win2_6.index t a * S4000x1.size a ≤ (i a).val ∧ (i a).val < win2_6.index t a * S4000x1.size a + S4000x1.size a := by
  show i ∈ ((View.whole main_v46_1).slice (win2_6.rect t)).set ↔ _
  rw [View.set_slice_whole, Rect.mem_set_unit]
  exact Iff.rfl

theorem cover2a (i : S200000x16.Idx) : ∃ t : Fin cfg2.N, (cfg2.win 5).flush t = true ∧ i ∈ ((cfg2.win 5).blk t).view.set := by
  have hi0 : (i 0).val < 200000 := (i 0).isLt
  have hi1 : (i 1).val < 16 := (i 1).isLt
  obtain ⟨t, ht, -⟩ := idx_onto2 ⟨(i 0).val / 4000, by omega⟩
  have q0 : win2_5.index t (0 : Fin 2) = (i 0).val / 4000 := congrFun ht 0
  have q1 : win2_5.index t (1 : Fin 2) = 0 := congrFun ht 1
  refine ⟨t, flush2_5 t, ?_⟩
  rw [mem_blk2a]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 16 ≤ (i 1).val ∧ (i 1).val < win2_5.index t (1 : Fin 2) * 16 + 16; omega

theorem cover2b (i : S200000x1.Idx) : ∃ t : Fin cfg2.N, (cfg2.win 6).flush t = true ∧ i ∈ ((cfg2.win 6).blk t).view.set := by
  have hi0 : (i 0).val < 200000 := (i 0).isLt
  have hi1 : (i 1).val < 1 := (i 1).isLt
  obtain ⟨t, -, ht⟩ := idx_onto2 ⟨(i 0).val / 4000, by omega⟩
  have q0 : win2_6.index t (0 : Fin 2) = (i 0).val / 4000 := congrFun ht 0
  have q1 : win2_6.index t (1 : Fin 2) = 0 := congrFun ht 1
  refine ⟨t, flush2_6 t, ?_⟩
  rw [mem_blk2b]
  intro a
  match a with
  | ⟨0, _⟩ => show win2_6.index t (0 : Fin 2) * 4000 ≤ (i 0).val ∧ (i 0).val < win2_6.index t (0 : Fin 2) * 4000 + 4000; omega
  | ⟨1, _⟩ => show win2_6.index t (1 : Fin 2) * 1 ≤ (i 1).val ∧ (i 1).val < win2_6.index t (1 : Fin 2) * 1 + 1; omega

/-- The two result arrays after the region. -/
theorem final2a (c : Dev nD) : (dat2 V c).arrAt 5 cfg2.N = G2a (V c main_v40) (V c main_v43) (V c main_v15) :=
  (dat2 V c).arrAt_eq_of_cover 5 _ (fun t _ => flushed2a_eq V c t) cover2a
theorem final2b (c : Dev nD) : (dat2 V c).arrAt 6 cfg2.N
    = G2b (V c main_v40) (V c main_v43) (V c main_v15) (V c main_v44) (V c main_v45) :=
  (dat2 V c).arrAt_eq_of_cover 6 _ (fun t _ => flushed2b_eq V c t) cover2b

end Cert.KernelIdeal.Hand

end
-- ==== Proof.Chain.lean ====
/-
  The kernel program's boundary contents, read back to the arguments.

  The run's last boundary holds the two results; each is read back through the host stretches and the three regions:
  a host stretch's result is its operations applied to what the stretch found, a region's result array is the
  whole-array function of the arrays it found (`final0`, `final1`, `final2a`, `final2b`), and a buffer no one wrote in
  between keeps its contents. The edge lists, the degrees and their inverse square roots are computed by the same
  host operations in both programs, so they are named here by the reference's stage functions of the edge argument.
-/
import proofs.«100905_j38654705664132_2_alg».proof.Proof.Blocks0
import proofs.«100905_j38654705664132_2_alg».proof.Proof.Blocks1
import proofs.«100905_j38654705664132_2_alg».proof.Proof.Blocks2
import proofs.«100905_j38654705664132_2_alg».proof.Proof.RefRead
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem Idealize.ShloMosaic.StableHlo
open Cert.KernelIdeal Cert.KernelIdeal.Gen Cert.Gnn

variable (m : (ℓ : Loc nD τ sig) → Buf (Elt Ideal) ℓ) (ρ : Dev nD → PrngReg)

/-- Opens a boundary's contents after a host stretch into the stretch's operations applied to what it found. -/
macro "host_step" : tactic =>
  `(tactic| (dsimp only [W9, W7, W5, W3, W2, W1, W0, hostOps0, hostOps0_1, hostOps0_2, hostOps1, hostOps2, hostOps3]; after_results; try rfl))

/-! ## Before the first region -/

/-- Writing through a typed reference of a literal buffer, and reading through it, is the identity: the outlined
    `select` that zeroes the inverse square root where the degree is not positive is spelt over typed references. -/
theorem ofBuf_cst_2 (v : (⟨S_, .f32⟩ : BufTy).Contents (Elt Ideal)) : (TRef.of (T := ⟨S_, .f32⟩) main_cst_2).ofBuf (Val := Elt Ideal) v = v := rfl
theorem toBuf_call0_v0 (v : (⟨S_, .f32⟩ : BufTy).Contents (Elt Ideal)) : (TRef.of (T := ⟨S_, .f32⟩) main_call0_v0).toBuf (Val := Elt Ideal) v = v := rfl
theorem ofBuf_call0_v0 (v : (⟨S_, .f32⟩ : BufTy).Contents (Elt Ideal)) : (TRef.of (T := ⟨S_, .f32⟩) main_call0_v0).ofBuf (Val := Elt Ideal) v = v := rfl
theorem toBuf_call0_v1 (v : (⟨S200000, .f32⟩ : BufTy).Contents (Elt Ideal)) : (TRef.of (T := ⟨S200000, .f32⟩) main_call0_v1).toBuf (Val := Elt Ideal) v = v := rfl
theorem ofBuf_call0_v1 (v : (⟨S200000, .f32⟩ : BufTy).Contents (Elt Ideal)) : (TRef.of (T := ⟨S200000, .f32⟩) main_call0_v1).ofBuf (Val := Elt Ideal) v = v := rfl
theorem ofBuf_v12 (v : (⟨S200000, .i1⟩ : BufTy).Contents (Elt Ideal)) : (TRef.of (T := ⟨S200000, .i1⟩) main_v12).ofBuf (Val := Elt Ideal) v = v := rfl
theorem ofBuf_v13 (v : (⟨S200000, .f32⟩ : BufTy).Contents (Elt Ideal)) : (TRef.of (T := ⟨S200000, .f32⟩) main_v13).ofBuf (Val := Elt Ideal) v = v := rfl
theorem toBuf_v14 (v : (⟨S200000, .f32⟩ : BufTy).Contents (Elt Ideal)) : (TRef.of (T := ⟨S200000, .f32⟩) main_v14).toBuf (Val := Elt Ideal) v = v := rfl

/-- The outlined `select`, from ANY contents: where the flag is set the second operand, elsewhere the spread constant. -/
theorem where_step (X : Valuation τ sig (Elt Ideal)) :
    StableHlo.after hostOps0_1 X (Proc.devRef .tc main_v14)
      = select (X (Proc.devRef .tc main_v12)) (X (Proc.devRef .tc main_v13))
          (broadcastInDim S200000 ![] bcast_S_S200000 (X (Proc.devRef .tc main_cst_2))) := by
  dsimp only [hostOps0_1]
  after_results
  simp only [ofBuf_cst_2, toBuf_call0_v0, ofBuf_call0_v0, toBuf_call0_v1, ofBuf_call0_v1, ofBuf_v12, ofBuf_v13, toBuf_v14]
  rfl

/-- The column cast, from any contents. -/
theorem col_step (X : Valuation τ sig (Elt Ideal)) :
    StableHlo.after hostOps0_2 X (Proc.devRef .tc main_v15)
      = shapeCast S200000x1 (X (Proc.devRef .tc main_v14)) shapeCasts_S200000_S200000x1 := by
  dsimp only [hostOps0_2]
  after_results
  rfl

/-- The degree flag, the inverse square root and the zero the `select` reads, by the reference's stage names. -/
theorem W1_v12 (c : Dev nD) : W1 m ρ c (Proc.devRef .tc main_v12)
    = Cert.ReferenceIdeal.ReadP.val_main_v30 (F := Ideal) (m ((c : Thread nD τ).loc main_arg11)) := by
  host_step
theorem W1_v13 (c : Dev nD) : W1 m ρ c (Proc.devRef .tc main_v13)
    = Cert.ReferenceIdeal.ReadP.val_main_v31 (F := Ideal) (m ((c : Thread nD τ).loc main_arg11)) := by
  host_step
theorem W1_cst_2 (c : Dev nD) : W1 m ρ c (Proc.devRef .tc main_cst_2) = constant (F := Ideal) S_ .f32 0x00000000#32 := by
  host_step

attribute [local irreducible] Cert.ReferenceIdeal.ReadP.val_main_v30 Cert.ReferenceIdeal.ReadP.val_main_v31 in
/-- The column of inverse square-root degrees the regions read: the reference's stage of the edge argument, as a column. -/
theorem W3_v15 (c : Dev nD) : W3 m ρ c (Proc.devRef .tc main_v15)
    = shapeCast S200000x1 (Cert.ReferenceIdeal.ReadP.val_main_v32 (F := Ideal) (m ((c : Thread nD τ).loc main_arg11))) shapeCasts_S200000_S200000x1 := by
  show StableHlo.after hostOps0_2 (StableHlo.after hostOps0_1 (W1 m ρ c)) (Proc.devRef .tc main_v15) = _
  rw [col_step, where_step, W1_v12, W1_v13, W1_cst_2]
  rfl

/-- The destination list and the source list. -/
theorem W3_v6 (c : Dev nD) : W3 m ρ c (Proc.devRef .tc main_v6)
    = Cert.ReferenceIdeal.ReadP.val_main_v24 (F := Ideal) (m ((c : Thread nD τ).loc main_arg11)) := by
  host_step
theorem W3_v3 (c : Dev nD) : W3 m ρ c (Proc.devRef .tc main_v3)
    = Cert.ReferenceIdeal.ReadP.val_main_v21 (F := Ideal) (m ((c : Thread nD τ).loc main_arg11)) := by
  host_step

/-- The bias rows of the dense layers, as the first region finds them. -/
theorem W3_v16 (c : Dev nD) : W3 m ρ c (Proc.devRef .tc main_v16)
    = shapeCast S1x256 (m ((c : Thread nD τ).loc main_arg2)) shapeCasts_S256_S1x256 := by
  host_step
theorem W3_v17 (c : Dev nD) : W3 m ρ c (Proc.devRef .tc main_v17)
    = shapeCast S1x16 (m ((c : Thread nD τ).loc main_arg4)) shapeCasts_S16_S1x16 := by
  host_step

/-- The arguments the later stretches and regions read are as launched when the first region is entered. -/
theorem W3_arg0 (c : Dev nD) : W3 m ρ c (Proc.devRef .tc main_arg0) = m ((c : Thread nD τ).loc main_arg0) := by host_step
theorem W3_arg1 (c : Dev nD) : W3 m ρ c (Proc.devRef .tc main_arg1) = m ((c : Thread nD τ).loc main_arg1) := by host_step
theorem W3_arg3 (c : Dev nD) : W3 m ρ c (Proc.devRef .tc main_arg3) = m ((c : Thread nD τ).loc main_arg3) := by host_step
theorem W3_arg5 (c : Dev nD) : W3 m ρ c (Proc.devRef .tc main_arg5) = m ((c : Thread nD τ).loc main_arg5) := by host_step
theorem W3_arg6 (c : Dev nD) : W3 m ρ c (Proc.devRef .tc main_arg6) = m ((c : Thread nD τ).loc main_arg6) := by host_step
theorem W3_arg7 (c : Dev nD) : W3 m ρ c (Proc.devRef .tc main_arg7) = m ((c : Thread nD τ).loc main_arg7) := by host_step
theorem W3_arg8 (c : Dev nD) : W3 m ρ c (Proc.devRef .tc main_arg8) = m ((c : Thread nD τ).loc main_arg8) := by host_step
theorem W3_arg9 (c : Dev nD) : W3 m ρ c (Proc.devRef .tc main_arg9) = m ((c : Thread nD τ).loc main_arg9) := by host_step
theorem W3_arg10 (c : Dev nD) : W3 m ρ c (Proc.devRef .tc main_arg10) = m ((c : Thread nD τ).loc main_arg10) := by host_step

/-! ## Across the first region -/

/-- The first region's result array. -/
theorem W4_v18 (c : Dev nD) : W4 m ρ c (Proc.devRef .tc main_v18)
    = G0 (W3 m ρ c (Proc.devRef .tc main_arg0)) (W3 m ρ c (Proc.devRef .tc main_arg1)) (W3 m ρ c (Proc.devRef .tc main_v16))
        (W3 m ρ c (Proc.devRef .tc main_arg3)) (W3 m ρ c (Proc.devRef .tc main_v17)) (W3 m ρ c (Proc.devRef .tc main_arg5))
        (W3 m ρ c (Proc.devRef .tc main_v15)) :=
  (W4_arr m ρ c 7).trans (final0 (V3 m ρ) c)

/-- An input array of the first region is as entered. -/
theorem W4_v15 (c : Dev nD) : W4 m ρ c (Proc.devRef .tc main_v15) = W3 m ρ c (Proc.devRef .tc main_v15) :=
  (W4_arr m ρ c 6).trans (((dat0 (V3 m ρ) c).arrAt_in 6 rfl _).trans (A_eq0 (V3 m ρ) c 6))

/-- Buffers that are no array of the first region are as entered. -/
theorem W4_v3 (c : Dev nD) : W4 m ρ c (Proc.devRef .tc main_v3) = W3 m ρ c (Proc.devRef .tc main_v3) := W4_of_ne m ρ c main_v3 (by decide)
theorem W4_v6 (c : Dev nD) : W4 m ρ c (Proc.devRef .tc main_v6) = W3 m ρ c (Proc.devRef .tc main_v6) := W4_of_ne m ρ c main_v6 (by decide)
theorem W4_arg6 (c : Dev nD) : W4 m ρ c (Proc.devRef .tc main_arg6) = W3 m ρ c (Proc.devRef .tc main_arg6) := W4_of_ne m ρ c main_arg6 (by decide)
theorem W4_arg7 (c : Dev nD) : W4 m ρ c (Proc.devRef .tc main_arg7) = W3 m ρ c (Proc.devRef .tc main_arg7) := W4_of_ne m ρ c main_arg7 (by decide)
theorem W4_arg8 (c : Dev nD) : W4 m ρ c (Proc.devRef .tc main_arg8) = W3 m ρ c (Proc.devRef .tc main_arg8) := W4_of_ne m ρ c main_arg8 (by decide)
theorem W4_arg9 (c : Dev nD) : W4 m ρ c (Proc.devRef .tc main_arg9) = W3 m ρ c (Proc.devRef .tc main_arg9) := W4_of_ne m ρ c main_arg9 (by decide)
theorem W4_arg10 (c : Dev nD) : W4 m ρ c (Proc.devRef .tc main_arg10) = W3 m ρ c (Proc.devRef .tc main_arg10) := W4_of_ne m ρ c main_arg10 (by decide)

/-! ## The first gather and scatter -/

/-- The aggregate the second region reads: the rows of the first region's result gathered at the sources and summed
    into the destinations. -/
theorem W5_v28 (c : Dev nD) : W5 m ρ c (Proc.devRef .tc main_v28)
    = Host.scatterAdd (F := Ideal) scatter_S200000x16_S6600000x1_S6600000x16_1_0_0_1
        (broadcastInDim S200000x16 ![] bcast_S_S200000x16 (constant (F := Ideal) S_ .f32 0x00000000#32))
        (broadcastInDim S6600000x1 ![0] bcast_S6600000_S6600000x1_0 (W4 m ρ c (Proc.devRef .tc main_v6)))
        (Host.gather gather_S200000x16_S6600000x1_S6600000x16_1_0_n_n_0_1_116 (W4 m ρ c (Proc.devRef .tc main_v18))
          (broadcastInDim S6600000x1 ![0] bcast_S6600000_S6600000x1_0
            (select (cmpi .slt (W4 m ρ c (Proc.devRef .tc main_v3)) (broadcastInDim S6600000 ![] bcast_S_S6600000 (constantI S_ 32 0#32)))
              (addi (W4 m ρ c (Proc.devRef .tc main_v3)) (broadcastInDim S6600000 ![] bcast_S_S6600000 (constantI S_ 32 200000#32)))
              (W4 m ρ c (Proc.devRef .tc main_v3))))) := by
  host_step
theorem W5_v29 (c : Dev nD) : W5 m ρ c (Proc.devRef .tc main_v29)
    = shapeCast S1x16 (W4 m ρ c (Proc.devRef .tc main_arg6)) shapeCasts_S16_S1x16 := by
  host_step
theorem W5_v15 (c : Dev nD) : W5 m ρ c (Proc.devRef .tc main_v15) = W4 m ρ c (Proc.devRef .tc main_v15) := by host_step
theorem W5_v3 (c : Dev nD) : W5 m ρ c (Proc.devRef .tc main_v3) = W4 m ρ c (Proc.devRef .tc main_v3) := by host_step
theorem W5_v6 (c : Dev nD) : W5 m ρ c (Proc.devRef .tc main_v6) = W4 m ρ c (Proc.devRef .tc main_v6) := by host_step
theorem W5_arg7 (c : Dev nD) : W5 m ρ c (Proc.devRef .tc main_arg7) = W4 m ρ c (Proc.devRef .tc main_arg7) := by host_step
theorem W5_arg8 (c : Dev nD) : W5 m ρ c (Proc.devRef .tc main_arg8) = W4 m ρ c (Proc.devRef .tc main_arg8) := by host_step
theorem W5_arg9 (c : Dev nD) : W5 m ρ c (Proc.devRef .tc main_arg9) = W4 m ρ c (Proc.devRef .tc main_arg9) := by host_step
theorem W5_arg10 (c : Dev nD) : W5 m ρ c (Proc.devRef .tc main_arg10) = W4 m ρ c (Proc.devRef .tc main_arg10) := by host_step

/-! ## Across the second region -/

theorem W6_v30 (c : Dev nD) : W6 m ρ c (Proc.devRef .tc main_v30)
    = G1 (W5 m ρ c (Proc.devRef .tc main_v28)) (W5 m ρ c (Proc.devRef .tc main_v29)) (W5 m ρ c (Proc.devRef .tc main_v15))
        (W5 m ρ c (Proc.devRef .tc main_arg7)) :=
  (W6_arr m ρ c 4).trans (final1 (V5 m ρ) c)
theorem W6_v15 (c : Dev nD) : W6 m ρ c (Proc.devRef .tc main_v15) = W5 m ρ c (Proc.devRef .tc main_v15) :=
  (W6_arr m ρ c 2).trans (((dat1 (V5 m ρ) c).arrAt_in 2 rfl _).trans (A_eq1 (V5 m ρ) c 2))
theorem W6_v3 (c : Dev nD) : W6 m ρ c (Proc.devRef .tc main_v3) = W5 m ρ c (Proc.devRef .tc main_v3) := W6_of_ne m ρ c main_v3 (by decide)
theorem W6_v6 (c : Dev nD) : W6 m ρ c (Proc.devRef .tc main_v6) = W5 m ρ c (Proc.devRef .tc main_v6) := W6_of_ne m ρ c main_v6 (by decide)
theorem W6_arg8 (c : Dev nD) : W6 m ρ c (Proc.devRef .tc main_arg8) = W5 m ρ c (Proc.devRef .tc main_arg8) := W6_of_ne m ρ c main_arg8 (by decide)
theorem W6_arg9 (c : Dev nD) : W6 m ρ c (Proc.devRef .tc main_arg9) = W5 m ρ c (Proc.devRef .tc main_arg9) := W6_of_ne m ρ c main_arg9 (by decide)
theorem W6_arg10 (c : Dev nD) : W6 m ρ c (Proc.devRef .tc main_arg10) = W5 m ρ c (Proc.devRef .tc main_arg10) := W6_of_ne m ρ c main_arg10 (by decide)

/-! ## The second gather and scatter, and the folded projection -/

theorem W7_v40 (c : Dev nD) : W7 m ρ c (Proc.devRef .tc main_v40)
    = Host.scatterAdd (F := Ideal) scatter_S200000x16_S6600000x1_S6600000x16_1_0_0_1
        (broadcastInDim S200000x16 ![] bcast_S_S200000x16 (constant (F := Ideal) S_ .f32 0x00000000#32))
        (broadcastInDim S6600000x1 ![0] bcast_S6600000_S6600000x1_0 (W6 m ρ c (Proc.devRef .tc main_v6)))
        (Host.gather gather_S200000x16_S6600000x1_S6600000x16_1_0_n_n_0_1_116 (W6 m ρ c (Proc.devRef .tc main_v30))
          (broadcastInDim S6600000x1 ![0] bcast_S6600000_S6600000x1_0
            (select (cmpi .slt (W6 m ρ c (Proc.devRef .tc main_v3)) (broadcastInDim S6600000 ![] bcast_S_S6600000 (constantI S_ 32 0#32)))
              (addi (W6 m ρ c (Proc.devRef .tc main_v3)) (broadcastInDim S6600000 ![] bcast_S_S6600000 (constantI S_ 32 200000#32)))
              (W6 m ρ c (Proc.devRef .tc main_v3))))) := by
  host_step
theorem W7_v43 (c : Dev nD) : W7 m ρ c (Proc.devRef .tc main_v43)
    = shapeCast S1x16 (W6 m ρ c (Proc.devRef .tc main_arg8)) shapeCasts_S16_S1x16 := by
  host_step
theorem W7_v44 (c : Dev nD) : W7 m ρ c (Proc.devRef .tc main_v44)
    = shapeCast S1x16 (Host.reduceAdd (F := Ideal) (W6 m ρ c (Proc.devRef .tc main_arg9)) (constant (F := Ideal) S_ .f32 0x00000000#32)
        reducesTo_S16x2_S16_d1 h_S_) shapeCasts_S16_S1x16 := by
  host_step
theorem W7_v45 (c : Dev nD) : W7 m ρ c (Proc.devRef .tc main_v45)
    = shapeCast S1x1 (Host.reduceAdd (F := Ideal) (W6 m ρ c (Proc.devRef .tc main_arg10)) (constant (F := Ideal) S_ .f32 0x00000000#32)
        reducesTo_S2_S_d0 h_S_) shapeCasts_S_S1x1 := by
  host_step
theorem W7_v15 (c : Dev nD) : W7 m ρ c (Proc.devRef .tc main_v15) = W6 m ρ c (Proc.devRef .tc main_v15) := by host_step

/-! ## Across the last region, and the last stretch -/

theorem W8_v46_0 (c : Dev nD) : W8 m ρ c (Proc.devRef .tc main_v46_0)
    = G2a (W7 m ρ c (Proc.devRef .tc main_v40)) (W7 m ρ c (Proc.devRef .tc main_v43)) (W7 m ρ c (Proc.devRef .tc main_v15)) :=
  (W8_arr m ρ c 5).trans (final2a (V7 m ρ) c)
theorem W8_v46_1 (c : Dev nD) : W8 m ρ c (Proc.devRef .tc main_v46_1)
    = G2b (W7 m ρ c (Proc.devRef .tc main_v40)) (W7 m ρ c (Proc.devRef .tc main_v43)) (W7 m ρ c (Proc.devRef .tc main_v15))
        (W7 m ρ c (Proc.devRef .tc main_v44)) (W7 m ρ c (Proc.devRef .tc main_v45)) :=
  (W8_arr m ρ c 6).trans (final2b (V7 m ρ) c)
theorem W9_v47 (c : Dev nD) : W9 m ρ c (Proc.devRef .tc main_v47)
    = shapeCast S200000 (W8 m ρ c (Proc.devRef .tc main_v46_1)) shapeCasts_S200000x1_S200000 := by
  host_step
theorem W9_v46_0 (c : Dev nD) : W9 m ρ c (Proc.devRef .tc main_v46_0) = W8 m ρ c (Proc.devRef .tc main_v46_0) := by host_step

end Cert.KernelIdeal.Hand

end
-- ==== Proof.RefBridge.lean ====
/-
  The reference program's stages are the whole-array functions of `Whole.lean`.

  Read one operation at a time: a `dot_general` at `(r, c)` is row `r` of the left operand against column `c` of the
  right one, a bias spread over the rows reads its entry of the column, the comparison-and-select is the activation of
  the entry. So the dense layers and the first graph matrix are `R48`; each round of message passing is `msg` of the
  previous table followed by `R69` (bias, activation) and, between the rounds, `R70` (the next matrix); the returned
  column is `R96` of the last layer's rows.
-/
import proofs.«100905_j38654705664132_2_alg».proof.Proof.RefRead
import proofs.«100905_j38654705664132_2_alg».proof.Proof.Whole

set_option maxRecDepth 16384

noncomputable section

namespace Cert.ReferenceIdeal.Hand

open Idealize.ShloMosaic Idealize.ShloMosaic.ValueIdx Cert.ReferenceIdeal Cert.ReferenceIdeal.ReadP Cert.Gnn
open Cert.ReferenceIdeal.Facts₀

variable (x0 : (⟨S200000x128, .f32⟩ : BufTy).Contents (Elt Ideal)) (x1 : (⟨S128x256, .f32⟩ : BufTy).Contents (Elt Ideal))
  (x2 : (⟨S256, .f32⟩ : BufTy).Contents (Elt Ideal)) (x3 : (⟨S256x16, .f32⟩ : BufTy).Contents (Elt Ideal))
  (x4 : (⟨S16, .f32⟩ : BufTy).Contents (Elt Ideal)) (x5 : (⟨S16x16, .f32⟩ : BufTy).Contents (Elt Ideal))
  (x6 : (⟨S16, .f32⟩ : BufTy).Contents (Elt Ideal)) (x7 : (⟨S16x16, .f32⟩ : BufTy).Contents (Elt Ideal))
  (x8 : (⟨S16, .f32⟩ : BufTy).Contents (Elt Ideal)) (x9 : (⟨S16x2, .f32⟩ : BufTy).Contents (Elt Ideal))
  (x10 : (⟨S2, .f32⟩ : BufTy).Contents (Elt Ideal)) (x11 : (⟨S2x6400000, .i32⟩ : BufTy).Contents (Elt Ideal))

/-! ## The index maps of the products and the spread biases, at an index given by coordinates -/

theorem li0 (r : Fin 200000) (c : Fin 256) (k : Fin 128) : lidx_main_v0 (ix2 r c) k = ix2 r k :=
  funext fun a => Fin.ext (by match a with | ⟨0, _⟩ => rfl | ⟨1, _⟩ => rfl)
theorem ri0 (r : Fin 200000) (c : Fin 256) (k : Fin 128) : ridx_main_v0 (ix2 r c) k = ix2 k c :=
  funext fun a => Fin.ext (by match a with | ⟨0, _⟩ => rfl | ⟨1, _⟩ => rfl)
theorem bi2 (r : Fin 200000) (c : Fin 256) : idx_main_v1 (idx_main_v2 (ix2 r c)) = ix1 c :=
  funext fun a => Fin.ext (by match a with | ⟨0, _⟩ => rfl)
theorem li9 (r : Fin 200000) (c : Fin 16) (k : Fin 256) : lidx_main_v9 (ix2 r c) k = ix2 r k :=
  funext fun a => Fin.ext (by match a with | ⟨0, _⟩ => rfl | ⟨1, _⟩ => rfl)
theorem ri9 (r : Fin 200000) (c : Fin 16) (k : Fin 256) : ridx_main_v9 (ix2 r c) k = ix2 k c :=
  funext fun a => Fin.ext (by match a with | ⟨0, _⟩ => rfl | ⟨1, _⟩ => rfl)
theorem bi11 (r : Fin 200000) (c : Fin 16) : idx_main_v10 (idx_main_v11 (ix2 r c)) = ix1 c :=
  funext fun a => Fin.ext (by match a with | ⟨0, _⟩ => rfl)
theorem li48 (r : Fin 200000) (c : Fin 16) (k : Fin 16) : lidx_main_v48 (ix2 r c) k = ix2 r k :=
  funext fun a => Fin.ext (by match a with | ⟨0, _⟩ => rfl | ⟨1, _⟩ => rfl)
theorem ri48 (r : Fin 200000) (c : Fin 16) (k : Fin 16) : ridx_main_v48 (ix2 r c) k = ix2 k c :=
  funext fun a => Fin.ext (by match a with | ⟨0, _⟩ => rfl | ⟨1, _⟩ => rfl)
theorem bi63 (r : Fin 200000) (c : Fin 16) : idx_main_v62 (idx_main_v63 (ix2 r c)) = ix1 c :=
  funext fun a => Fin.ext (by match a with | ⟨0, _⟩ => rfl)
theorem li70 (r : Fin 200000) (c : Fin 16) (k : Fin 16) : lidx_main_v70 (ix2 r c) k = ix2 r k :=
  funext fun a => Fin.ext (by match a with | ⟨0, _⟩ => rfl | ⟨1, _⟩ => rfl)
theorem ri70 (r : Fin 200000) (c : Fin 16) (k : Fin 16) : ridx_main_v70 (ix2 r c) k = ix2 k c :=
  funext fun a => Fin.ext (by match a with | ⟨0, _⟩ => rfl | ⟨1, _⟩ => rfl)
theorem bi85 (r : Fin 200000) (c : Fin 16) : idx_main_v84 (idx_main_v85 (ix2 r c)) = ix1 c :=
  funext fun a => Fin.ext (by match a with | ⟨0, _⟩ => rfl)
theorem li92 (r : Fin 200000) (c : Fin 2) (k : Fin 16) : lidx_main_v92 (ix2 r c) k = ix2 r k :=
  funext fun a => Fin.ext (by match a with | ⟨0, _⟩ => rfl | ⟨1, _⟩ => rfl)
theorem ri92 (r : Fin 200000) (c : Fin 2) (k : Fin 16) : ridx_main_v92 (ix2 r c) k = ix2 k c :=
  funext fun a => Fin.ext (by match a with | ⟨0, _⟩ => rfl | ⟨1, _⟩ => rfl)
theorem bi94 (r : Fin 200000) (c : Fin 2) : idx_main_v93 (idx_main_v94 (ix2 r c)) = ix1 c :=
  funext fun a => Fin.ext (by match a with | ⟨0, _⟩ => rfl)
theorem i96 (r : Fin 200000) (o : Fin 2) : idx_main_v96 (ix1 r) o = ix2 r o :=
  funext fun a => Fin.ext (by match a with | ⟨0, _⟩ => rfl | ⟨1, _⟩ => rfl)

/-! ## The dense layers -/

/-- The first dense layer before its activation, at `(r, c)`. -/
theorem ref_v3 (r : Fin 200000) (c : Fin 256) :
    val_main_v3 (F := Ideal) x0 x1 x2 (ix2 r c)
      = dense (fun k => x0 (ix2 r k)) (fun a b => x1 (ix2 a b)) (fun b => x2 (ix1 b)) c := by
  rw [val_main_v3_apply, val_main_v0_apply, val_main_v2_apply, val_main_v1_apply, bi2]
  simp only [li0, ri0]
  rfl

/-- The first dense layer, at `(r, c)`. -/
theorem ref_v8 (r : Fin 200000) (c : Fin 256) :
    val_main_v8 (F := Ideal) x0 x1 x2 (ix2 r c)
      = act (dense (fun k => x0 (ix2 r k)) (fun a b => x1 (ix2 a b)) (fun b => x2 (ix1 b)) c) := by
  rw [val_main_v8_apply, val_main_v5_apply, val_main_v7_apply, val_main_v4_apply, val_main_v6_apply, val_main_cst_apply,
    val_main_cst_0_apply, ref_v3]
  rfl

/-- The second dense layer, at `(r, c)`. -/
theorem ref_v17 (r : Fin 200000) (c : Fin 16) :
    val_main_v17 (F := Ideal) x0 x1 x2 x3 x4 (ix2 r c)
      = act (dense (fun k2 => act (dense (fun k => x0 (ix2 r k)) (fun a b => x1 (ix2 a b)) (fun b => x2 (ix1 b)) k2))
          (fun a b => x3 (ix2 a b)) (fun b => x4 (ix1 b)) c) := by
  rw [val_main_v17_apply, val_main_v14_apply, val_main_v16_apply, val_main_v13_apply, val_main_v15_apply, val_main_cst_1_apply,
    val_main_cst_2_apply, val_main_v12_apply, val_main_v9_apply, val_main_v11_apply, val_main_v10_apply, bi11]
  simp only [li9, ri9, ref_v8]
  rfl

/-- The dense layers and the first graph matrix are `R48`. -/
theorem ref_v48 : val_main_v48 (F := Ideal) x0 x1 x2 x3 x4 x5 = R48 x0 x1 x2 x3 x4 x5 := by
  funext i
  obtain ⟨r, j, rfl⟩ : ∃ (r : Fin 200000) (j : Fin 16), i = ix2 r j := ⟨i 0, i 1, eq_ix2 i⟩
  rw [val_main_v48_apply]
  simp only [li48, ri48, ref_v17]
  rfl

/-! ## The rounds of message passing -/

attribute [local irreducible] val_main_v48 val_main_v54 val_main_v57 val_main_v59 val_main_v60 in
/-- The first round's aggregated messages. -/
theorem ref_v61 : val_main_v61 (F := Ideal) x0 x1 x2 x3 x4 x5 x11
    = msg gather_S200000x16_S6600000x1_S6600000x16_1_0_n_n_0_1_116_wf scatter_S200000x16_S6600000x1_S6600000x16_1_0_0_1_wf
        (val_main_v59 (F := Ideal)) (val_main_v60 (F := Ideal) x11) (val_main_v54 (F := Ideal) x11) (val_main_v57 (F := Ideal) x11)
        (val_main_v48 (F := Ideal) x0 x1 x2 x3 x4 x5) := by
  unfold val_main_v61 val_main_v58 val_main_v55 msg
  rfl

attribute [local irreducible] val_main_v61 in
/-- The first round's output. -/
theorem ref_v69 : val_main_v69 (F := Ideal) x0 x1 x2 x3 x4 x5 x6 x11
    = R69 (val_main_v61 (F := Ideal) x0 x1 x2 x3 x4 x5 x11) x6 := by
  funext i
  obtain ⟨r, j, rfl⟩ : ∃ (r : Fin 200000) (j : Fin 16), i = ix2 r j := ⟨i 0, i 1, eq_ix2 i⟩
  rw [val_main_v69_apply, val_main_v66_apply, val_main_v68_apply, val_main_v65_apply, val_main_v67_apply, val_main_cst_13_apply,
    val_main_cst_14_apply, val_main_v64_apply, val_main_v63_apply, val_main_v62_apply, bi63]
  rfl

attribute [local irreducible] val_main_v69 in
/-- The second graph matrix. -/
theorem ref_v70 : val_main_v70 (F := Ideal) x0 x1 x2 x3 x4 x5 x6 x7 x11
    = R70 (val_main_v69 (F := Ideal) x0 x1 x2 x3 x4 x5 x6 x11) x7 := by
  funext i
  obtain ⟨r, j, rfl⟩ : ∃ (r : Fin 200000) (j : Fin 16), i = ix2 r j := ⟨i 0, i 1, eq_ix2 i⟩
  rw [val_main_v70_apply]
  simp only [li70, ri70]
  rfl

attribute [local irreducible] val_main_v70 val_main_v76 val_main_v79 val_main_v81 val_main_v82 in
/-- The second round's aggregated messages. -/
theorem ref_v83 : val_main_v83 (F := Ideal) x0 x1 x2 x3 x4 x5 x6 x7 x11
    = msg gather_S200000x16_S6600000x1_S6600000x16_1_0_n_n_0_1_116_wf scatter_S200000x16_S6600000x1_S6600000x16_1_0_0_1_wf
        (val_main_v81 (F := Ideal)) (val_main_v82 (F := Ideal) x11) (val_main_v76 (F := Ideal) x11) (val_main_v79 (F := Ideal) x11)
        (val_main_v70 (F := Ideal) x0 x1 x2 x3 x4 x5 x6 x7 x11) := by
  unfold val_main_v83 val_main_v80 val_main_v77 msg
  rfl

attribute [local irreducible] val_main_v83 in
/-- The last layer's rows: the program's second result. -/
theorem ref_v91 : val_main_v91 (F := Ideal) x0 x1 x2 x3 x4 x5 x6 x7 x8 x11
    = R69 (val_main_v83 (F := Ideal) x0 x1 x2 x3 x4 x5 x6 x7 x11) x8 := by
  funext i
  obtain ⟨r, j, rfl⟩ : ∃ (r : Fin 200000) (j : Fin 16), i = ix2 r j := ⟨i 0, i 1, eq_ix2 i⟩
  rw [val_main_v91_apply, val_main_v88_apply, val_main_v90_apply, val_main_v87_apply, val_main_v89_apply, val_main_cst_18_apply,
    val_main_cst_19_apply, val_main_v86_apply, val_main_v85_apply, val_main_v84_apply, bi85]
  rfl

attribute [local irreducible] val_main_v91 in
/-- The projected column: the program's first result. -/
theorem ref_v96 : val_main_v96 (F := Ideal) x0 x1 x2 x3 x4 x5 x6 x7 x8 x9 x10 x11
    = R96 (val_main_v91 (F := Ideal) x0 x1 x2 x3 x4 x5 x6 x7 x8 x11) x9 x10 := by
  funext i
  obtain ⟨r, rfl⟩ : ∃ r : Fin 200000, i = ix1 r := ⟨i 0, eq_ix1 i⟩
  rw [val_main_v96_apply]
  unfold R96
  refine congrArg₂ (· + ·) rfl (Finset.sum_congr rfl fun o _ => ?_)
  rw [i96, val_main_v95_apply, val_main_v92_apply, val_main_v94_apply, val_main_v93_apply, bi94]
  refine congrArg₂ (· + ·) (Finset.sum_congr rfl fun k _ => ?_) rfl
  rw [li92, ri92]

end Cert.ReferenceIdeal.Hand

end
-- ==== Proof.Alg.lean ====
/-
  The extended-real algebra the two programs' agreement rests on.

  Both programs compute the same graph network, but one of them pulls the factor 1/√(deg dst) out of a sum over
  edges and folds the two columns of the final 16×2 projection together before the row product. Over the extended
  reals neither rewrite is an identity in general (a product does not distribute over a sum with both infinities
  in it), so this file supplies what makes them valid here: every value in sight is a real number, and the factor
  pulled out of the sum is a nonnegative real.
-/
import proofs.«100905_j38654705664132_2_alg».proof.Proof.Spec
import Idealize.ShloMosaic.PureOps.Ideal
import Idealize.ShloMosaic.PureOps.Ideal.Laws

noncomputable section

namespace Cert.Gnn

open Idealize.ShloMosaic

/-! ### The shared literals are real numbers -/

theorem c0_eq : c0 = 0 := Ideal.ofBits_zero_f32

theorem isR_zero : IsR 0 := ⟨0, rfl⟩

theorem isR_c0 : IsR c0 := by rw [c0_eq]; exact isR_zero

/-- A pattern whose exponent field is not all ones denotes a real number: both remaining branches of the
    decoding are casts of a real. -/
theorem isR_ieee (e m : Nat) {w : Nat} (b : BitVec w) (h : (b.extractLsb' m e).toNat ≠ 2 ^ e - 1) :
    IsR (Ideal.ieee e m b) := by
  unfold Ideal.ieee
  dsimp only
  rw [if_neg h]
  split_ifs <;> exact ⟨_, rfl⟩

theorem isR_c1 : IsR c1 := isR_ieee 8 23 (0x3F800000#32 : BitVec 32) (by decide)

theorem isR_cS : IsR cS := isR_ieee 8 23 (0x3C23D70A#32 : BitVec 32) (by decide)

/-! ### Real numbers are closed under the operations the network uses -/

theorem IsR.add {a b : EReal} : IsR a → IsR b → IsR (a + b)
  | ⟨x, hx⟩, ⟨y, hy⟩ => ⟨x + y, by rw [hx, hy, EReal.coe_add]⟩

theorem IsR.mul {a b : EReal} : IsR a → IsR b → IsR (a * b)
  | ⟨x, hx⟩, ⟨y, hy⟩ => ⟨x * y, by rw [hx, hy, EReal.coe_mul]⟩

theorem isR_sum {ι : Type} (s : Finset ι) (f : ι → EReal) (h : ∀ i ∈ s, IsR (f i)) : IsR (∑ i ∈ s, f i) :=
  Finset.sum_induction f IsR (fun _ _ => IsR.add) isR_zero h

/-- The activation keeps a real real: it returns either its argument or the slope times it. -/
theorem IsR.act {z : EReal} (hz : IsR z) : IsR (Cert.Gnn.act z) := by
  unfold Cert.Gnn.act Scalar.select
  split_ifs
  · exact hz
  · exact isR_cS.mul hz

theorem IsR.dense {K M : Nat} {x : Fin K → EReal} {W : Fin K → Fin M → EReal} {b : Fin M → EReal}
    (hx : ∀ k, IsR (x k)) (hW : ∀ k c, IsR (W k c)) (hb : ∀ c, IsR (b c)) (c : Fin M) :
    IsR (Cert.Gnn.dense x W b c) :=
  (isR_sum _ _ fun k _ => (hx k).mul (hW k c)).add (hb c)

theorem IsR.rowMul {K M : Nat} {x : Fin K → EReal} {W : Fin K → Fin M → EReal}
    (hx : ∀ k, IsR (x k)) (hW : ∀ k c, IsR (W k c)) (c : Fin M) :
    IsR (Cert.Gnn.rowMul x W c) :=
  isR_sum _ _ fun k _ => (hx k).mul (hW k c)

/-! ### A nonnegative real factor distributes over any sum of extended reals -/

/-- A real `c ≥ 0` sends `⊤` to `⊤` or `0` and `⊥` to `⊥` or `0`, so the infinities among the summands meet the same
    way before and after the multiplication: the factor distributes over arbitrary extended-real summands. -/
theorem sum_mul_real_nonneg {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-! ### The degree normaliser is a nonnegative real -/

/-- At a real degree `d`: if `0 < d` the inverse square root is `(√d)⁻¹ ≥ 0`, otherwise the value is zero. -/
theorem invSqrtDeg_real (d : EReal) (hd : IsR d) : ∃ r : ℝ, 0 ≤ r ∧ invSqrtDeg d = (r : EReal) := by
  obtain ⟨x, rfl⟩ := hd
  unfold invSqrtDeg Scalar.select
  rw [c0_eq]
  by_cases hx : 0 < x
  · have hc : Ideal.cmp .ogt (x : EReal) 0 = 1 := by
      simp [Ideal.cmp, hx]
    rw [if_pos hc]
    refine ⟨(Real.sqrt x)⁻¹, inv_nonneg.2 (Real.sqrt_nonneg x), ?_⟩
    simp [not_lt.2 hx.le, hx.ne']
  · have hc : ¬ Ideal.cmp .ogt (x : EReal) 0 = 1 := by
      simp [Ideal.cmp, hx]
    rw [if_neg hc]
    exact ⟨0, le_rfl, rfl⟩

/-! ### Folding the two projection columns before the row product -/

/-- The cast from the reals commutes with finite sums. -/
theorem coe_finset_sum {ι : Type} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- Over the reals the row against the column sums, plus the summed bias, is the sum over columns of each
    column's product plus its bias; stated for any two extents. -/
theorem proj_fold_gen {n m : Nat} (h : Fin n → EReal) (pw : Fin n → Fin m → EReal) (pb : Fin m → EReal)
    (hh : ∀ j, IsR (h j)) (hpw : ∀ j o, IsR (pw j o)) (hpb : ∀ o, IsR (pb o)) :
    (∑ j : Fin n, h j * (c0 + ∑ o : Fin m, pw j o)) + (c0 + ∑ o : Fin m, pb o)
      = c0 + ∑ o : Fin m, ((∑ j : Fin n, h j * pw j o) + pb o) := by
  have hh₀ : ∀ j, ∃ r : ℝ, h j = (r : EReal) := hh
  have hpw₀ : ∀ j o, ∃ r : ℝ, pw j o = (r : EReal) := hpw
  have hpb₀ : ∀ o, ∃ r : ℝ, pb o = (r : EReal) := hpb
  choose h' hh' using hh₀
  choose pw' hpw' using hpw₀
  choose pb' hpb' using hpb₀
  simp only [c0_eq, zero_add, hh', hpw', hpb', ← coe_finset_sum, ← EReal.coe_mul, ← EReal.coe_add]
  congr 1
  rw [Finset.sum_add_distrib, Finset.sum_comm]
  simp only [Finset.mul_sum]

theorem proj_fold (h : Fin 16 → EReal) (pw : Fin 16 → Fin 2 → EReal) (pb : Fin 2 → EReal)
    (hh : ∀ j, IsR (h j)) (hpw : ∀ j o, IsR (pw j o)) (hpb : ∀ o, IsR (pb o)) :
    (∑ j : Fin 16, h j * (c0 + ∑ o : Fin 2, pw j o)) + (c0 + ∑ o : Fin 2, pb o)
      = c0 + ∑ o : Fin 2, ((∑ j : Fin 16, h j * pw j o) + pb o) :=
  proj_fold_gen h pw pb hh hpw hpb

end Cert.Gnn

end
-- ==== Proof.LibLayerBridge.lean ====
/-
  One round of message passing, with the destination's weight inside the sum or outside it.

  Over the edge list, result row `d` of an accumulating scatter is the sum of the update rows whose destination is `d`.
  If every update row is a gathered table row `T' (s e)` times `w (s e) · w (d e)` — a node weight at the edge's source and
  at its destination — and `T i = T' i · w (row i)`, then the scatter of the weighted rows is the scatter of the rows
  of `T`, times `w d`: the updates that land on row `d` all carry the factor `w d`, which is a nonnegative real and so
  moves out of the sum of extended reals. Stated for any extents.
-/
import proofs.«100905_j38654705664132_2_alg».proof.Proof.Alg
import proofs.«100905_j38654705664132_2_alg».proof.Proof.LibGatherRows
import proofs.«100905_j38654705664132_2_alg».proof.Proof.LibScatterRows
import Idealize.ShloMosaic.PureOps.Ideal.Laws
import Idealize.ShloMosaic.Lib.ValueIdx

noncomputable section

namespace Cert.LibLayerBridge

open Idealize.ShloMosaic Idealize.ShloMosaic.ValueIdx Cert.Gnn Cert.LibGatherRows Cert.LibScatterRows

variable {N R C w : ℕ}

/-- The row a gather reads for update row `e`: the start index read signed and clamped into the table. -/
def srcRow (hN : 0 < N) (iS : IVec ⟨2, ![R, 1]⟩ w) (e : Fin R) : Fin N :=
  ⟨min (iS (ix2 e (0 : Fin 1))).toInt.toNat (N - 1), by omega⟩

/-- An accumulating row scatter from a zero table, at an entry: the sum of the updates that land there. -/
theorem scatterAdd_rows_apply (wfS : ScatterDims.WF ⟨2, ![N, C]⟩ ⟨2, ![R, 1]⟩ ⟨2, ![R, C]⟩ [1] [0] [0] 1)
    (Z : (⟨2, ![N, C]⟩ : Shape).Idx → EReal) (iD : IVec ⟨2, ![R, 1]⟩ w) (upd : (⟨2, ![R, C]⟩ : Shape).Idx → EReal)
    (i : (⟨2, ![N, C]⟩ : Shape).Idx) :
    Host.scatterAdd (F := Ideal) (φ := .f32) (rowScatter N R C wfS) Z iD upd i
      = Z i + ∑ J ∈ Finset.univ.filter (fun J => (rowScatter N R C wfS).resultIdx? J iD = some i), upd J := rfl

/-- The scatter of weighted gathered rows is the scatter of the pre-weighted table's rows, times the destination's weight. -/
theorem scatter_weighted (hN : 0 < N)
    (wfG : GatherDims.WF ⟨2, ![N, C]⟩ ⟨2, ![R, 1]⟩ ⟨2, ![R, C]⟩ [1] [0] [] [0] [] 1 ![1, C])
    (wfS : ScatterDims.WF ⟨2, ![N, C]⟩ ⟨2, ![R, 1]⟩ ⟨2, ![R, C]⟩ [1] [0] [0] 1)
    (Z : (⟨2, ![N, C]⟩ : Shape).Idx → EReal) (hZ : ∀ i, Z i = 0)
    (iD iS : IVec ⟨2, ![R, 1]⟩ w) (T T' : (⟨2, ![N, C]⟩ : Shape).Idx → EReal) (nrm : (⟨2, ![R, C]⟩ : Shape).Idx → EReal)
    (wt : Fin N → EReal) (hwt : ∀ r, ∃ x : ℝ, 0 ≤ x ∧ wt r = (x : EReal))
    (hT : ∀ (r : Fin N) (k : Fin C), T (ix2 r k) = T' (ix2 r k) * wt r)
    (hn : ∀ (e : Fin R) (k : Fin C) (d : Fin N) (k' : Fin C),
      (rowScatter N R C wfS).resultIdx? (ix2 e k) iD = some (ix2 d k') → nrm (ix2 e k) = wt (srcRow hN iS e) * wt d)
    (d : Fin N) (k' : Fin C) :
    Host.scatterAdd (F := Ideal) (φ := .f32) (rowScatter N R C wfS) Z iD
        (fun J => Host.gather (rowDims N R C wfG) T' iS J * nrm J) (ix2 d k')
      = Host.scatterAdd (F := Ideal) (φ := .f32) (rowScatter N R C wfS) Z iD (Host.gather (rowDims N R C wfG) T iS) (ix2 d k')
        * wt d := by
  obtain ⟨x, hx, hxd⟩ := hwt d
  rw [scatterAdd_rows_apply, scatterAdd_rows_apply, hZ, zero_add, zero_add, hxd, sum_mul_real_nonneg _ _ x hx]
  refine Finset.sum_congr rfl fun J hJ => ?_
  obtain ⟨e, k, rfl⟩ : ∃ (e : Fin R) (k : Fin C), J = ix2 e k := ⟨J 0, J 1, eq_ix2 J⟩
  have hres := (Finset.mem_filter.mp hJ).2
  rw [hn e k d k' hres, gather_rows_apply hN, gather_rows_apply hN, ← hxd]
  show T' (ix2 (srcRow hN iS e) k) * (wt (srcRow hN iS e) * wt d) = T (ix2 (srcRow hN iS e) k) * wt d
  rw [hT, mul_assoc]

/-- An accumulating row scatter of real updates into a real table is real at every entry. -/
theorem isR_scatterAdd (wfS : ScatterDims.WF ⟨2, ![N, C]⟩ ⟨2, ![R, 1]⟩ ⟨2, ![R, C]⟩ [1] [0] [0] 1)
    (Z : (⟨2, ![N, C]⟩ : Shape).Idx → EReal) (iD : IVec ⟨2, ![R, 1]⟩ w) (upd : (⟨2, ![R, C]⟩ : Shape).Idx → EReal)
    (hZ : ∀ i, IsR (Z i)) (hu : ∀ J, IsR (upd J)) (i : (⟨2, ![N, C]⟩ : Shape).Idx) :
    IsR (Host.scatterAdd (F := Ideal) (φ := .f32) (rowScatter N R C wfS) Z iD upd i) := by
  rw [scatterAdd_rows_apply]
  exact (hZ i).add (isR_sum _ _ fun J _ => hu J)

end Cert.LibLayerBridge

end
-- ==== Proof.Bridge.lean ====
/-
  The two sides of the comparison agree, stage by stage, with no program in sight.

  One side keeps every table of node rows multiplied by the node's degree factor `wt r` (the inverse square root of
  its degree): it scales the first matrix's output by `wt r`, sums the gathered rows over the edges with no weights,
  and multiplies the sum at a node by `wt r` again before the bias. The other side sums the gathered rows weighted by
  the edge's norm `wt (src) · wt (dst)`. Because `wt` is a nonnegative real, the destination's factor moves out of the
  sum over edges, so after each round the two tables differ exactly by the factor `wt r` on row `r`, and after the last
  round's epilogue they are equal. The final projection's two columns may be folded before the row product because
  every entry involved is a real number.
-/
import proofs.«100905_j38654705664132_2_alg».proof.Proof.Whole
import proofs.«100905_j38654705664132_2_alg».proof.Proof.LibLayerBridge

noncomputable section

namespace Cert.Gnn

open Idealize.ShloMosaic Idealize.ShloMosaic.ValueIdx Cert.LibGatherRows Cert.LibScatterRows Cert.LibLayerBridge

local notation "Arr2[" m ", " n "]" => (Shape.Idx ⟨2, ![m, n]⟩ → EReal)
local notation "Arr1[" n "]" => (Shape.Idx ⟨1, ![n]⟩ → EReal)

/-! ### The stages read at an entry -/

theorem G0_apply (A0 : Arr2[200000, 128]) (A1 : Arr2[128, 256]) (A2 : Arr2[1, 256]) (A3 : Arr2[256, 16])
    (A4 : Arr2[1, 16]) (A5 : Arr2[16, 16]) (A6 : Arr2[200000, 1]) (r : Fin 200000) (j : Fin 16) :
    G0 A0 A1 A2 A3 A4 A5 A6 (ix2 r j)
      = mlpRow (fun k => A0 (ix2 r k)) (fun a b => A1 (ix2 a b)) (fun b => A2 (ix2 (0 : Fin 1) b))
          (fun a b => A3 (ix2 a b)) (fun b => A4 (ix2 (0 : Fin 1) b)) (fun a b => A5 (ix2 a b)) j
        * A6 (ix2 r (0 : Fin 1)) := rfl

theorem G1_apply (A0 : Arr2[200000, 16]) (A1 : Arr2[1, 16]) (A2 : Arr2[200000, 1]) (A3 : Arr2[16, 16])
    (r : Fin 200000) (j : Fin 16) :
    G1 A0 A1 A2 A3 (ix2 r j)
      = rowMul (outRow (fun k => A0 (ix2 r k)) (A2 (ix2 r (0 : Fin 1))) (fun k => A1 (ix2 (0 : Fin 1) k)))
          (fun a b => A3 (ix2 a b)) j
        * A2 (ix2 r (0 : Fin 1)) := rfl

theorem G2a_apply (A0 : Arr2[200000, 16]) (A1 : Arr2[1, 16]) (A2 : Arr2[200000, 1]) (r : Fin 200000) (j : Fin 16) :
    G2a A0 A1 A2 (ix2 r j)
      = outRow (fun k => A0 (ix2 r k)) (A2 (ix2 r (0 : Fin 1))) (fun k => A1 (ix2 (0 : Fin 1) k)) j := rfl

theorem G2b_apply (A0 : Arr2[200000, 16]) (A1 : Arr2[1, 16]) (A2 : Arr2[200000, 1]) (A3 : Arr2[1, 16])
    (A4 : Arr2[1, 1]) (r : Fin 200000) :
    G2b A0 A1 A2 A3 A4 (ix2 r (0 : Fin 1))
      = (∑ k : Fin 16, outRow (fun k => A0 (ix2 r k)) (A2 (ix2 r (0 : Fin 1))) (fun k => A1 (ix2 (0 : Fin 1) k)) k
            * A3 (ix2 (0 : Fin 1) k))
        + A4 (ix2 (0 : Fin 1) (0 : Fin 1)) := rfl

theorem R48_apply (a0 : Arr2[200000, 128]) (a1 : Arr2[128, 256]) (a2 : Arr1[256]) (a3 : Arr2[256, 16])
    (a4 : Arr1[16]) (a5 : Arr2[16, 16]) (r : Fin 200000) (j : Fin 16) :
    R48 a0 a1 a2 a3 a4 a5 (ix2 r j)
      = mlpRow (fun k => a0 (ix2 r k)) (fun a b => a1 (ix2 a b)) (fun b => a2 (ix1 b))
          (fun a b => a3 (ix2 a b)) (fun b => a4 (ix1 b)) (fun a b => a5 (ix2 a b)) j := rfl

theorem R69_apply (M : Arr2[200000, 16]) (cb : Arr1[16]) (r : Fin 200000) (k : Fin 16) :
    R69 M cb (ix2 r k) = act (M (ix2 r k) + cb (ix1 k)) := rfl

theorem R70_apply (H : Arr2[200000, 16]) (cw : Arr2[16, 16]) (r : Fin 200000) (j : Fin 16) :
    R70 H cw (ix2 r j) = rowMul (fun k => H (ix2 r k)) (fun a b => cw (ix2 a b)) j := rfl

theorem R96_apply (H : Arr2[200000, 16]) (pw : Arr2[16, 2]) (pb : Arr1[2]) (r : Fin 200000) :
    R96 H pw pb (ix1 r) = c0 + ∑ o : Fin 2, ((∑ k : Fin 16, H (ix2 r k) * pw (ix2 k o)) + pb (ix1 o)) := rfl

/-! ### A layer's epilogue -/

/-- If the table `M` is the table `K` with row `r` multiplied by `wt r`, then scaling `K`'s row by `wt r`, adding the
    bias and applying the activation gives the bias-and-activation of `M`'s row. -/
theorem outRow_eq (K M : Arr2[200000, 16]) (cbr : Arr2[1, 16]) (cb : Arr1[16]) (dvc : Arr2[200000, 1])
    (wt : Fin 200000 → EReal) (hcb : ∀ k, cbr (ix2 (0 : Fin 1) k) = cb (ix1 k))
    (hdv : ∀ r, dvc (ix2 r (0 : Fin 1)) = wt r) (hKM : ∀ r k, M (ix2 r k) = K (ix2 r k) * wt r) (r : Fin 200000) :
    outRow (fun k => K (ix2 r k)) (dvc (ix2 r (0 : Fin 1))) (fun k => cbr (ix2 (0 : Fin 1) k))
      = fun k => R69 M cb (ix2 r k) := by
  funext k
  rw [R69_apply, hKM, ← hdv r, ← hcb k]
  rfl

section Graph

variable (wfG : GatherDims.WF ⟨2, ![200000, 16]⟩ ⟨2, ![6600000, 1]⟩ ⟨2, ![6600000, 16]⟩ [1] [0] [] [0] [] 1 ![1, 16])
  (wfS : ScatterDims.WF ⟨2, ![200000, 16]⟩ ⟨2, ![6600000, 1]⟩ ⟨2, ![6600000, 16]⟩ [1] [0] [0] 1)
  (Z : Arr2[200000, 16]) (hZ : ∀ i, Z i = 0) (iD iS : IVec ⟨2, ![6600000, 1]⟩ 32)
  (nrm : Arr2[6600000, 16]) (wt : Fin 200000 → EReal) (hwt : ∀ r, ∃ x : ℝ, 0 ≤ x ∧ wt r = (x : EReal))
  (hn : ∀ (e : Fin 6600000) (k : Fin 16) (d : Fin 200000) (k' : Fin 16),
    (rowScatter 200000 6600000 16 wfS).resultIdx? (ix2 e k) iD = some (ix2 d k') →
      nrm (ix2 e k) = wt (srcRow (by decide) iS e) * wt d)

include hZ hwt hn

/-- One round of message passing: the norm-weighted sum of the rows of `T'` is the unweighted sum of the rows of `T`
    (which is `T'` with row `r` multiplied by `wt r`), times the destination's factor. -/
theorem msg_eq_agg_mul (T T' : Arr2[200000, 16]) (hT : ∀ r k, T (ix2 r k) = T' (ix2 r k) * wt r)
    (d : Fin 200000) (k' : Fin 16) :
    msg wfG wfS Z iD iS nrm T' (ix2 d k') = agg wfG wfS Z iD iS T (ix2 d k') * wt d :=
  scatter_weighted (by decide) wfG wfS Z hZ iD iS T T' nrm wt hwt hT hn d k'

end Graph

/-! ### The layers -/

section Layers

variable (wfG : GatherDims.WF ⟨2, ![200000, 16]⟩ ⟨2, ![6600000, 1]⟩ ⟨2, ![6600000, 16]⟩ [1] [0] [] [0] [] 1 ![1, 16])
  (wfS : ScatterDims.WF ⟨2, ![200000, 16]⟩ ⟨2, ![6600000, 1]⟩ ⟨2, ![6600000, 16]⟩ [1] [0] [0] 1)
  (Z : Arr2[200000, 16]) (hZ : ∀ i, Z i = 0) (iD iS : IVec ⟨2, ![6600000, 1]⟩ 32)
  (nrm : Arr2[6600000, 16]) (wt : Fin 200000 → EReal) (hwt : ∀ r, ∃ x : ℝ, 0 ≤ x ∧ wt r = (x : EReal))
  (hn : ∀ (e : Fin 6600000) (k : Fin 16) (d : Fin 200000) (k' : Fin 16),
    (rowScatter 200000 6600000 16 wfS).resultIdx? (ix2 e k) iD = some (ix2 d k') →
      nrm (ix2 e k) = wt (srcRow (by decide) iS e) * wt d)
  (a0 : Arr2[200000, 128]) (a1 : Arr2[128, 256]) (a2 : Arr1[256]) (a3 : Arr2[256, 16]) (a4 : Arr1[16])
  (a5 : Arr2[16, 16]) (a6 : Arr1[16]) (a7 : Arr2[16, 16]) (a8 : Arr1[16]) (pw : Arr2[16, 2]) (pb : Arr1[2])
  (h9 : ∀ i, IsR (pw i)) (h10 : ∀ i, IsR (pb i))
  (b1r : Arr2[1, 256]) (b2r cb0r cb1r : Arr2[1, 16]) (dvc : Arr2[200000, 1]) (pwr : Arr2[1, 16]) (pbr : Arr2[1, 1])
  (hb1 : ∀ b, b1r (ix2 (0 : Fin 1) b) = a2 (ix1 b)) (hb2 : ∀ b, b2r (ix2 (0 : Fin 1) b) = a4 (ix1 b))
  (hcb0 : ∀ k, cb0r (ix2 (0 : Fin 1) k) = a6 (ix1 k)) (hcb1 : ∀ k, cb1r (ix2 (0 : Fin 1) k) = a8 (ix1 k))
  (hdv : ∀ r, dvc (ix2 r (0 : Fin 1)) = wt r)
  (hpw : ∀ k, pwr (ix2 (0 : Fin 1) k) = c0 + ∑ o : Fin 2, pw (ix2 k o))
  (hpb : pbr (ix2 (0 : Fin 1) (0 : Fin 1)) = c0 + ∑ o : Fin 2, pb (ix1 o))

/-- The first region's table, summed over the edges with no weights. -/
local notation "K28" => agg wfG wfS Z iD iS (G0 a0 a1 b1r a3 b2r a5 dvc)
/-- The dense layers' table, summed over the edges with the norms. -/
local notation "M61" => msg wfG wfS Z iD iS nrm (R48 a0 a1 a2 a3 a4 a5)
/-- The second region's table, summed over the edges with no weights. -/
local notation "K40" => agg wfG wfS Z iD iS (G1 K28 cb0r dvc a7)
/-- The first layer's output through the second matrix, summed over the edges with the norms. -/
local notation "M83" => msg wfG wfS Z iD iS nrm (R70 (R69 M61 a6) a7)

include hb1 hb2 hdv

/-- The first region's table is the dense layers' table with row `r` multiplied by `wt r`. -/
theorem layer0 (r : Fin 200000) (j : Fin 16) :
    G0 a0 a1 b1r a3 b2r a5 dvc (ix2 r j) = R48 a0 a1 a2 a3 a4 a5 (ix2 r j) * wt r := by
  rw [G0_apply, R48_apply]
  simp only [hb1, hb2, hdv]

include hZ hwt hn hcb0

/-- The second region's table is the first layer's output through the second matrix, with row `r` multiplied by
    `wt r`. -/
theorem layer1 (r : Fin 200000) (j : Fin 16) :
    G1 K28 cb0r dvc a7 (ix2 r j) = R70 (R69 M61 a6) a7 (ix2 r j) * wt r := by
  rw [G1_apply, R70_apply,
    outRow_eq K28 M61 cb0r a6 dvc wt hcb0 hdv
      (msg_eq_agg_mul wfG wfS Z hZ iD iS nrm wt hwt hn _ _ (layer0 wt a0 a1 a2 a3 a4 a5 b1r b2r dvc hb1 hb2 hdv)) r,
    hdv]

include hcb1

/-- The last layer's output, entry by entry. -/
theorem hidden (r : Fin 200000) (j : Fin 16) :
    G2a K40 cb1r dvc (ix2 r j) = R69 M83 a8 (ix2 r j) := by
  rw [G2a_apply]
  exact congrFun (outRow_eq K40 M83 cb1r a8 dvc wt hcb1 hdv
    (msg_eq_agg_mul wfG wfS Z hZ iD iS nrm wt hwt hn _ _
      (layer1 wfG wfS Z hZ iD iS nrm wt hwt hn a0 a1 a2 a3 a4 a5 a6 a7 b1r b2r cb0r dvc hb1 hb2 hcb0 hdv)) r) j

/-- The last layer's output as a whole array. -/
theorem bridge_hidden : G2a K40 cb1r dvc = R69 M83 a8 := by
  funext i
  obtain ⟨r, j, rfl⟩ : ∃ (r : Fin 200000) (j : Fin 16), i = ix2 r j := ⟨i 0, i 1, eq_ix2 i⟩
  exact hidden wfG wfS Z hZ iD iS nrm wt hwt hn a0 a1 a2 a3 a4 a5 a6 a7 a8 b1r b2r cb0r cb1r dvc
    hb1 hb2 hcb0 hcb1 hdv r j

include h9 h10 hpw hpb

/-- The projected column: the folded projection of the last layer's row is the sum over the two columns of the
    projection plus its bias, given that the last layer's output is real at every entry. -/
theorem bridge_out (hfin : ∀ r k, IsR (G2a K40 cb1r dvc (ix2 r k))) (r : Fin 200000) :
    G2b K40 cb1r dvc pwr pbr (ix2 r (0 : Fin 1)) = R96 (R69 M83 a8) pw pb (ix1 r) := by
  have hH : ∀ r k, G2a K40 cb1r dvc (ix2 r k) = R69 M83 a8 (ix2 r k) :=
    hidden wfG wfS Z hZ iD iS nrm wt hwt hn a0 a1 a2 a3 a4 a5 a6 a7 a8 b1r b2r cb0r cb1r dvc hb1 hb2 hcb0 hcb1 hdv
  rw [G2b_apply, R96_apply]
  simp only [← G2a_apply, hH, hpw, hpb]
  exact proj_fold (fun k => R69 M83 a8 (ix2 r k)) (fun k o => pw (ix2 k o)) (fun o => pb (ix1 o))
    (fun k => hH r k ▸ hfin r k) (fun k o => h9 _) (fun o => h10 _)

end Layers

end Cert.Gnn

end
-- ==== Proof.Finite.lean ====
/-
  Every stage of the network keeps real numbers real.

  The row functions are sums of products, sums with a bias, and the activation (which returns its argument or the slope
  times it), so they map real entries to real entries. The whole-array stages read rows of their inputs and apply a row
  function, so the same holds entry by entry. The aggregation adds, to an entry of a real table, a finite sum of gathered
  entries of a real table; a gathered entry is an entry of the table it is gathered from.
-/
import proofs.«100905_j38654705664132_2_alg».proof.Proof.Whole
import proofs.«100905_j38654705664132_2_alg».proof.Proof.Alg

noncomputable section

namespace Cert.Gnn

open Idealize.ShloMosaic Idealize.ShloMosaic.ValueIdx Cert.LibGatherRows Cert.LibScatterRows

/-! ### The row functions -/

theorem isR_mlpRow {x : Fin 128 → EReal} {W1 : Fin 128 → Fin 256 → EReal} {b1 : Fin 256 → EReal}
    {W2 : Fin 256 → Fin 16 → EReal} {b2 : Fin 16 → EReal} {cw : Fin 16 → Fin 16 → EReal}
    (hx : ∀ k, IsR (x k)) (hW1 : ∀ a b, IsR (W1 a b)) (hb1 : ∀ b, IsR (b1 b))
    (hW2 : ∀ a b, IsR (W2 a b)) (hb2 : ∀ b, IsR (b2 b)) (hcw : ∀ a b, IsR (cw a b)) (j : Fin 16) :
    IsR (mlpRow x W1 b1 W2 b2 cw j) := by
  unfold mlpRow
  exact IsR.rowMul (fun k => (IsR.dense (fun k2 => (IsR.dense hx hW1 hb1 k2).act) hW2 hb2 k).act) hcw j

theorem isR_outRow {agg : Fin 16 → EReal} {dv : EReal} {cb : Fin 16 → EReal}
    (ha : ∀ k, IsR (agg k)) (hd : IsR dv) (hc : ∀ k, IsR (cb k)) (k : Fin 16) :
    IsR (outRow agg dv cb k) := by
  unfold outRow
  exact (((ha k).mul hd).add (hc k)).act

theorem isR_convRow {agg : Fin 16 → EReal} {dv : EReal} {cb : Fin 16 → EReal} {cw : Fin 16 → Fin 16 → EReal}
    (ha : ∀ k, IsR (agg k)) (hd : IsR dv) (hc : ∀ k, IsR (cb k)) (hcw : ∀ a b, IsR (cw a b)) (j : Fin 16) :
    IsR (convRow agg dv cb cw j) := by
  unfold convRow
  exact IsR.rowMul (isR_outRow ha hd hc) hcw j

theorem isR_projRow {h : Fin 16 → EReal} {pw : Fin 16 → EReal} {pb : EReal}
    (hh : ∀ k, IsR (h k)) (hpw : ∀ k, IsR (pw k)) (hpb : IsR pb) :
    IsR (projRow h pw pb) := by
  unfold projRow
  exact (isR_sum _ _ fun k _ => (hh k).mul (hpw k)).add hpb

/-! ### The whole-array stages -/

theorem isR_G0 {A0 : (⟨2, ![200000, 128]⟩ : Shape).Idx → EReal} {A1 : (⟨2, ![128, 256]⟩ : Shape).Idx → EReal}
    {A2 : (⟨2, ![1, 256]⟩ : Shape).Idx → EReal} {A3 : (⟨2, ![256, 16]⟩ : Shape).Idx → EReal}
    {A4 : (⟨2, ![1, 16]⟩ : Shape).Idx → EReal} {A5 : (⟨2, ![16, 16]⟩ : Shape).Idx → EReal}
    {A6 : (⟨2, ![200000, 1]⟩ : Shape).Idx → EReal}
    (h0 : ∀ i, IsR (A0 i)) (h1 : ∀ i, IsR (A1 i)) (h2 : ∀ i, IsR (A2 i)) (h3 : ∀ i, IsR (A3 i))
    (h4 : ∀ i, IsR (A4 i)) (h5 : ∀ i, IsR (A5 i)) (h6 : ∀ i, IsR (A6 i)) :
    ∀ i, IsR (G0 A0 A1 A2 A3 A4 A5 A6 i) := by
  intro i
  unfold G0
  exact (isR_mlpRow (fun _ => h0 _) (fun _ _ => h1 _) (fun _ => h2 _) (fun _ _ => h3 _) (fun _ => h4 _)
    (fun _ _ => h5 _) _).mul (h6 _)

theorem isR_G1 {A0 : (⟨2, ![200000, 16]⟩ : Shape).Idx → EReal} {A1 : (⟨2, ![1, 16]⟩ : Shape).Idx → EReal}
    {A2 : (⟨2, ![200000, 1]⟩ : Shape).Idx → EReal} {A3 : (⟨2, ![16, 16]⟩ : Shape).Idx → EReal}
    (h0 : ∀ i, IsR (A0 i)) (h1 : ∀ i, IsR (A1 i)) (h2 : ∀ i, IsR (A2 i)) (h3 : ∀ i, IsR (A3 i)) :
    ∀ i, IsR (G1 A0 A1 A2 A3 i) := by
  intro i
  unfold G1
  exact (isR_convRow (fun _ => h0 _) (h2 _) (fun _ => h1 _) (fun _ _ => h3 _) _).mul (h2 _)

theorem isR_G2a {A0 : (⟨2, ![200000, 16]⟩ : Shape).Idx → EReal} {A1 : (⟨2, ![1, 16]⟩ : Shape).Idx → EReal}
    {A2 : (⟨2, ![200000, 1]⟩ : Shape).Idx → EReal}
    (h0 : ∀ i, IsR (A0 i)) (h1 : ∀ i, IsR (A1 i)) (h2 : ∀ i, IsR (A2 i)) :
    ∀ i, IsR (G2a A0 A1 A2 i) := by
  intro i
  unfold G2a
  exact isR_outRow (fun _ => h0 _) (h2 _) (fun _ => h1 _) _

theorem isR_G2b {A0 : (⟨2, ![200000, 16]⟩ : Shape).Idx → EReal} {A1 : (⟨2, ![1, 16]⟩ : Shape).Idx → EReal}
    {A2 : (⟨2, ![200000, 1]⟩ : Shape).Idx → EReal} {A3 : (⟨2, ![1, 16]⟩ : Shape).Idx → EReal}
    {A4 : (⟨2, ![1, 1]⟩ : Shape).Idx → EReal}
    (h0 : ∀ i, IsR (A0 i)) (h1 : ∀ i, IsR (A1 i)) (h2 : ∀ i, IsR (A2 i)) (h3 : ∀ i, IsR (A3 i))
    (h4 : ∀ i, IsR (A4 i)) :
    ∀ i, IsR (G2b A0 A1 A2 A3 A4 i) := by
  intro i
  unfold G2b
  exact isR_projRow (isR_outRow (fun _ => h0 _) (h2 _) (fun _ => h1 _)) (fun _ => h3 _) (h4 _)

/-! ### The aggregation -/

/-- The accumulating scatter at the extended reals: an entry of the table plus a finite sum of updates. -/
theorem isR_hostScatterAdd {s si su : Shape} (d : ScatterDims s si su) {w : Nat} (x : s.Idx → EReal) (idx : IVec si w)
    (upd : su.Idx → EReal) (hx : ∀ i, IsR (x i)) (hu : ∀ J, IsR (upd J)) (i : s.Idx) :
    IsR (Ideal.hostScatterAdd d x idx upd i) := by
  unfold Ideal.hostScatterAdd
  exact (hx i).add (isR_sum _ _ fun J _ => hu J)

section Graph

variable (wfG : GatherDims.WF ⟨2, ![200000, 16]⟩ ⟨2, ![6600000, 1]⟩ ⟨2, ![6600000, 16]⟩ [1] [0] [] [0] [] 1 ![1, 16])
  (wfS : ScatterDims.WF ⟨2, ![200000, 16]⟩ ⟨2, ![6600000, 1]⟩ ⟨2, ![6600000, 16]⟩ [1] [0] [0] 1)
  (Z : (⟨2, ![200000, 16]⟩ : Shape).Idx → EReal) (iD iS : IVec ⟨2, ![6600000, 1]⟩ 32)

/-- Gathered rows of a real table summed into a real table are real. -/
theorem isR_agg (T : (⟨2, ![200000, 16]⟩ : Shape).Idx → EReal)
    (hZ : ∀ i, IsR (Z i)) (hT : ∀ i, IsR (T i)) : ∀ i, IsR (agg wfG wfS Z iD iS T i) := by
  intro i
  show IsR (Ideal.hostScatterAdd (rowScatter 200000 6600000 16 wfS) Z iD
    (Host.gather (rowDims 200000 6600000 16 wfG) T iS) i)
  exact isR_hostScatterAdd _ Z iD _ hZ (fun J => hT _) i

/-- The last layer's output rows are real when every array they are computed from is. -/
theorem isR_hidden
    (a0 : (⟨2, ![200000, 128]⟩ : Shape).Idx → EReal) (a1 : (⟨2, ![128, 256]⟩ : Shape).Idx → EReal)
    (b1r : (⟨2, ![1, 256]⟩ : Shape).Idx → EReal) (a3 : (⟨2, ![256, 16]⟩ : Shape).Idx → EReal)
    (b2r : (⟨2, ![1, 16]⟩ : Shape).Idx → EReal) (a5 : (⟨2, ![16, 16]⟩ : Shape).Idx → EReal)
    (dvc : (⟨2, ![200000, 1]⟩ : Shape).Idx → EReal) (cb0r : (⟨2, ![1, 16]⟩ : Shape).Idx → EReal)
    (a7 : (⟨2, ![16, 16]⟩ : Shape).Idx → EReal) (cb1r : (⟨2, ![1, 16]⟩ : Shape).Idx → EReal)
    (hZ : ∀ i, IsR (Z i))
    (h0 : ∀ i, IsR (a0 i)) (h1 : ∀ i, IsR (a1 i)) (hb1 : ∀ i, IsR (b1r i)) (h3 : ∀ i, IsR (a3 i))
    (hb2 : ∀ i, IsR (b2r i)) (h5 : ∀ i, IsR (a5 i)) (hdv : ∀ i, IsR (dvc i)) (hcb0 : ∀ i, IsR (cb0r i))
    (h7 : ∀ i, IsR (a7 i)) (hcb1 : ∀ i, IsR (cb1r i)) :
    ∀ (r : Fin 200000) (k : Fin 16),
      IsR (G2a (agg wfG wfS Z iD iS (G1 (agg wfG wfS Z iD iS (G0 a0 a1 b1r a3 b2r a5 dvc)) cb0r dvc a7)) cb1r dvc
        (ix2 r k)) := by
  intro r k
  have hG0 := isR_G0 h0 h1 hb1 h3 hb2 h5 hdv
  have hA0 := isR_agg wfG wfS Z iD iS _ hZ hG0
  have hG1 := isR_G1 hA0 hcb0 hdv h7
  have hA1 := isR_agg wfG wfS Z iD iS _ hZ hG1
  exact isR_G2a hA1 hcb1 hdv (ix2 r k)

end Graph

end Cert.Gnn

end
-- ==== Proof.LibGatherVec.lean ====
/-
  Entries of a vector gathered at a column of positions, read at an index, for any extents.

  What `v[rows]` lowers to for a vector `[N]` and positions `[R]` held as an `[R, 1]` array: a gather with no offset
  axis, the vector's only axis collapsed, slices of one entry. Result entry `r` is the vector at the position
  `rows (r, 0)`, read as a signed integer and clamped into `0 … N − 1`: the same number, computed the same way, as the row
  a gather of whole rows of an `[N, C]` table reads for its result row `r` off the same column of positions.
-/
import Idealize.ShloMosaic.Lib.ValueIdx

noncomputable section

namespace Cert.LibGatherVec

open Idealize.ShloMosaic Idealize.ShloMosaic.ValueIdx

variable {α : Type}

/-- The dimension numbers of that gather: no offset axis, axis 0 of the vector collapsed and named by the start index
    map, the index vector on axis 1 of the positions, slices of size one. Their conditions are decided on a program's
    literal shapes. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at `r`: the vector's entry at the position `rows (r, 0)`, read signed and clamped into
    `0 … N − 1`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r (0 : Fin 1))).toInt.toNat (N - 1), by omega⟩) := by
  unfold Host.gather
  refine congrArg x (funext fun a => Fin.ext ?_)
  match a with
  | ⟨0, _⟩ =>
    show (vecDims N R wf).start (ix1 r) idx 0 + (vecDims N R wf).batchCoord (ix1 r) 0
      + (vecDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 r) ⟨List.idxOf (0 : Fin 1) (vecDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

end Cert.LibGatherVec

end
-- ==== Proof.NormFacts.lean ====
/-
  The edge weights of the reference's two rounds of message passing, read off its stages.

  Every node `r` carries the weight `wt r`: the inverse square root of its degree, zero where the degree is not
  positive. The degree is zero plus a sum of ones over the edges that arrive at the node, so it is a real number, and
  the weight is a nonnegative real. The factor the reference multiplies update row `e` by is the weight gathered at the
  edge's source times the weight gathered at its destination, spread over the row's columns. Both gathers read their row
  number signed and clamped; the row gather of the features reads the same source column, so it reads the same row. And
  when update row `e` lands in result row `d` of the accumulating scatter, the edge's destination number is exactly `d`:
  it is not negative, so its wrap leaves it alone, and it is below the table's extent, so the clamp does too. Hence the
  factor of an update that lands in row `d` is `wt (source row of e) · wt d`.
-/
import proofs.«100905_j38654705664132_2_alg».proof.Proof.RefRead
import proofs.«100905_j38654705664132_2_alg».proof.Proof.Alg
import proofs.«100905_j38654705664132_2_alg».proof.Proof.LibGatherVec
import proofs.«100905_j38654705664132_2_alg».proof.Proof.LibScatterRows
import proofs.«100905_j38654705664132_2_alg».proof.Proof.LibLayerBridge

noncomputable section

namespace Cert.ReferenceIdeal.Norm

open Cert.ReferenceIdeal Cert.ReferenceIdeal.Gen Cert.ReferenceIdeal.ReadP Idealize.ShloMosaic Idealize.ShloMosaic.ValueIdx
open Cert.Gnn

variable (x11 : (⟨S2x6400000, .i32⟩ : BufTy).Contents (Elt Ideal))

/-- The weight of node `r`: the inverse square root of its degree, as the reference computes it. -/
abbrev wt (r : Fin 200000) : EReal := val_main_v32 (F := Ideal) x11 (ix1 r)

/-! ### An accumulating scatter of single entries into a vector, at an entry -/

section VecScatter
variable {N R w : Nat} (wf : ScatterDims.WF ⟨1, ![N]⟩ ⟨2, ![R, 1]⟩ ⟨1, ![R]⟩ [] [0] [0] 1)

/-- The accumulating entry scatter read at an entry: what was there plus the sum of the updates that land there. -/
theorem scatterAdd_vec_apply (Z : (⟨1, ![N]⟩ : Shape).Idx → EReal) (iD : IVec ⟨2, ![R, 1]⟩ w)
    (upd : (⟨1, ![R]⟩ : Shape).Idx → EReal) (i : (⟨1, ![N]⟩ : Shape).Idx) :
    Host.scatterAdd (F := Ideal) (φ := .f32) (Cert.LibScatterRows.vecScatter N R wf) Z iD upd i
      = Z i + ∑ J ∈ Finset.univ.filter (fun J => (Cert.LibScatterRows.vecScatter N R wf).resultIdx? J iD = some i), upd J :=
  rfl

/-- An accumulating entry scatter of real updates into a real vector is real at every entry. -/
theorem isR_scatterAdd_vec (Z : (⟨1, ![N]⟩ : Shape).Idx → EReal) (iD : IVec ⟨2, ![R, 1]⟩ w)
    (upd : (⟨1, ![R]⟩ : Shape).Idx → EReal) (hZ : ∀ i, IsR (Z i)) (hu : ∀ J, IsR (upd J)) (i : (⟨1, ![N]⟩ : Shape).Idx) :
    IsR (Host.scatterAdd (F := Ideal) (φ := .f32) (Cert.LibScatterRows.vecScatter N R wf) Z iD upd i) := by
  rw [scatterAdd_vec_apply]
  exact (hZ i).add (isR_sum _ _ fun J _ => hu J)

end VecScatter

/-! ### (A) The weights are nonnegative reals -/

theorem isR_v26 (i : S200000.Idx) : IsR (val_main_v26 (F := Ideal) i) := by
  rw [val_main_v26_apply, val_main_cst_4_apply]; exact isR_c0

theorem isR_v25 (J : S6600000.Idx) : IsR (val_main_v25 (F := Ideal) J) := by
  rw [val_main_v25_apply, val_main_cst_3_apply]; exact isR_c1

/-- A node's degree is zero plus a sum of ones over the edges arriving at it: a real number. -/
theorem isR_deg (i : S200000.Idx) : IsR (val_main_v28 (F := Ideal) x11 i) :=
  isR_scatterAdd_vec Facts₀.scatter_S200000_S6600000x1_S6600000_n_0_0_1_wf (val_main_v26 (F := Ideal))
    (val_main_v27 (F := Ideal) x11) (val_main_v25 (F := Ideal)) isR_v26 isR_v25 i

/-- The weight stage is the inverse square root of the degree stage, entry by entry. -/
theorem v32_eq (i : S200000.Idx) :
    val_main_v32 (F := Ideal) x11 i = invSqrtDeg (val_main_v28 (F := Ideal) x11 i) := by
  rw [val_main_v32_apply, val_main_v30_apply, val_main_v31_apply, val_main_v29_apply, val_main_cst_5_apply,
    val_main_call2_v1_apply, val_main_call2_v0_apply, val_main_cst_6_apply, Ideal.hostUnary_rsqrt_def, Ideal.ofBits_def]
  generalize val_main_v28 (F := Ideal) x11 i = d
  rfl

/-- Every node's weight is a nonnegative real. -/
theorem wt_real (r : Fin 200000) : ∃ x : ℝ, 0 ≤ x ∧ val_main_v32 (F := Ideal) x11 (ix1 r) = (x : EReal) := by
  rw [v32_eq]
  exact invSqrtDeg_real _ (isR_deg x11 _)

/-! ### (B) The factor of an update row that lands in row `d` -/

/-- The factor stage at `(e, k)` is the source weight times the destination weight of edge `e`: two spreads of their
    product. -/
theorem v57_at (e : Fin 6600000) (k : Fin 16) :
    val_main_v57 (F := Ideal) x11 (ix2 e k)
      = (val_main_v39 (F := Ideal) x11 (ix1 e) : EReal) * val_main_v46 (F := Ideal) x11 (ix1 e) := by
  have hi : idx_main_v56 (idx_main_v57 (ix2 e k)) = ix1 e := by
    funext a
    match a with
    | ⟨0, _⟩ => rfl
  rw [val_main_v57_apply, val_main_v56_apply, hi, val_main_v47_apply, Ideal.mulf_def]

/-- The source list the vector gather reads and the one the row gather reads are the same wrapped list, spread the
    same way. -/
theorem v38_eq : val_main_v38 (F := Ideal) x11 = val_main_v54 (F := Ideal) x11 := by
  have h37 : val_main_v37 (F := Ideal) x11 = val_main_v53 (F := Ideal) x11 := by
    delta val_main_v37 val_main_v53 val_main_v34 val_main_v50 val_main_v36 val_main_v52 val_main_v33 val_main_v49
      val_main_v35 val_main_v51 val_main_c val_main_c_10 val_main_c_7 val_main_c_11
    rfl
  delta val_main_v38 val_main_v54
  rw [h37]

/-- The source weight of edge `e`: the weight at the row the row gather reads for update row `e`. -/
theorem v39_at (e : Fin 6600000) :
    val_main_v39 (F := Ideal) x11 (ix1 e) = val_main_v32 (F := Ideal) x11 (ix1 (Cert.LibLayerBridge.srcRow (N := 200000) (by decide) (val_main_v54 (F := Ideal) x11) e)) := by
  delta val_main_v39
  rw [v38_eq]
  generalize val_main_v32 (F := Ideal) x11 = X
  generalize val_main_v54 (F := Ideal) x11 = I
  exact Cert.LibGatherVec.gather_vec_apply (by decide) Facts₀.gather_S200000_S6600000x1_S6600000_n_0_n_n_0_1_1_wf X I e

/-- The destination column the vector gather reads, at edge `e`: the wrap of the edge's destination number. -/
theorem v45_at (e : Fin 6600000) :
    val_main_v45 (F := Ideal) x11 (ix2 e (0 : Fin 1))
      = Scalar.select (IntOp.cmpi .slt (val_main_v24 (F := Ideal) x11 (ix1 e)) 0#32)
          (IntOp.addi (val_main_v24 (F := Ideal) x11 (ix1 e)) 200000#32) (val_main_v24 (F := Ideal) x11 (ix1 e)) := by
  have hi : idx_main_v45 (ix2 e (0 : Fin 1)) = ix1 e := by
    funext a
    match a with
    | ⟨0, _⟩ => rfl
  rw [val_main_v45_apply, hi, val_main_v44_apply, val_main_v41_apply, val_main_v43_apply, val_main_v40_apply,
    val_main_c_8_apply, val_main_v42_apply, val_main_c_9_apply]

/-- The destination column the row scatter reads, at edge `e`: the edge's destination number itself. -/
theorem v60_at (e : Fin 6600000) :
    val_main_v60 (F := Ideal) x11 (ix2 e (0 : Fin 1)) = val_main_v24 (F := Ideal) x11 (ix1 e) := by
  have hi : idx_main_v60 (ix2 e (0 : Fin 1)) = ix1 e := by
    funext a
    match a with
    | ⟨0, _⟩ => rfl
  rw [val_main_v60_apply, hi]

/-- An edge whose destination number, read signed, is the node `d`: its destination weight is `d`'s. -/
theorem v46_at (e : Fin 6600000) (d : Fin 200000)
    (hd : (val_main_v24 (F := Ideal) x11 (ix1 e)).toInt = (d.val : Int)) :
    val_main_v46 (F := Ideal) x11 (ix1 e) = val_main_v32 (F := Ideal) x11 (ix1 d) := by
  have hrow : min (val_main_v45 (F := Ideal) x11 (ix2 e (0 : Fin 1))).toInt.toNat (200000 - 1) = d.val := by
    rw [v45_at, Cert.LibScatterRows.wrap_of_nonneg _ _ (by rw [hd]; exact Int.natCast_nonneg _), hd]
    have := d.isLt
    omega
  delta val_main_v46
  generalize val_main_v32 (F := Ideal) x11 = X
  generalize val_main_v45 (F := Ideal) x11 = I at hrow ⊢
  refine (Cert.LibGatherVec.gather_vec_apply (by decide) Facts₀.gather_S200000_S6600000x1_S6600000_n_0_n_n_0_1_1_wf
    X I e).trans ?_
  exact congrArg X (congrArg ix1 (Fin.ext hrow))

/-- THE FACTOR: if update `(e, k)` lands at `(d, k')` in the accumulating row scatter, the factor stage there is the
    weight of the row the row gather reads for `e` times the weight of `d`. -/
theorem norm_fact (e : Fin 6600000) (k : Fin 16) (d : Fin 200000) (k' : Fin 16)
    (h : scatter_S200000x16_S6600000x1_S6600000x16_1_0_0_1.resultIdx? (ix2 e k) (val_main_v60 (F := Ideal) x11)
      = some (ix2 d k')) :
    val_main_v57 (F := Ideal) x11 (ix2 e k)
      = (val_main_v32 (F := Ideal) x11 (ix1 (Cert.LibLayerBridge.srcRow (N := 200000) (by decide) (val_main_v54 (F := Ideal) x11) e)) : EReal) * val_main_v32 (F := Ideal) x11 (ix1 d) := by
  have hd : (val_main_v24 (F := Ideal) x11 (ix1 e)).toInt = (d.val : Int) := by
    rw [← v60_at]
    generalize val_main_v60 (F := Ideal) x11 = I at h ⊢
    exact (Cert.LibScatterRows.row_of_resultIdx Facts₀.scatter_S200000x16_S6600000x1_S6600000x16_1_0_0_1_wf
      I e k (ix2 d k') h).1
  rw [v57_at, v39_at, v46_at x11 e d hd]

/-! ### (C) The second round reads the same stages -/

theorem v79_eq : val_main_v79 (F := Ideal) x11 = val_main_v57 (F := Ideal) x11 := by
  delta val_main_v79 val_main_v57 val_main_v78 val_main_v56
  rfl

theorem v82_eq : val_main_v82 (F := Ideal) x11 = val_main_v60 (F := Ideal) x11 := by
  delta val_main_v82 val_main_v60
  rfl

theorem v76_eq : val_main_v76 (F := Ideal) x11 = val_main_v54 (F := Ideal) x11 := by
  have h75 : val_main_v75 (F := Ideal) x11 = val_main_v53 (F := Ideal) x11 := by
    delta val_main_v75 val_main_v53 val_main_v72 val_main_v50 val_main_v74 val_main_v52 val_main_v71 val_main_v49
      val_main_v73 val_main_v51 val_main_c_15 val_main_c_10 val_main_c_16 val_main_c_11
    rfl
  delta val_main_v76 val_main_v54
  rw [h75]

/-- THE FACTOR, second round: the same fact for the second round's copies of the three stages. -/
theorem norm_fact₂ (e : Fin 6600000) (k : Fin 16) (d : Fin 200000) (k' : Fin 16)
    (h : scatter_S200000x16_S6600000x1_S6600000x16_1_0_0_1.resultIdx? (ix2 e k) (val_main_v82 (F := Ideal) x11)
      = some (ix2 d k')) :
    val_main_v79 (F := Ideal) x11 (ix2 e k)
      = (val_main_v32 (F := Ideal) x11
          (ix1 (Cert.LibLayerBridge.srcRow (N := 200000) (by decide) (val_main_v76 (F := Ideal) x11) e)) : EReal)
        * val_main_v32 (F := Ideal) x11 (ix1 d) := by
  rw [v82_eq] at h
  rw [v79_eq, v76_eq]
  exact norm_fact x11 e k d k' h

/-! ### (D) The tables the two scatters accumulate into are zero -/

theorem v59_zero (i : S200000x16.Idx) : (val_main_v59 (F := Ideal) i : EReal) = 0 := by
  rw [val_main_v59_apply, val_main_cst_12_apply]
  exact Ideal.ofBits_zero_f32

theorem v81_zero (i : S200000x16.Idx) : (val_main_v81 (F := Ideal) i : EReal) = 0 := by
  rw [val_main_v81_apply, val_main_cst_17_apply]
  exact Ideal.ofBits_zero_f32

end Cert.ReferenceIdeal.Norm

end
-- ==== Proof.KernelRows.lean ====
/-
  The host glue's small layout and reduction steps, read at an index.

  A vector cast to a one-row array or to a one-column array (and a one-column array cast back to a vector) keeps its
  entries: the row-major position of an entry does not change. The host's sum of a 16×2 array along its second axis,
  cast to one row, reads at column k the initial value plus the two entries of row k; the host's sum of a 2-vector into
  a scalar, cast to a 1×1 array, reads the initial value plus the two entries. The initial value is the zero literal.
-/
import proofs.«100905_j38654705664132_2_alg».proof.KernelIdeal
import proofs.«100905_j38654705664132_2_alg».proof.Proof.Spec
import proofs.«100905_j38654705664132_2_alg».proof.Proof.LibLayout
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.ValueIdx Cert.KernelIdeal Cert.KernelIdeal.Facts₀

variable [Cert.KernelIdeal.Facts₀]

/-! ### Vectors as one-row and one-column arrays -/

/-- A 256-vector cast to one row reads, at column b, the vector's entry b. -/
theorem row_of_vec256 (a : FVec Ideal S256 .f32) (b : Fin 256) :
    shapeCast S1x256 a shapeCasts_S256_S1x256 (ix2 (0 : Fin 1) b) = a (ix1 b) :=
  shapeCast_a_1a_apply a shapeCasts_S256_S1x256 (0 : Fin 1) b

/-- A 16-vector cast to one row reads, at column b, the vector's entry b. -/
theorem row_of_vec16 (a : FVec Ideal S16 .f32) (b : Fin 16) :
    shapeCast S1x16 a shapeCasts_S16_S1x16 (ix2 (0 : Fin 1) b) = a (ix1 b) :=
  shapeCast_a_1a_apply a shapeCasts_S16_S1x16 (0 : Fin 1) b

/-- A vector cast to one column reads, at row r, the vector's entry r. -/
theorem col_of_vec (d : FVec Ideal S200000 .f32) (r : Fin 200000) :
    shapeCast S200000x1 d shapeCasts_S200000_S200000x1 (ix2 r (0 : Fin 1)) = d (ix1 r) :=
  Cert.LibLayout.shapeCast_a_a1_apply d shapeCasts_S200000_S200000x1 r (0 : Fin 1)

/-- A one-column array cast to a vector reads, at r, the column's entry of row r. -/
theorem vec_of_col (p : FVec Ideal S200000x1 .f32) (r : Fin 200000) :
    shapeCast S200000 p shapeCasts_S200000x1_S200000 (ix1 r) = p (ix2 r (0 : Fin 1)) :=
  shapeCast_apply p shapeCasts_S200000x1_S200000 _ _ (by
    rw [Shape.rowMajor_val_two, Shape.rowMajor_val_one]
    show r.val * 1 + 0 = r.val
    rw [Nat.mul_one, Nat.add_zero])

/-! ### The two host sums -/

/-- A rank-1 index set is the range of its one coordinate. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The host's sum of a 16×2 array along its second axis from the zero literal, cast to one row, at column k: the
    zero literal plus the two entries of row k. -/
theorem pwsum_apply (a9 : FVec Ideal S16x2 .f32) (k : Fin 16) :
    shapeCast S1x16 (Host.reduceAdd (F := Ideal) a9 (constant (F := Ideal) S_ .f32 0x00000000#32)
        reducesTo_S16x2_S16_d1 h_S_) shapeCasts_S16_S1x16 (ix2 (0 : Fin 1) k)
      = Cert.Gnn.c0 + ∑ o : Fin 2, a9 (ix2 k o) := by
  rw [shapeCast_a_1a_apply]
  simp only [Host.reduceAdd, Ideal.hostReduceAdd_def]
  rw [Ideal.hostReduceAdd_single reducesTo_S16x2_S16_d1 (by decide)]
  show (_ + ∑ o : Fin 2, _) = _
  refine congrArg₂ (· + ·) rfl (Finset.sum_congr rfl fun o _ => ?_)
  exact congrArg a9 (funext fun a => Fin.ext (by match a with | ⟨0, _⟩ => rfl | ⟨1, _⟩ => rfl))

/-- The host's sum of a 2-vector into a scalar from the zero literal, cast to a 1×1 array, at its one index: the zero
    literal plus the two entries. -/
theorem pbsum_apply (a10 : FVec Ideal S2 .f32) :
    shapeCast S1x1 (Host.reduceAdd (F := Ideal) a10 (constant (F := Ideal) S_ .f32 0x00000000#32)
        reducesTo_S2_S_d0 h_S_) shapeCasts_S_S1x1 (ix2 (0 : Fin 1) (0 : Fin 1))
      = Cert.Gnn.c0 + ∑ o : Fin 2, a10 (ix1 o) := by
  unfold shapeCast
  generalize Shape.reshapeEquiv shapeCasts_S_S1x1 (ix2 (0 : Fin 1) (0 : Fin 1)) = j
  simp only [Host.reduceAdd, Ideal.hostReduceAdd_def]
  rw [Ideal.hostReduceAdd_total reducesTo_S2_S_d0 (fun b => b.elim0), sum_idx1]
  rfl

end Cert.KernelIdeal.Hand

end
-- ==== Proof.Final.lean ====
/-
  The kernel program's two results are the reference's two result stages of the same arguments.

  The boundary contents read back through the three regions (`Chain.lean`) give the last layer's rows as
  `G2a (agg (G1 (agg (G0 …))))` and the returned column as `G2b` of the same aggregate, over the edge stages both programs
  share. The comparison of `Bridge.lean` turns these into the reference's `R69 (msg (R70 (R69 (msg (R48 …)))))` and
  `R96` of it — the destination's weight moved out of each sum over edges, the two projection columns folded — and
  `RefBridge.lean` reads the reference's stages as exactly those. The weight facts are `NormFacts.lean`'s; the finiteness
  the folded projection needs comes from the arguments being real numbers.
-/
import proofs.«100905_j38654705664132_2_alg».proof.Proof.Chain
import proofs.«100905_j38654705664132_2_alg».proof.Proof.RefBridge
import proofs.«100905_j38654705664132_2_alg».proof.Proof.Bridge
import proofs.«100905_j38654705664132_2_alg».proof.Proof.Finite
import proofs.«100905_j38654705664132_2_alg».proof.Proof.NormFacts
import proofs.«100905_j38654705664132_2_alg».proof.Proof.KernelRows

set_option maxRecDepth 16384

noncomputable section

namespace Cert.KernelIdeal.Hand

open Idealize.ShloMosaic Idealize.ShloMosaic.TcCoe Idealize.ShloMosaic.ValueIdx Idealize.SL.Sem Idealize.ShloMosaic.StableHlo
open Cert.KernelIdeal Cert.KernelIdeal.Gen Cert.Gnn

/-! ## The kernel's host glue in the shared stages' names -/

section Glue

variable (x11 : (⟨S2x6400000, .i32⟩ : BufTy).Contents (Elt Ideal))

attribute [local irreducible] Cert.ReferenceIdeal.ReadP.val_main_v21 in
/-- The wrapped source list spread to a column is the stage the reference's row gathers read. -/
theorem iS_eq : broadcastInDim S6600000x1 ![0] bcast_S6600000_S6600000x1_0
      (select (cmpi .slt (Cert.ReferenceIdeal.ReadP.val_main_v21 (F := Ideal) x11) (broadcastInDim S6600000 ![] bcast_S_S6600000 (constantI S_ 32 0#32)))
        (addi (Cert.ReferenceIdeal.ReadP.val_main_v21 (F := Ideal) x11) (broadcastInDim S6600000 ![] bcast_S_S6600000 (constantI S_ 32 200000#32)))
        (Cert.ReferenceIdeal.ReadP.val_main_v21 (F := Ideal) x11))
    = Cert.ReferenceIdeal.ReadP.val_main_v54 (F := Ideal) x11 := rfl

attribute [local irreducible] Cert.ReferenceIdeal.ReadP.val_main_v24 in
/-- The destination list spread to a column is the stage the reference's row scatters read. -/
theorem iD_eq : broadcastInDim S6600000x1 ![0] bcast_S6600000_S6600000x1_0 (Cert.ReferenceIdeal.ReadP.val_main_v24 (F := Ideal) x11)
    = Cert.ReferenceIdeal.ReadP.val_main_v60 (F := Ideal) x11 := rfl

/-- The zero table. -/
theorem Z_eq : broadcastInDim S200000x16 ![] bcast_S_S200000x16 (constant (F := Ideal) S_ .f32 0x00000000#32)
    = Cert.ReferenceIdeal.ReadP.val_main_v59 (F := Ideal) := rfl

/-- The kernel's gather and accumulating scatter, as `agg`. -/
theorem agg_fold (Z : (⟨2, ![200000, 16]⟩ : Shape).Idx → EReal) (iD iS : IVec ⟨2, ![6600000, 1]⟩ 32)
    (T : (⟨2, ![200000, 16]⟩ : Shape).Idx → EReal) :
    Host.scatterAdd (F := Ideal) (φ := .f32) scatter_S200000x16_S6600000x1_S6600000x16_1_0_0_1 Z iD
        (Host.gather gather_S200000x16_S6600000x1_S6600000x16_1_0_n_n_0_1_116 T iS)
      = agg gather_S200000x16_S6600000x1_S6600000x16_1_0_n_n_0_1_116_wf scatter_S200000x16_S6600000x1_S6600000x16_1_0_0_1_wf Z iD iS T := rfl

end Glue

variable (m : (ℓ : Loc nD τ sig) → Buf (Elt Ideal) ℓ) (ρ : Dev nD → PrngReg)

/-- The aggregate the last region reads, over the shared stages. -/
def K40 (c : Dev nD) : (⟨2, ![200000, 16]⟩ : Shape).Idx → EReal :=
  agg gather_S200000x16_S6600000x1_S6600000x16_1_0_n_n_0_1_116_wf scatter_S200000x16_S6600000x1_S6600000x16_1_0_0_1_wf
    (Cert.ReferenceIdeal.ReadP.val_main_v59 (F := Ideal)) (Cert.ReferenceIdeal.ReadP.val_main_v60 (F := Ideal) (m ((c : Thread nD τ).loc main_arg11)))
    (Cert.ReferenceIdeal.ReadP.val_main_v54 (F := Ideal) (m ((c : Thread nD τ).loc main_arg11)))
    (G1 (agg gather_S200000x16_S6600000x1_S6600000x16_1_0_n_n_0_1_116_wf scatter_S200000x16_S6600000x1_S6600000x16_1_0_0_1_wf
        (Cert.ReferenceIdeal.ReadP.val_main_v59 (F := Ideal)) (Cert.ReferenceIdeal.ReadP.val_main_v60 (F := Ideal) (m ((c : Thread nD τ).loc main_arg11)))
        (Cert.ReferenceIdeal.ReadP.val_main_v54 (F := Ideal) (m ((c : Thread nD τ).loc main_arg11)))
        (G0 (m ((c : Thread nD τ).loc main_arg0)) (m ((c : Thread nD τ).loc main_arg1))
          (shapeCast S1x256 (m ((c : Thread nD τ).loc main_arg2)) shapeCasts_S256_S1x256) (m ((c : Thread nD τ).loc main_arg3))
          (shapeCast S1x16 (m ((c : Thread nD τ).loc main_arg4)) shapeCasts_S16_S1x16) (m ((c : Thread nD τ).loc main_arg5))
          (shapeCast S200000x1 (Cert.ReferenceIdeal.ReadP.val_main_v32 (F := Ideal) (m ((c : Thread nD τ).loc main_arg11))) shapeCasts_S200000_S200000x1)))
      (shapeCast S1x16 (m ((c : Thread nD τ).loc main_arg6)) shapeCasts_S16_S1x16)
      (shapeCast S200000x1 (Cert.ReferenceIdeal.ReadP.val_main_v32 (F := Ideal) (m ((c : Thread nD τ).loc main_arg11))) shapeCasts_S200000_S200000x1)
      (m ((c : Thread nD τ).loc main_arg7)))

/-- What the last region reads as its aggregate. -/
theorem W7_v40_eq (c : Dev nD) : W7 m ρ c (Proc.devRef .tc main_v40) = K40 m c := by
  rw [W7_v40, W6_v30, W6_v6, W6_v3, W5_v28, W5_v29, W5_v15, W5_arg7, W5_v6, W5_v3, W4_v18, W4_v15, W4_v3, W4_v6, W4_arg6, W4_arg7,
    W3_v15, W3_v16, W3_v17, W3_v6, W3_v3, W3_arg0, W3_arg1, W3_arg3, W3_arg5, W3_arg6, W3_arg7]
  rw [iS_eq, iD_eq, Z_eq, agg_fold, agg_fold]
  rfl

/-- The last layer's bias row and the degree column, as the last region finds them. -/
theorem W7_v43_eq (c : Dev nD) : W7 m ρ c (Proc.devRef .tc main_v43)
    = shapeCast S1x16 (m ((c : Thread nD τ).loc main_arg8)) shapeCasts_S16_S1x16 := by
  rw [W7_v43, W6_arg8, W5_arg8, W4_arg8, W3_arg8]
theorem W7_v15_eq (c : Dev nD) : W7 m ρ c (Proc.devRef .tc main_v15)
    = shapeCast S200000x1 (Cert.ReferenceIdeal.ReadP.val_main_v32 (F := Ideal) (m ((c : Thread nD τ).loc main_arg11))) shapeCasts_S200000_S200000x1 := by
  rw [W7_v15, W6_v15, W5_v15, W4_v15, W3_v15]
theorem W7_v44_eq (c : Dev nD) : W7 m ρ c (Proc.devRef .tc main_v44)
    = shapeCast S1x16 (Host.reduceAdd (F := Ideal) (m ((c : Thread nD τ).loc main_arg9)) (constant (F := Ideal) S_ .f32 0x00000000#32)
        reducesTo_S16x2_S16_d1 h_S_) shapeCasts_S16_S1x16 := by
  rw [W7_v44, W6_arg9, W5_arg9, W4_arg9, W3_arg9]
theorem W7_v45_eq (c : Dev nD) : W7 m ρ c (Proc.devRef .tc main_v45)
    = shapeCast S1x1 (Host.reduceAdd (F := Ideal) (m ((c : Thread nD τ).loc main_arg10)) (constant (F := Ideal) S_ .f32 0x00000000#32)
        reducesTo_S2_S_d0 h_S_) shapeCasts_S_S1x1 := by
  rw [W7_v45, W6_arg10, W5_arg10, W4_arg10, W3_arg10]

/-- The weight of a node, and its two facts, at the kernel's edge argument. -/
theorem wt_real (c : Dev nD) (r : Fin 200000) : ∃ x : ℝ, 0 ≤ x ∧
    Cert.ReferenceIdeal.ReadP.val_main_v32 (F := Ideal) (m ((c : Thread nD τ).loc main_arg11)) (ix1 r) = (x : EReal) :=
  Cert.ReferenceIdeal.Norm.wt_real _ r

/-- THE LAST LAYER'S ROWS: the kernel's second result is the reference's stage of the same arguments. -/
theorem result_hidden (c : Dev nD) : W9 m ρ c (Proc.devRef .tc main_v46_0)
    = Cert.ReferenceIdeal.ReadP.val_main_v91 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg11)) := by
  rw [W9_v46_0, W8_v46_0, W7_v40_eq, W7_v43_eq, W7_v15_eq]
  rw [Cert.ReferenceIdeal.Hand.ref_v91, Cert.ReferenceIdeal.Hand.ref_v83, Cert.ReferenceIdeal.Hand.ref_v70, Cert.ReferenceIdeal.Hand.ref_v69,
    Cert.ReferenceIdeal.Hand.ref_v61, Cert.ReferenceIdeal.Hand.ref_v48, Cert.ReferenceIdeal.Norm.v79_eq, Cert.ReferenceIdeal.Norm.v82_eq,
    Cert.ReferenceIdeal.Norm.v76_eq]
  unfold K40
  exact bridge_hidden _ _ _ (Cert.ReferenceIdeal.Norm.v59_zero) _ _ _
    (fun r => Cert.ReferenceIdeal.ReadP.val_main_v32 (F := Ideal) (m ((c : Thread nD τ).loc main_arg11)) (ix1 r))
    (wt_real m c) (Cert.ReferenceIdeal.Norm.norm_fact _) _ _ _ _ _ _ _ _ _ _ _ _ _ _
    (row_of_vec256 _) (row_of_vec16 _) (row_of_vec16 _) (row_of_vec16 _) (col_of_vec _)

/-- Every entry of the degree weights is a real number. -/
theorem isR_v32 (x11 : (⟨S2x6400000, .i32⟩ : BufTy).Contents (Elt Ideal)) (k : (⟨1, ![200000]⟩ : Shape).Idx) :
    IsR (Cert.ReferenceIdeal.ReadP.val_main_v32 (F := Ideal) x11 k) := by
  rw [eq_ix1 k]
  obtain ⟨x, _, hx⟩ := Cert.ReferenceIdeal.Norm.wt_real x11 (k 0)
  exact ⟨x, hx⟩

/-- THE RETURNED COLUMN: the kernel's first result is the reference's stage of the same arguments, the arguments being
    real numbers. -/
theorem result_out (c : Dev nD)
    (h0 : ∀ i, IsR ((m ((c : Thread nD τ).loc main_arg0) : (⟨2, ![200000, 128]⟩ : Shape).Idx → EReal) i))
    (h1 : ∀ i, IsR ((m ((c : Thread nD τ).loc main_arg1) : (⟨2, ![128, 256]⟩ : Shape).Idx → EReal) i))
    (h2 : ∀ i, IsR ((m ((c : Thread nD τ).loc main_arg2) : (⟨1, ![256]⟩ : Shape).Idx → EReal) i))
    (h3 : ∀ i, IsR ((m ((c : Thread nD τ).loc main_arg3) : (⟨2, ![256, 16]⟩ : Shape).Idx → EReal) i))
    (h4 : ∀ i, IsR ((m ((c : Thread nD τ).loc main_arg4) : (⟨1, ![16]⟩ : Shape).Idx → EReal) i))
    (h5 : ∀ i, IsR ((m ((c : Thread nD τ).loc main_arg5) : (⟨2, ![16, 16]⟩ : Shape).Idx → EReal) i))
    (h6 : ∀ i, IsR ((m ((c : Thread nD τ).loc main_arg6) : (⟨1, ![16]⟩ : Shape).Idx → EReal) i))
    (h7 : ∀ i, IsR ((m ((c : Thread nD τ).loc main_arg7) : (⟨2, ![16, 16]⟩ : Shape).Idx → EReal) i))
    (h8 : ∀ i, IsR ((m ((c : Thread nD τ).loc main_arg8) : (⟨1, ![16]⟩ : Shape).Idx → EReal) i))
    (h9 : ∀ i, IsR ((m ((c : Thread nD τ).loc main_arg9) : (⟨2, ![16, 2]⟩ : Shape).Idx → EReal) i))
    (h10 : ∀ i, IsR ((m ((c : Thread nD τ).loc main_arg10) : (⟨1, ![2]⟩ : Shape).Idx → EReal) i)) :
    W9 m ρ c (Proc.devRef .tc main_v47)
    = Cert.ReferenceIdeal.ReadP.val_main_v96 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) := by
  funext i
  obtain ⟨r, rfl⟩ : ∃ r : Fin 200000, i = ix1 r := ⟨i 0, eq_ix1 i⟩
  rw [W9_v47, vec_of_col, W8_v46_1, W7_v40_eq, W7_v43_eq, W7_v15_eq, W7_v44_eq, W7_v45_eq]
  rw [Cert.ReferenceIdeal.Hand.ref_v96, Cert.ReferenceIdeal.Hand.ref_v91, Cert.ReferenceIdeal.Hand.ref_v83, Cert.ReferenceIdeal.Hand.ref_v70,
    Cert.ReferenceIdeal.Hand.ref_v69, Cert.ReferenceIdeal.Hand.ref_v61, Cert.ReferenceIdeal.Hand.ref_v48, Cert.ReferenceIdeal.Norm.v79_eq,
    Cert.ReferenceIdeal.Norm.v82_eq, Cert.ReferenceIdeal.Norm.v76_eq]
  unfold K40
  refine bridge_out _ _ _ (Cert.ReferenceIdeal.Norm.v59_zero) _ _ _
    (fun r => Cert.ReferenceIdeal.ReadP.val_main_v32 (F := Ideal) (m ((c : Thread nD τ).loc main_arg11)) (ix1 r))
    (wt_real m c) (Cert.ReferenceIdeal.Norm.norm_fact _) _ _ _ _ _ _ _ _ _ _ _ h9 h10 _ _ _ _ _ _ _
    (row_of_vec256 _) (row_of_vec16 _) (row_of_vec16 _) (row_of_vec16 _) (col_of_vec _) (pwsum_apply _) (pbsum_apply _) ?_ r
  exact isR_hidden _ _ _ _ _ _ _ _ _ _ _ _ _ _ _
    (fun i => by rw [Cert.ReferenceIdeal.Norm.v59_zero]; exact isR_zero) h0 h1 (fun i => h2 _) h3 (fun i => h4 _) h5
    (fun i => isR_v32 _ _) (fun i => h6 _) h7 (fun i => h8 _)

end Cert.KernelIdeal.Hand

end
-- ==== Proof.FiniteArgs.lean ====
/-
  From the precondition "the absolute value of every entry of every float argument is below +∞" to
  "every entry of every float argument is a real number".
-/
import proofs.«100905_j38654705664132_2_alg».proof.Pre_finite_inputs
import proofs.«100905_j38654705664132_2_alg».proof.Proof.Spec
import Idealize.ShloMosaic.Lib.ReduceAll
import Idealize.ShloMosaic.Lib.ValueIdx

noncomputable section

namespace Cert.Gnn

open Idealize.ShloMosaic

/-- The scalar shape has one index. -/
instance subsingleton_scalarIdx : Subsingleton Cert.Pre_finite_inputs.S_.Idx :=
  ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real whose absolute value max x (-x) compares below +∞ is a real number: at ⊤ and at ⊥ the
    absolute value is ⊤, which is not below ⊤. -/
theorem isR_of_abs_lt_inf (x : EReal)
    (h : FloatOps.cmpf (F := Ideal) (φ := .f32) .olt (FloatOps.hostAbsf (F := Ideal) (φ := .f32) x)
          (FloatOps.ofBits (F := Ideal) .f32 0x7F800000#32) = 1#1) : IsR x := by
  change Ideal.cmp .olt (max x (-x)) (Ideal.ofBits .f32 0x7F800000#32) = 1#1 at h
  rw [ofBits_inf] at h
  unfold Ideal.cmp at h
  have hlt : max x (-x) < ⊤ := by
    by_contra hn
    simp [hn] at h
  induction x using EReal.rec with
  | bot => simp at hlt
  | coe r => exact ⟨r, rfl⟩
  | top => simp at hlt

/-- The array form: where the conjunction over all entries of |x| < +∞ is 1, every entry of x is a real number. -/
theorem isR_of_all_abs_lt_inf {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
          (cmpf .olt (Host.absf x) (broadcastInDim s ![] hb (constant Cert.Pre_finite_inputs.S_ .f32 0x7F800000#32)))
          (constantI Cert.Pre_finite_inputs.S_ 1 1#1) hr hu ValueIdx.ix0 = 1#1) :
    ∀ i, IsR (x i) := by
  intro i
  exact isR_of_abs_lt_inf (x i) (Host.reduce_andi_all _ _ hr hu _ h i)

open Cert.Pre_finite_inputs in
/-- Under the precondition — the conjunction, over the eleven float arguments, of "every |entry| is below +∞" is 1 —
    every entry of every float argument is a real number. The conjunction is a left-nested chain of one-bit "and"s at the
    scalar shape's one index; each conjunct is one array's reduce-and, read back entry by entry. -/
theorem finite_args [Cert.Pre_finite_inputs.Facts]
    (a0 : FVec Ideal S200000x128 .f32) (a1 : FVec Ideal S128x256 .f32) (a2 : FVec Ideal S256 .f32)
    (a3 : FVec Ideal S256x16 .f32) (a4 : FVec Ideal S16 .f32) (a5 : FVec Ideal S16x16 .f32)
    (a6 : FVec Ideal S16 .f32) (a7 : FVec Ideal S16x16 .f32) (a8 : FVec Ideal S16 .f32)
    (a9 : FVec Ideal S16x2 .f32) (a10 : FVec Ideal S2 .f32) (a11 : IVec S2x6400000 32)
    (h : Cert.Pre_finite_inputs.fn (F := Ideal) a0 a1 a2 a3 a4 a5 a6 a7 a8 a9 a10 a11 = fun _ => 1#1) :
    (∀ i, IsR (a0 i)) ∧ (∀ i, IsR (a1 i)) ∧ (∀ i, IsR (a2 i)) ∧ (∀ i, IsR (a3 i)) ∧ (∀ i, IsR (a4 i)) ∧
    (∀ i, IsR (a5 i)) ∧ (∀ i, IsR (a6 i)) ∧ (∀ i, IsR (a7 i)) ∧ (∀ i, IsR (a8 i)) ∧ (∀ i, IsR (a9 i)) ∧
    (∀ i, IsR (a10 i)) := by
  have h0 := congrFun h ValueIdx.ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨e0, e1⟩, e2⟩, e3⟩, e4⟩, e5⟩, e6⟩, e7⟩, e8⟩, e9⟩, e10⟩ := h0
  exact ⟨isR_of_all_abs_lt_inf a0 _ _ _ e0, isR_of_all_abs_lt_inf a1 _ _ _ e1, isR_of_all_abs_lt_inf a2 _ _ _ e2,
    isR_of_all_abs_lt_inf a3 _ _ _ e3, isR_of_all_abs_lt_inf a4 _ _ _ e4, isR_of_all_abs_lt_inf a5 _ _ _ e5,
    isR_of_all_abs_lt_inf a6 _ _ _ e6, isR_of_all_abs_lt_inf a7 _ _ _ e7, isR_of_all_abs_lt_inf a8 _ _ _ e8,
    isR_of_all_abs_lt_inf a9 _ _ _ e9, isR_of_all_abs_lt_inf a10 _ _ _ e10⟩

end Cert.Gnn

end
-- ==== Proof.lean ====
/-
  The certificate: a node network computed by three pipelined kernels with the edge gathers and sums on the host,
  against its plain reference, over the extended reals.

  Frames: the two kernel programs' frames are generated whole; the reference's is its run with the results dropped.
  The ideal pass rewrote nothing, so there is nothing to preserve. The algebraic claim: the kernel program's two results,
  read back through its regions and host stretches, are the reference's two result stages of the same arguments
  (`Proof/Final.lean`): the kernel scales each node's row by the node's inverse square-root degree before the gather
  and again after the sum over arriving edges, where the reference weights every edge by the product of the two
  factors — equal because the destination's factor is a nonnegative real and moves out of the sum — and the kernel
  folds the two projection columns before the row product, equal because every quantity is a real number under the
  precondition.
-/
import proofs.«100905_j38654705664132_2_alg».proof.Defs
import proofs.«100905_j38654705664132_2_alg».proof.Proof.Gen.Kernel
import proofs.«100905_j38654705664132_2_alg».proof.Proof.Gen.Kernel.Skeleton
import proofs.«100905_j38654705664132_2_alg».proof.Proof.Gen.Kernel.Launch
import proofs.«100905_j38654705664132_2_alg».proof.Proof.Gen.Kernel.Points
import proofs.«100905_j38654705664132_2_alg».proof.Proof.Gen.Kernel.Frame
import proofs.«100905_j38654705664132_2_alg».proof.Proof.Gen.KernelIdeal
import proofs.«100905_j38654705664132_2_alg».proof.Proof.Gen.KernelIdeal.Skeleton
import proofs.«100905_j38654705664132_2_alg».proof.Proof.Gen.KernelIdeal.Launch
import proofs.«100905_j38654705664132_2_alg».proof.Proof.Gen.KernelIdeal.Points
import proofs.«100905_j38654705664132_2_alg».proof.Proof.Gen.KernelIdeal.Frame
import proofs.«100905_j38654705664132_2_alg».proof.Proof.Gen.ReferenceIdeal
import proofs.«100905_j38654705664132_2_alg».proof.Proof.Gen.Pre_finite_inputs
import proofs.«100905_j38654705664132_2_alg».proof.Proof.RefRead
import proofs.«100905_j38654705664132_2_alg».proof.Proof.KRun
import proofs.«100905_j38654705664132_2_alg».proof.Proof.Final
import proofs.«100905_j38654705664132_2_alg».proof.Proof.FiniteArgs
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both programs, from memories agreeing on the arguments, end with the reference's two result stages of the kernel
    program's arguments. -/
theorem algebraic : Cert.algebraic_KernelIdeal_ReferenceIdeal := by
  intro m ρ m' ρ' hpre hagree
  refine ⟨fun c => Cert.ReferenceIdeal.ReadP.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.ReadP.val_main_v91 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.Hand.run_named (F := Ideal) m ρ)
    obtain ⟨f0, f1, f2, f3, f4, f5, f6, f7, f8, f9, f10⟩ := Cert.Gnn.finite_args _ _ _ _ _ _ _ _ _ _ _ _ (hpre c)
    exact ⟨(h c).1.trans (Cert.KernelIdeal.Hand.result_out m ρ c f0 f1 f2 f3 f4 f5 f6 f7 f8 f9 f10),
      (h c).2.1.trans (Cert.KernelIdeal.Hand.result_hidden m ρ c), (h c).2.2⟩
  · refine (θ_run Cert.ReferenceIdeal.defs _ _).mono (fun r h c => ?_) (Cert.ReferenceIdeal.ValueP.run (F := Ideal) m' ρ')
    obtain ⟨e0, e1, e2, e3, e4, e5, e6, e7, e8, e9, e10, e11⟩ := hagree c
    refine ⟨(h c).1.trans ?_, (h c).2.1.trans ?_, (h c).2.2⟩
    · rw [Cert.ReferenceIdeal.ReadP.val_main_v96_eq, e0, e1, e2, e3, e4, e5, e6, e7, e8, e9, e10, e11]
    · rw [Cert.ReferenceIdeal.ReadP.val_main_v91_eq, e0, e1, e2, e3, e4, e5, e6, e7, e8, e11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
